-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S8192x8x2048 : Shape := ⟨3, ![8192, 8, 2048]⟩
abbrev S8x4096x1024 : Shape := ⟨3, ![8, 4096, 1024]⟩
abbrev S8x1x1024 : Shape := ⟨3, ![8, 1, 1024]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S8192x8x2048 : S_.BroadcastsInDim S8192x8x2048 (![] : Fin 0 → Fin S8192x8x2048.rank)
  reducesTo_S8192x8x2048_S_d0_1_2 : S8192x8x2048.ReducesTo [0, 1, 2] S_
  bcast_S_S8x4096x1024 : S_.BroadcastsInDim S8x4096x1024 (![] : Fin 0 → Fin S8x4096x1024.rank)
  reducesTo_S8x4096x1024_S_d0_1_2 : S8x4096x1024.ReducesTo [0, 1, 2] S_
  bcast_S_S8x1x1024 : S_.BroadcastsInDim S8x1x1024 (![] : Fin 0 → Fin S8x1x1024.rank)
  reducesTo_S8x1x1024_S_d0_1_2 : S8x1x1024.ReducesTo [0, 1, 2] S_

variable [Facts]

def fn_part1 {F : FTy → Type} [FloatOps F] (main_v13 : IVec S_ 1) (main_v16 : IVec S8x1x1024 1) : IVec S_ 1 :=
  let main_c_5 : IVec S_ 1 := constantI S_ 1 1#1
  let main_v17 : IVec S_ 1 := (fun x v => Host.reduce IntOp.andi x v reducesTo_S8x1x1024_S_d0_1_2 h_S_) main_v16 main_c_5
  let main_v18 : IVec S_ 1 := andi main_v13 main_v17
  main_v18

def fn {F : FTy → Type} [FloatOps F] (main_arg0 : FVec F S16384x4096 .f32) (main_arg1 : FVec F S8192x8x2048 .f32) (main_arg2 : FVec F S8x4096x1024 .f32) (main_arg3 : FVec F S8x1x1024 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S8192x8x2048 .f32 := Host.absf main_arg1
  let main_cst_0 : FVec F S_ .f32 := constant S_ .f32 0x7F800000#32
  let main_v5 : FVec F S8192x8x2048 .f32 := broadcastInDim S8192x8x2048 ![] bcast_S_S8192x8x2048 main_cst_0
  let main_v6 : IVec S8192x8x2048 1 := cmpf .olt main_v4 main_v5
  let main_c_1 : IVec S_ 1 := constantI S_ 1 1#1
  let main_v7 : IVec S_ 1 := (fun x v => Host.reduce IntOp.andi x v reducesTo_S8192x8x2048_S_d0_1_2 h_S_) main_v6 main_c_1
  let main_v8 : IVec S_ 1 := andi main_v3 main_v7
  let main_v9 : FVec F S8x4096x1024 .f32 := Host.absf main_arg2
  let main_cst_2 : FVec F S_ .f32 := constant S_ .f32 0x7F800000#32
  let main_v10 : FVec F S8x4096x1024 .f32 := broadcastInDim S8x4096x1024 ![] bcast_S_S8x4096x1024 main_cst_2
  let main_v11 : IVec S8x4096x1024 1 := cmpf .olt main_v9 main_v10
  let main_c_3 : IVec S_ 1 := constantI S_ 1 1#1
  let main_v12 : IVec S_ 1 := (fun x v => Host.reduce IntOp.andi x v reducesTo_S8x4096x1024_S_d0_1_2 h_S_) main_v11 main_c_3
  let main_v13 : IVec S_ 1 := andi main_v8 main_v12
  let main_v14 : FVec F S8x1x1024 .f32 := Host.absf main_arg3
  let main_cst_4 : FVec F S_ .f32 := constant S_ .f32 0x7F800000#32
  let main_v15 : FVec F S8x1x1024 .f32 := broadcastInDim S8x1x1024 ![] bcast_S_S8x1x1024 main_cst_4
  let main_v16 : IVec S8x1x1024 1 := cmpf .olt main_v14 main_v15
  fn_part1 (F := F) main_v13 main_v16
-- ==== Kernel.lean ====
abbrev S16384x4096 : Shape := ⟨2, ![16384, 4096]⟩
abbrev S8192x8x2048 : Shape := ⟨3, ![8192, 8, 2048]⟩
abbrev S8x4096x1024 : Shape := ⟨3, ![8, 4096, 1024]⟩
abbrev S8x1x1024 : Shape := ⟨3, ![8, 1, 1024]⟩
abbrev S16384x1024 : Shape := ⟨2, ![16384, 1024]⟩
abbrev S2048x512 : Shape := ⟨2, ![2048, 512]⟩
abbrev S1x512x1024 : Shape := ⟨3, ![1, 512, 1024]⟩
abbrev S1x1x1024 : Shape := ⟨3, ![1, 1, 1024]⟩
abbrev S2048x1024 : Shape := ⟨2, ![2048, 1024]⟩
abbrev S512x1024 : Shape := ⟨2, ![512, 1024]⟩
abbrev S1024 : Shape := ⟨1, ![1024]⟩
abbrev S1x1024 : Shape := ⟨2, ![1, 1024]⟩
abbrev S8192x16384 : Shape := ⟨2, ![8192, 16384]⟩
abbrev S8192x1024 : Shape := ⟨2, ![8192, 1024]⟩
abbrev S1024x1024 : Shape := ⟨2, ![1024, 1024]⟩
abbrev S4x2048x1024 : Shape := ⟨3, ![4, 2048, 1024]⟩

abbrev nBuf : Space → Nat
  | .hbm => 8
  | .vmem => 16
  | .smem => 0
  | _ => 0

abbrev bufTy : (tb : Table) → Fin (tcTables nBuf tb) → BufTy
  | .hbm, ⟨0, _⟩ => ⟨S16384x4096, .f32⟩
  | .hbm, ⟨1, _⟩ => ⟨S8192x8x2048, .f32⟩
  | .hbm, ⟨2, _⟩ => ⟨S8x4096x1024, .f32⟩
  | .hbm, ⟨3, _⟩ => ⟨S8x1x1024, .f32⟩
  | .hbm, ⟨4, _⟩ => ⟨S16384x1024, .bf16⟩
  | .hbm, ⟨5, _⟩ => ⟨S8192x16384, .f32⟩
  | .hbm, ⟨6, _⟩ => ⟨S8192x1024, .f32⟩
  | .hbm, ⟨7, _⟩ => ⟨S4x2048x1024, .f32⟩
  | .local _ .vmem, ⟨0, _⟩ => ⟨S2048x512, .f32⟩
  | .local _ .vmem, ⟨1, _⟩ => ⟨S2048x512, .f32⟩
  | .local _ .vmem, ⟨2, _⟩ => ⟨S1x512x1024, .f32⟩
  | .local _ .vmem, ⟨3, _⟩ => ⟨S1x512x1024, .f32⟩
  | .local _ .vmem, ⟨4, _⟩ => ⟨S1x1x1024, .f32⟩
  | .local _ .vmem, ⟨5, _⟩ => ⟨S1x1x1024, .f32⟩
  | .local _ .vmem, ⟨6, _⟩ => ⟨S2048x1024, .bf16⟩
  | .local _ .vmem, ⟨7, _⟩ => ⟨S2048x1024, .bf16⟩
  | .local _ .vmem, ⟨8, _⟩ => ⟨S2048x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨3, ![8, 1, 8], ![false, false, false]⟩

def k0_cond2 (i : grid0.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  ![v1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨2, ![8, 16], ![false, false]⟩

def k1_cond2 (i : grid1.Coords) : BitVec 1 :=
  let arg1 : BitVec 32 := BitVec.ofNat 32 (i 1).val
  let c15_i32 : BitVec 32 := 15#32
  let v14 : BitVec 1 := Scalar.cmpi .eq arg1 c15_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1024 : S1x1x1024.ShapeCasts S1024
  shapeCasts_S1024_S1x1024 : S1024.ShapeCasts S1x1024
  broadcasts_S1x1024_S2048x1024 : S1x1024.Broadcasts S2048x1024
  packedbf16_S2048x1024_S2048x1024_0_0 : (Rect.unit (s := S2048x1024) ![0, 0] S2048x1024.size inb_S2048x1024_S2048x1024_0_0).PackedRows (EltTy.packing .bf16)
  shapeCasts_S8192x8x2048_S8192x16384 : S8192x8x2048.ShapeCasts S8192x16384
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S8192x1024_S4x2048x1024 : S8192x1024.ShapeCasts S4x2048x1024
  dot_S2048x512_S512x1024_S2048x1024_1_0_0_1_n_n_wf : DotDims.WF S2048x512 S512x1024 S2048x1024 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x4096.size a
  hwx0_0 : ∀ i : grid0.Coords, EltTy.bits .f32 = 32 ∨ (Rect.block (s := S16384x4096) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S8x4096x1024.size a
  hwx0_1 : ∀ i : grid0.Coords, EltTy.bits .f32 = 32 ∨ (Rect.block (s := S8x4096x1024) S1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S8x1x1024.size a
  hwx0_2 : ∀ i : grid0.Coords, EltTy.bits .f32 = 32 ∨ (Rect.block (s := S8x1x1024) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S16384x1024.size a
  hwx0_3 : ∀ i : grid0.Coords, EltTy.bits .bf16 = 32 ∨ (Rect.block (s := S16384x1024) S2048x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x16384.size a
  hwx1_0 : ∀ i : grid1.Coords, EltTy.bits .f32 = 32 ∨ (Rect.block (s := S8192x16384) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S16384x1024.size a
  hwx1_1 : ∀ i : grid1.Coords, EltTy.bits .bf16 = 32 ∨ (Rect.block (s := S16384x1024) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x1024.size a
  hwx1_2 : ∀ i : grid1.Coords, EltTy.bits .f32 = 32 ∨ (Rect.block (s := S8192x1024) S1024x1024.size (cc1_transform_2 i) (hinb1_2 i)).WholeWords (EltTy.packing .f32)

variable [Facts₀]

def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S16384x4096 : Shape := ⟨2, ![16384, 4096]⟩
abbrev S8192x8x2048 : Shape := ⟨3, ![8192, 8, 2048]⟩
abbrev S8x4096x1024 : Shape := ⟨3, ![8, 4096, 1024]⟩
abbrev S8x1x1024 : Shape := ⟨3, ![8, 1, 1024]⟩
abbrev S8x2048x4096 : Shape := ⟨3, ![8, 2048, 4096]⟩
abbrev S8x2048x1024 : Shape := ⟨3, ![8, 2048, 1024]⟩
abbrev S8x1x2048x1024 : Shape := ⟨4, ![8, 1, 2048, 1024]⟩
abbrev S1x8x2048x1024 : Shape := ⟨4, ![1, 8, 2048, 1024]⟩
abbrev S16384x1024 : Shape := ⟨2, ![16384, 1024]⟩
abbrev S8192x16384 : Shape := ⟨2, ![8192, 16384]⟩
abbrev S8192x1024 : Shape := ⟨2, ![8192, 1024]⟩
abbrev S4x2048x1024 : Shape := ⟨3, ![4, 2048, 1024]⟩

abbrev nBuf : Space → Nat
  | .hbm => 14
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S8192x8x2048, .f32⟩
  | .hbm, ⟨2, _⟩ => ⟨S8x4096x1024, .f32⟩
  | .hbm, ⟨3, _⟩ => ⟨S8x1x1024, .f32⟩
  | .hbm, ⟨4, _⟩ => ⟨S8x2048x4096, .f32⟩
  | .hbm, ⟨5, _⟩ => ⟨S8x2048x1024, .f32⟩
  | .hbm, ⟨6, _⟩ => ⟨S8x2048x1024, .f32⟩
  | .hbm, ⟨7, _⟩ => ⟨S8x2048x1024, .f32⟩
  | .hbm, ⟨8, _⟩ => ⟨S8x1x2048x1024, .f32⟩
  | .hbm, ⟨9, _⟩ => ⟨S1x8x2048x1024, .f32⟩
  | .hbm, ⟨10, _⟩ => ⟨S16384x1024, .f32⟩
  | .hbm, ⟨11, _⟩ => ⟨S8192x16384, .f32⟩
  | .hbm, ⟨12, _⟩ => ⟨S8192x1024, .f32⟩
  | .hbm, ⟨13, _⟩ => ⟨S4x2048x1024, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  shapeCasts_S16384x4096_S8x2048x4096 : S16384x4096.ShapeCasts S8x2048x4096
  bcast_S8x1x1024_S8x2048x1024_0_1_2 : S8x1x1024.BroadcastsInDim S8x2048x1024 (![0, 1, 2] : Fin 3 → Fin S8x2048x1024.rank)
  shapeCasts_S8x2048x1024_S8x1x2048x1024 : S8x2048x1024.ShapeCasts S8x1x2048x1024
  transposes_S8x1x2048x1024_S1x8x2048x1024_1_0_2_3 : S8x1x2048x1024.Transposes [1, 0, 2, 3] S1x8x2048x1024
  shapeCasts_S1x8x2048x1024_S16384x1024 : S1x8x2048x1024.ShapeCasts S16384x1024
  shapeCasts_S8192x8x2048_S8192x16384 : S8192x8x2048.ShapeCasts S8192x16384
  shapeCasts_S8192x1024_S4x2048x1024 : S8192x1024.ShapeCasts S4x2048x1024
  dot_S8x2048x4096_S8x4096x1024_S8x2048x1024_2_1_1_2_0_0_wf : DotDims.WF S8x2048x4096 S8x4096x1024 S8x2048x1024 [2] [1] [1] [2] [0] [0]
  dot_S8192x16384_S16384x1024_S8192x1024_1_0_0_1_n_n_wf : DotDims.WF S8192x16384 S16384x1024 S8192x1024 [1] [0] [0] [1] [] []

variable [Facts₀]

def dot_S8x2048x4096_S8x4096x1024_S8x2048x1024_2_1_1_2_0_0 : DotDims S8x2048x4096 S8x4096x1024 S8x2048x1024 where
  lhsContracting := [2]
  rhsContracting := [1]
  lhsNonContracting := [1]
  rhsNonContracting := [2]
  lhsBatch := [0]
  rhsBatch := [0]
  wf := dot_S8x2048x4096_S8x4096x1024_S8x2048x1024_2_1_1_2_0_0_wf
def dot_S8192x16384_S16384x1024_S8192x1024_1_0_0_1_n_n : DotDims S8192x16384 S16384x1024 S8192x1024 where
  lhsContracting := [1]
  rhsContracting := [0]
  lhsNonContracting := [0]
  rhsNonContracting := [1]
  lhsBatch := []
  rhsBatch := []
  wf := dot_S8192x16384_S16384x1024_S8192x1024_1_0_0_1_n_n_wf

class Facts : Prop extends Facts₀ where

variable [Facts]
-- ==== Proof.Word.R0Base.lean ====
/-
  The first kernel (each expert's slot rows times the expert's matrix, plus its bias), on one core: what its body
  is handed and where it branches.

  Its grid is 8 experts by 1 row tile by 8 reduction steps; point `t` is expert `t / 8`, step `t % 8`. The body
  clears its accumulator at step 0, adds one 2048 x 512 by 512 x 1024 product at every step, and at step 7 adds the
  bias row to the accumulator and stores the sum into the output tile; at the other steps the output tile is left
  alone and not written back.
-/
import proofs.«118624_j71571335020920_2_alg».proof.Proof.Gen.Kernel.Launch
import proofs.«118624_j71571335020920_2_alg».proof.Proof.Gen.Kernel.Skeleton
import proofs.«118624_j71571335020920_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- core `c`'s buffer contents when the kernel is entered: the parameter everything here is stated at
variable (V : (c : Dev nD) → (b : Ref sig .tc) → Buf (Elt F) ((c : Thread nD τ).loc b))

/-! ## The windows' blocks -/

/-- Window `w`'s block at point `t`, read off its array as the kernel finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The slot rows' staging buffer holds their block at every point, for any proof data over `V` whose body leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the matrix block's staging buffer. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same for the bias row's staging buffer (fetched once per expert; its block does not move in between). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branches, decided over the grid -/

/-- "This is reduction step 0", as the body computes it. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "This is reduction step 7", as the body computes it. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the output tile is idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
theorem idleAt0_3_B : ∀ t : Fin cfg0.N, ¬cond0_0 (grid0.coords t) → ¬cond0_1 (grid0.coords t) → cfg0.idle 3 (grid0.coords t) = true := by decide +kernel
theorem noFlush0_3_B : ∀ t : Fin cfg0.N, ¬cond0_0 (grid0.coords t) → ¬cond0_1 (grid0.coords t) → (cfg0.win 3).flush t = false := by decide +kernel
theorem liveAt0_3_C : ∀ t : Fin cfg0.N, ¬cond0_0 (grid0.coords t) → cond0_1 (grid0.coords t) → cfg0.idle 3 (grid0.coords t) = false := by decide +kernel

/-! ## The memrefs the body is called with -/

/-- One staging buffer of the output tile, through which its contents are stated. -/
abbrev VO0_3 : View sig .tc .vmem S2048x1024 .bf16 := (Memref.whole cc0_stg3_0 : Memref sig .tc .vmem S2048x1024 .bf16).view
abbrev ms0_0 (t : Fin cfg0.N) : Memref sig .tc .vmem S2048x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x1024 .bf16 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0_0 : Memref sig .tc .vmem S2048x1024 .f32 := Memref.whole cc0_scratch0
abbrev VS0_0 : View sig .tc .vmem S2048x1024 .f32 := scM0_0.view

/-! ## The scoped buffers the kernel does not stage: the accumulator and the rest -/

/-- Every scoped buffer that is neither a staging buffer of this kernel nor its accumulator, each at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The unstaged scoped buffers are the accumulator, at some contents, beside the others. -/
theorem split0 (c : Dev nD) :
    (Pipeline.scopedRest (Ix := Unit) (Name := ℕ) (U := UR sig nD τ) (Lvl := ℕ) (Val := Elt F) spec0 c : sProp 𝕄)
      ⊢ iprop((∃ d, owns (c : Thread nD τ) scM0_0 fullShare d) ∗ others0 (F := F) c) := by
  rw [scopedRest0_eq]; unfold others0; simp only [scM0_0, owns_whole]
  exact BI.Entails.refl _

/-- And back. -/
theorem join0 (c : Dev nD) :
    iprop((∃ d, owns (c : Thread nD τ) scM0_0 fullShare d) ∗ others0 (F := F) c)
      ⊢ (Pipeline.scopedRest (Ix := Unit) (Name := ℕ) (U := UR sig nD τ) (Lvl := ℕ) (Val := Elt F) spec0 c : sProp 𝕄) := by
  rw [scopedRest0_eq]; unfold others0; simp only [scM0_0, owns_whole]
  exact BI.Entails.refl _

end Cert.Kernel.Hand

end
-- ==== Proof.Word.R0RunA.lean ====
/-
  The first kernel's body at a point of reduction step 0 (and not step 7): the accumulator is cleared and the
  first product added; the output tile is handed back untouched.
-/
import proofs.«118624_j71571335020920_2_alg».proof.Proof.Word.R0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the accumulator at such a point, with the proof that the body runs: the inputs
    at their contents and handed back as they were, the output tile at any contents and handed back at the same,
    the accumulator entered at anything. -/
noncomputable def kernelRun0_A (c : Dev nD) (i : grid0.Coords) (arg3 : Memref sig .tc .vmem S2048x512 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S2048x1024 .bf16) (harg6 : arg6.IsWhole) (arg7 : Memref sig .tc .vmem S2048x1024 .f32) (harg7 : arg7.IsWhole) (hc0 : cond0_0 i) (hc1 : ¬cond0_1 i)
    (x0 : Vec F S2048x512 .f32) (x1 : Vec F S1x512x1024 .f32) (x2 : Vec F S1x1x1024 .f32) :
    Σ' (L3 : List (View.Piece (Elt F) S2048x1024 .bf16)), { LS0 : List (View.Piece (Elt F) S2048x1024 .f32) //
      ∀ (xi3 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__expert_gemm_kernel i arg3 harg3 arg4 harg4 arg5 harg5 arg6 harg6 arg7 harg7) K } := by
  refine ⟨[], ?_, fun xi3 E K => ?run⟩
  case run =>
    simp only [cc0__expert_gemm_kernel_eq_skeleton]; unfold cc0__expert_gemm_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.Word.R0RunB.lean ====
/-
  The first kernel's body at a point that is neither reduction step 0 nor step 7: one product is added to the
  accumulator; the output tile is handed back untouched.
-/
import proofs.«118624_j71571335020920_2_alg».proof.Proof.Word.R0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the accumulator at such a point, with the proof that the body runs: the
    accumulator entered at the contents `xs0` the point before left. -/
noncomputable def kernelRun0_B (c : Dev nD) (i : grid0.Coords) (arg3 : Memref sig .tc .vmem S2048x512 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond0_0 i) (hc1 : ¬cond0_1 i)
    (x0 : Vec F S2048x512 .f32) (x1 : Vec F S1x512x1024 .f32) (x2 : Vec F S1x1x1024 .f32) (xs0 : Vec F S2048x1024 .f32) :
    Σ' (L3 : List (View.Piece (Elt F) S2048x1024 .bf16)), { LS0 : List (View.Piece (Elt F) S2048x1024 .f32) //
      ∀ (xi3 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__expert_gemm_kernel i arg3 harg3 arg4 harg4 arg5 harg5 arg6 harg6 arg7 harg7) K } := by
  refine ⟨[], ?_, fun xi3 E K => ?run⟩
  case run =>
    simp only [cc0__expert_gemm_kernel_eq_skeleton]; unfold cc0__expert_gemm_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.Word.R0RunC.lean ====
/-
  The first kernel's body at a point of reduction step 7 (and not step 0): the last product is added to the
  accumulator, and the accumulator plus the bias row is stored into the output tile.
-/
import proofs.«118624_j71571335020920_2_alg».proof.Proof.Word.R0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the output tile and in the accumulator at such a point, with the proof that the
    body runs: the output tile entered at anything, the accumulator at the contents `xs0` the point before left. -/
noncomputable def kernelRun0_C (c : Dev nD) (i : grid0.Coords) (arg3 : Memref sig .tc .vmem S2048x512 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond0_0 i) (hc1 : cond0_1 i)
    (x0 : Vec F S2048x512 .f32) (x1 : Vec F S1x512x1024 .f32) (x2 : Vec F S1x1x1024 .f32) (xs0 : Vec F S2048x1024 .f32) :
    Σ' (L3 : List (View.Piece (Elt F) S2048x1024 .bf16)), { LS0 : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc0__expert_gemm_kernel i arg3 harg3 arg4 harg4 arg5 harg5 arg6 harg6 arg7 harg7) K } := by
  refine ⟨?_, ?_, fun E K => ?run⟩
  case run =>
    simp only [cc0__expert_gemm_kernel_eq_skeleton]; unfold cc0__expert_gemm_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Hand

end
-- ==== Proof.Word.R0Frame.lean ====
/-
  The first kernel (each expert's slot rows times its matrix, plus its bias): what its output tile and its accumulator hold after each grid point, the invariant
  that carries the accumulator from one point to the next, and the proof that the body, called at any point with its
  blocks in place, adds one product of a block of slot rows and a block of the expert's matrix and, at the last reduction step, stores the accumulator plus the bias row into the output tile.
-/
import proofs.«118624_j71571335020920_2_alg».proof.Proof.Word.R0RunA
import proofs.«118624_j71571335020920_2_alg».proof.Proof.Word.R0RunB
import proofs.«118624_j71571335020920_2_alg».proof.Proof.Word.R0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- core `c`'s buffer contents when the kernel is entered
variable (V : (c : Dev nD) → (b : Ref sig .tc) → Buf (Elt F) ((c : Thread nD τ).loc b))

/-! ## What each case leaves in the output tile and in the accumulator -/

/-- At a first reduction step the body stores nothing into the output tile: a placeholder nothing consults. -/
def out0_A_3 (c : Dev nD) (i : grid0.Coords) (arg3 : Memref sig .tc .vmem S2048x512 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S2048x1024 .bf16) (harg6 : arg6.IsWhole) (arg7 : Memref sig .tc .vmem S2048x1024 .f32) (harg7 : arg7.IsWhole) (hc0 : cond0_0 i) (hc1 : ¬cond0_1 i) (x0 : Vec F S2048x512 .f32) (x1 : Vec F S1x512x1024 .f32) (x2 : Vec F S1x1x1024 .f32) : Vec F S2048x1024 .bf16 :=
  VO0_3.read (Elt F) (VO0_3.writes (Elt F) VO0_3.junk (kernelRun0_A c i arg3 harg3 arg4 harg4 arg5 harg5 arg6 harg6 arg7 harg7 hc0 hc1 x0 x1 x2).1)

/-- The accumulator's pieces at a first reduction step cover it. -/
theorem scover0_A_0 (c : Dev nD) (i : grid0.Coords) (arg3 : Memref sig .tc .vmem S2048x512 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S2048x1024 .bf16) (harg6 : arg6.IsWhole) (arg7 : Memref sig .tc .vmem S2048x1024 .f32) (harg7 : arg7.IsWhole) (hc0 : cond0_0 i) (hc1 : ¬cond0_1 i) (x0 : Vec F S2048x512 .f32) (x1 : Vec F S1x512x1024 .f32) (x2 : Vec F S1x1x1024 .f32) (y : S2048x1024.Idx) :
    ∃ pc ∈ (kernelRun0_A c i arg3 harg3 arg4 harg4 arg5 harg5 arg6 harg6 arg7 harg7 hc0 hc1 x0 x1 x2).2.1, y ∈ pc.1.set :=
  View.cover_of_tiledL (kernelRun0_A c i arg3 harg3 arg4 harg4 arg5 harg5 arg6 harg6 arg7 harg7 hc0 hc1 x0 x1 x2).2.1 S2048x1024.size (by sl_kernel_rfl) y

/-- What a first reduction step leaves in the accumulator. -/
def sout0_A_0 (c : Dev nD) (i : grid0.Coords) (arg3 : Memref sig .tc .vmem S2048x512 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S2048x1024 .bf16) (harg6 : arg6.IsWhole) (arg7 : Memref sig .tc .vmem S2048x1024 .f32) (harg7 : arg7.IsWhole) (hc0 : cond0_0 i) (hc1 : ¬cond0_1 i) (x0 : Vec F S2048x512 .f32) (x1 : Vec F S1x512x1024 .f32) (x2 : Vec F S1x1x1024 .f32) : Vec F S2048x1024 .f32 :=
  VS0_0.read (Elt F) (VS0_0.writes (Elt F) VS0_0.junk (kernelRun0_A c i arg3 harg3 arg4 harg4 arg5 harg5 arg6 harg6 arg7 harg7 hc0 hc1 x0 x1 x2).2.1)

/-- At a middle reduction step the body stores nothing into the output tile: a placeholder nothing consults. -/
def out0_B_3 (c : Dev nD) (i : grid0.Coords) (arg3 : Memref sig .tc .vmem S2048x512 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond0_0 i) (hc1 : ¬cond0_1 i) (x0 : Vec F S2048x512 .f32) (x1 : Vec F S1x512x1024 .f32) (x2 : Vec F S1x1x1024 .f32) (xs0 : Vec F S2048x1024 .f32) : Vec F S2048x1024 .bf16 :=
  VO0_3.read (Elt F) (VO0_3.writes (Elt F) VO0_3.junk (kernelRun0_B c i arg3 harg3 arg4 harg4 arg5 harg5 arg6 harg6 arg7 harg7 hc0 hc1 x0 x1 x2 xs0).1)

/-- The accumulator's pieces at a middle reduction step cover it. -/
theorem scover0_B_0 (c : Dev nD) (i : grid0.Coords) (arg3 : Memref sig .tc .vmem S2048x512 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond0_0 i) (hc1 : ¬cond0_1 i) (x0 : Vec F S2048x512 .f32) (x1 : Vec F S1x512x1024 .f32) (x2 : Vec F S1x1x1024 .f32) (xs0 : Vec F S2048x1024 .f32) (y : S2048x1024.Idx) :
    ∃ pc ∈ (kernelRun0_B c i arg3 harg3 arg4 harg4 arg5 harg5 arg6 harg6 arg7 harg7 hc0 hc1 x0 x1 x2 xs0).2.1, y ∈ pc.1.set :=
  View.cover_of_tiledL (kernelRun0_B c i arg3 harg3 arg4 harg4 arg5 harg5 arg6 harg6 arg7 harg7 hc0 hc1 x0 x1 x2 xs0).2.1 S2048x1024.size (by sl_kernel_rfl) y

/-- What a middle reduction step leaves in the accumulator. -/
def sout0_B_0 (c : Dev nD) (i : grid0.Coords) (arg3 : Memref sig .tc .vmem S2048x512 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond0_0 i) (hc1 : ¬cond0_1 i) (x0 : Vec F S2048x512 .f32) (x1 : Vec F S1x512x1024 .f32) (x2 : Vec F S1x1x1024 .f32) (xs0 : Vec F S2048x1024 .f32) : Vec F S2048x1024 .f32 :=
  VS0_0.read (Elt F) (VS0_0.writes (Elt F) VS0_0.junk (kernelRun0_B c i arg3 harg3 arg4 harg4 arg5 harg5 arg6 harg6 arg7 harg7 hc0 hc1 x0 x1 x2 xs0).2.1)

/-- The output tile's pieces at a last reduction step cover it. -/
theorem cover0_C_3 (c : Dev nD) (i : grid0.Coords) (arg3 : Memref sig .tc .vmem S2048x512 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond0_0 i) (hc1 : cond0_1 i) (x0 : Vec F S2048x512 .f32) (x1 : Vec F S1x512x1024 .f32) (x2 : Vec F S1x1x1024 .f32) (xs0 : Vec F S2048x1024 .f32) (y : S2048x1024.Idx) :
    ∃ pc ∈ (kernelRun0_C c i arg3 harg3 arg4 harg4 arg5 harg5 arg6 harg6 arg7 harg7 hc0 hc1 x0 x1 x2 xs0).1, y ∈ pc.1.set :=
  View.cover_of_tiledL (kernelRun0_C c i arg3 harg3 arg4 harg4 arg5 harg5 arg6 harg6 arg7 harg7 hc0 hc1 x0 x1 x2 xs0).1 S2048x1024.size (by sl_kernel_rfl) y

/-- What a last reduction step leaves in the output tile. -/
def out0_C_3 (c : Dev nD) (i : grid0.Coords) (arg3 : Memref sig .tc .vmem S2048x512 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond0_0 i) (hc1 : cond0_1 i) (x0 : Vec F S2048x512 .f32) (x1 : Vec F S1x512x1024 .f32) (x2 : Vec F S1x1x1024 .f32) (xs0 : Vec F S2048x1024 .f32) : Vec F S2048x1024 .bf16 :=
  VO0_3.read (Elt F) (VO0_3.writes (Elt F) VO0_3.junk (kernelRun0_C c i arg3 harg3 arg4 harg4 arg5 harg5 arg6 harg6 arg7 harg7 hc0 hc1 x0 x1 x2 xs0).1)

/-- The accumulator's pieces at a last reduction step cover it. -/
theorem scover0_C_0 (c : Dev nD) (i : grid0.Coords) (arg3 : Memref sig .tc .vmem S2048x512 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond0_0 i) (hc1 : cond0_1 i) (x0 : Vec F S2048x512 .f32) (x1 : Vec F S1x512x1024 .f32) (x2 : Vec F S1x1x1024 .f32) (xs0 : Vec F S2048x1024 .f32) (y : S2048x1024.Idx) :
    ∃ pc ∈ (kernelRun0_C c i arg3 harg3 arg4 harg4 arg5 harg5 arg6 harg6 arg7 harg7 hc0 hc1 x0 x1 x2 xs0).2.1, y ∈ pc.1.set :=
  View.cover_of_tiledL (kernelRun0_C c i arg3 harg3 arg4 harg4 arg5 harg5 arg6 harg6 arg7 harg7 hc0 hc1 x0 x1 x2 xs0).2.1 S2048x1024.size (by sl_kernel_rfl) y

/-- What a last reduction step leaves in the accumulator. -/
def sout0_C_0 (c : Dev nD) (i : grid0.Coords) (arg3 : Memref sig .tc .vmem S2048x512 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond0_0 i) (hc1 : cond0_1 i) (x0 : Vec F S2048x512 .f32) (x1 : Vec F S1x512x1024 .f32) (x2 : Vec F S1x1x1024 .f32) (xs0 : Vec F S2048x1024 .f32) : Vec F S2048x1024 .f32 :=
  VS0_0.read (Elt F) (VS0_0.writes (Elt F) VS0_0.junk (kernelRun0_C c i arg3 harg3 arg4 harg4 arg5 harg5 arg6 harg6 arg7 harg7 hc0 hc1 x0 x1 x2 xs0).2.1)

/-! ## What they hold after each point -/

/-- The output tile's staging buffer and the accumulator after the body at position `n`: the case the position's
    reduction step selects, run on the point's blocks, the accumulator entered at what position `n - 1` left. -/
def outsAt0 (c : Dev nD) : (n : ℕ) → n < cfg0.N → Vec F S2048x1024 .bf16 × Vec F S2048x1024 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 8 = 0 then
      if h1 : (n + 1) % 8 = 7 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 8 = 7 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

/-- At a first reduction step. -/
theorem outsAt0_A (c : Dev nD) (t : Fin cfg0.N) (h0 : t.val % 8 = 0) (h1 : ¬t.val % 8 = 7) :
    outsAt0 V c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

/-- At a middle reduction step, over what the point before left. -/
theorem outsAt0_B (c : Dev nD) (t : Fin cfg0.N) (h0 : ¬t.val % 8 = 0) (h1 : ¬t.val % 8 = 7) :
    outsAt0 V c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last reduction step, over what the point before left. -/
theorem outsAt0_C (c : Dev nD) (t : Fin cfg0.N) (h0 : ¬t.val % 8 = 0) (h1 : t.val % 8 = 7) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: before the first point every unstaged scoped buffer is at anything; afterwards the accumulator
    holds what the point before left, the other scoped buffers anything, the generator register some state. -/
def PhiS0 (c : Dev nD) : (n : ℕ) → n ≤ cfg0.N → sProp 𝕄
  | 0, _ => Pipeline.ΦA spec0 c
  | n + 1, hn => iprop(owns (c : Thread nD τ) scM0_0 fullShare ((outsAt0 V c n hn).2) ∗ others0 (F := F) c ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0_0 fullShare ((outsAt0 V c n hn).2) ∗ others0 (F := F) c ∗ (∃ r, prngReg c r)) := rfl

theorem PhiS0_pos (c : Dev nD) (n : ℕ) (h : n ≤ cfg0.N) (hz : n ≠ 0) :
    PhiS0 V c n h = iprop(owns (c : Thread nD τ) scM0_0 fullShare ((outsAt0 V c (n - 1) (by omega)).2) ∗ others0 (F := F) c ∗ (∃ r, prngReg c r)) := by
  cases n with
  | zero => exact absurd rfl hz
  | succ n => rfl

/-! ## The proof data -/

/-- The kernel's proof data on core `c`: the arrays as the kernel finds them; after the body each input's buffer at
    its block and the output tile's at `outsAt0`; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' buffers hold their blocks; the point's reduction step selects the case; the
    invariant hands the body the accumulator at what the point before left (at anything at the very first point)
    and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h0 : t.val % 8 = 0
  · by_cases h1 : t.val % 8 = 7
    · exfalso; omega
    · rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz]; unfold Pipeline.ΦA
        iintro ⟨⟨Hsr, Hg⟩, Ho, ⟨%d0, H0⟩, ⟨%d1, H1⟩, ⟨%d2, H2⟩, ⟨%d3, H3⟩⟩
        ihave Hs := split0 (F := F) c $$ Hsr
        icases Hs with ⟨HS0, Hoth⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0]
          · unfold owns; iexists _; isplitr
            swap; · iexact HS0
            ipureintro; exact View.read_writes_of_cover _ _ _ _ _ (scover0_A_0 _ _ _ _ _ _ _ _ _ _ _ _ _ _ _ _ _)
          isplitl [Hoth]; · iexact Hoth
          iexact Hg
        isplitl [Ho]; · iexact Ho
        isplitl [H0]; · iexact H0
        isplitl [H1]; · iexact H1
        isplitl [H2]; · iexact H2
        iexists _; iexact H3
      · rw [PhiS0_castSucc V c t, PhiS0_pos V c _ _ hz]
        iintro ⟨⟨HS0, Hoth, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hoth Hg]
        · isplitl [HS0]
          · unfold owns; iexists _; isplitr
            swap; · iexact HS0
            ipureintro; exact View.read_writes_of_cover _ _ _ _ _ (scover0_A_0 _ _ _ _ _ _ _ _ _ _ _ _ _ _ _ _ _)
          isplitl [Hoth]; · iexact Hoth
          iexact Hg
        isplitl [Ho]; · iexact Ho
        isplitl [H0]; · iexact H0
        isplitl [H1]; · iexact H1
        isplitl [H2]; · iexact H2
        iexists _; iexact H3
  · by_cases h1 : t.val % 8 = 7
    · rw [show (dat0 V c).leavesExact 3 t = owns (c : Thread nD τ) (ms0_3 t) fullShare ((dat0 V c).after 3 t) from by
        unfold Dat.leavesExact; rw [liveAt0_3_C t (fun h => h0 ((hcond0_0 t).mp h)) ((hcond0_1 t).mpr h1)], after0_3]
      rw [outsAt0_C V c t h0 h1]
      unfold out0_C_3 sout0_C_0; (try dsimp only)
      have hz : t.val ≠ 0 := by omega
      rw [PhiS0_castSucc V c t, PhiS0_pos V c _ _ hz]
      iintro ⟨⟨HS0, Hoth, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hoth Hg]
      · isplitl [HS0]
        · unfold owns; iexists _; isplitr
          swap; · iexact HS0
          ipureintro; exact View.read_writes_of_cover _ _ _ _ _ (scover0_C_0 _ _ _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 _ _ _ _ _ _ _ _ _ _ _ _ _ _ _ _ _ _)
    · rw [Dat.leavesExact_idle (dat0 V c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [outsAt0_B V c t h0 h1]
      unfold sout0_B_0; (try dsimp only)
      have hz : t.val ≠ 0 := by omega
      rw [PhiS0_castSucc V c t, PhiS0_pos V c _ _ hz]
      iintro ⟨⟨HS0, Hoth, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0]
        · unfold owns; iexists _; isplitr
          swap; · iexact HS0
          ipureintro; exact View.read_writes_of_cover _ _ _ _ _ (scover0_B_0 _ _ _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      iexists _; iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

/-- The invariant before the first point is every unstaged scoped buffer at anything, beside the generator register. -/
theorem Phi_first0 (c : Dev nD) : (dat0 V c).Φ 0 = Pipeline.ΦA spec0 c := rfl

/-- After the last point the invariant gives the unstaged scoped buffers back, the accumulator's contents forgotten. -/
theorem Phi_last0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 64 := N_0; omega)]
  unfold Pipeline.ΦA
  iintro ⟨HS0, Hoth, Hg⟩
  isplitl [HS0 Hoth]
  · iapply (join0 (F := F) c)
    isplitl [HS0]; · iexists _; iexact HS0
    iexact Hoth
  iexact Hg

end Cert.Kernel.Hand

end
-- ==== Proof.Word.R1Base.lean ====
/-
  The second kernel (the weighted combination of the slot rows), on one core: what its body is handed and where
  it branches.

  Its grid is 8 row tiles by 16 reduction steps; point `t` is row tile `t / 16`, step `t % 16`. The body clears
  its accumulator at step 0, adds one 1024 x 1024 product at every step, and copies the accumulator into the
  output tile at step 15; at the other steps the output tile is left alone and not written back.
-/
import proofs.«118624_j71571335020920_2_alg».proof.Proof.Gen.Kernel.Launch
import proofs.«118624_j71571335020920_2_alg».proof.Proof.Gen.Kernel.Skeleton
import proofs.«118624_j71571335020920_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- core `c`'s buffer contents when the kernel is entered: the parameter everything here is stated at
variable (V : (c : Dev nD) → (b : Ref sig .tc) → Buf (Elt F) ((c : Thread nD τ).loc b))

/-! ## The windows' blocks -/

/-- Window `w`'s block at point `t`, read off its array as the kernel finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The weights' staging buffer holds the weights' block at every point, for any proof data over `V` whose body leaves it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the slot rows' staging buffer. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branches, decided over the grid -/

/-- "This is reduction step 0", as the body computes it. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

/-- "This is reduction step 15", as the body computes it. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the output tile is idle -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
theorem liveAt1_2_C : ∀ t : Fin cfg1.N, ¬cond1_0 (grid1.coords t) → cond1_1 (grid1.coords t) → cfg1.idle 2 (grid1.coords t) = false := by decide +kernel

/-! ## The memrefs the body is called with -/

/-- One staging buffer of the output tile, through which its contents are stated. -/
abbrev VO1_2 : View sig .tc .vmem S1024x1024 .f32 := (Memref.whole cc1_stg2_0 : Memref sig .tc .vmem S1024x1024 .f32).view
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1_0 : Memref sig .tc .vmem S1024x1024 .f32 := Memref.whole cc1_scratch0
abbrev VS1_0 : View sig .tc .vmem S1024x1024 .f32 := scM1_0.view

/-! ## The scoped buffers the kernel does not stage: the accumulator and the rest -/

/-- Every scoped buffer that is neither a staging buffer of this kernel nor its accumulator, each at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- The unstaged scoped buffers are the accumulator, at some contents, beside the others. -/
theorem split1 (c : Dev nD) :
    (Pipeline.scopedRest (Ix := Unit) (Name := ℕ) (U := UR sig nD τ) (Lvl := ℕ) (Val := Elt F) spec1 c : sProp 𝕄)
      ⊢ iprop((∃ d, owns (c : Thread nD τ) scM1_0 fullShare d) ∗ others1 (F := F) c) := by
  rw [scopedRest1_eq]; unfold others1; simp only [scM1_0, owns_whole]
  iintro ⟨H0, H1, H2, H3, H4, H5, H6, H7, H8, H9⟩
  isplitl [H9]; · iexact H9
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- And back. -/
theorem join1 (c : Dev nD) :
    iprop((∃ d, owns (c : Thread nD τ) scM1_0 fullShare d) ∗ others1 (F := F) c)
      ⊢ (Pipeline.scopedRest (Ix := Unit) (Name := ℕ) (U := UR sig nD τ) (Lvl := ℕ) (Val := Elt F) spec1 c : sProp 𝕄) := by
  rw [scopedRest1_eq]; unfold others1; simp only [scM1_0, owns_whole]
  iintro ⟨H9, H0, H1, H2, H3, H4, H5, H6, H7, H8⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end Cert.Kernel.Hand

end
-- ==== Proof.Word.R1RunA.lean ====
/-
  The second kernel's body at a point of reduction step 0 (and not step 15): the accumulator is cleared and the
  first product added; the output tile is handed back untouched.
-/
import proofs.«118624_j71571335020920_2_alg».proof.Proof.Word.R1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the accumulator at such a point, with the proof that the body runs: the inputs
    at their contents and handed back as they were, the output tile at any contents and handed back at the same,
    the accumulator entered at anything. -/
noncomputable def kernelRun1_A (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole) (hc0 : cond1_0 i) (hc1 : ¬cond1_1 i)
    (x0 : Vec F S1024x1024 .f32) (x1 : Vec F S1024x1024 .bf16) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__combine_kernel i arg2 harg2 arg3 harg3 arg4 harg4 arg5 harg5) K } := by
  refine ⟨[], ?_, fun xi2 E K => ?run⟩
  case run =>
    simp only [cc1__combine_kernel_eq_skeleton]; unfold cc1__combine_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.Word.R1RunB.lean ====
/-
  The second kernel's body at a point that is neither reduction step 0 nor step 15: one product is added to the
  accumulator; the output tile is handed back untouched.
-/
import proofs.«118624_j71571335020920_2_alg».proof.Proof.Word.R1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the accumulator at such a point, with the proof that the body runs: the
    accumulator entered at the contents `xs0` the point before left. -/
noncomputable def kernelRun1_B (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole) (hc0 : ¬cond1_0 i) (hc1 : ¬cond1_1 i)
    (x0 : Vec F S1024x1024 .f32) (x1 : Vec F S1024x1024 .bf16) (xs0 : Vec F S1024x1024 .f32) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__combine_kernel i arg2 harg2 arg3 harg3 arg4 harg4 arg5 harg5) K } := by
  refine ⟨[], ?_, fun xi2 E K => ?run⟩
  case run =>
    simp only [cc1__combine_kernel_eq_skeleton]; unfold cc1__combine_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.Word.R1RunC.lean ====
/-
  The second kernel's body at a point of reduction step 15 (and not step 0): the last product is added to the
  accumulator and the accumulator is copied into the output tile.
-/
import proofs.«118624_j71571335020920_2_alg».proof.Proof.Word.R1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the output tile and in the accumulator at such a point, with the proof that the
    body runs: the output tile entered at anything, the accumulator at the contents `xs0` the point before left. -/
noncomputable def kernelRun1_C (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole) (hc0 : ¬cond1_0 i) (hc1 : cond1_1 i)
    (x0 : Vec F S1024x1024 .f32) (x1 : Vec F S1024x1024 .bf16) (xs0 : Vec F S1024x1024 .f32) :
    Σ' (L2 : List (View.Piece (Elt F) S1024x1024 .f32)), { LS0 : List (View.Piece (Elt F) S1024x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__combine_kernel i arg2 harg2 arg3 harg3 arg4 harg4 arg5 harg5) K } := by
  refine ⟨?_, ?_, fun E K => ?run⟩
  case run =>
    simp only [cc1__combine_kernel_eq_skeleton]; unfold cc1__combine_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.Word.R1Frame.lean ====
/-
  The second kernel (the weighted combination of the slot rows): what its output tile and its accumulator hold after each grid point, the invariant
  that carries the accumulator from one point to the next, and the proof that the body, called at any point with its
  blocks in place, adds one product of a weights block and a block of slot rows and, at the last reduction step, copies the accumulator into the output tile.
-/
import proofs.«118624_j71571335020920_2_alg».proof.Proof.Word.R1RunA
import proofs.«118624_j71571335020920_2_alg».proof.Proof.Word.R1RunB
import proofs.«118624_j71571335020920_2_alg».proof.Proof.Word.R1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- core `c`'s buffer contents when the kernel is entered
variable (V : (c : Dev nD) → (b : Ref sig .tc) → Buf (Elt F) ((c : Thread nD τ).loc b))

/-! ## What each case leaves in the output tile and in the accumulator -/

/-- At a first reduction step the body stores nothing into the output tile: a placeholder nothing consults. -/
def out1_A_2 (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole) (hc0 : cond1_0 i) (hc1 : ¬cond1_1 i) (x0 : Vec F S1024x1024 .f32) (x1 : Vec F S1024x1024 .bf16) : Vec F S1024x1024 .f32 :=
  VO1_2.read (Elt F) (VO1_2.writes (Elt F) VO1_2.junk (kernelRun1_A c i arg2 harg2 arg3 harg3 arg4 harg4 arg5 harg5 hc0 hc1 x0 x1).1)

/-- The accumulator's pieces at a first reduction step cover it. -/
theorem scover1_A_0 (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole) (hc0 : cond1_0 i) (hc1 : ¬cond1_1 i) (x0 : Vec F S1024x1024 .f32) (x1 : Vec F S1024x1024 .bf16) (y : S1024x1024.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S1024x1024.size (by sl_kernel_rfl) y

/-- What a first reduction step leaves in the accumulator. -/
def sout1_A_0 (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole) (hc0 : cond1_0 i) (hc1 : ¬cond1_1 i) (x0 : Vec F S1024x1024 .f32) (x1 : Vec F S1024x1024 .bf16) : Vec F S1024x1024 .f32 :=
  VS1_0.read (Elt F) (VS1_0.writes (Elt F) VS1_0.junk (kernelRun1_A c i arg2 harg2 arg3 harg3 arg4 harg4 arg5 harg5 hc0 hc1 x0 x1).2.1)

/-- At a middle reduction step the body stores nothing into the output tile: a placeholder nothing consults. -/
def out1_B_2 (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole) (hc0 : ¬cond1_0 i) (hc1 : ¬cond1_1 i) (x0 : Vec F S1024x1024 .f32) (x1 : Vec F S1024x1024 .bf16) (xs0 : Vec F S1024x1024 .f32) : Vec F S1024x1024 .f32 :=
  VO1_2.read (Elt F) (VO1_2.writes (Elt F) VO1_2.junk (kernelRun1_B c i arg2 harg2 arg3 harg3 arg4 harg4 arg5 harg5 hc0 hc1 x0 x1 xs0).1)

/-- The accumulator's pieces at a middle reduction step cover it. -/
theorem scover1_B_0 (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole) (hc0 : ¬cond1_0 i) (hc1 : ¬cond1_1 i) (x0 : Vec F S1024x1024 .f32) (x1 : Vec F S1024x1024 .bf16) (xs0 : Vec F S1024x1024 .f32) (y : S1024x1024.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S1024x1024.size (by sl_kernel_rfl) y

/-- What a middle reduction step leaves in the accumulator. -/
def sout1_B_0 (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole) (hc0 : ¬cond1_0 i) (hc1 : ¬cond1_1 i) (x0 : Vec F S1024x1024 .f32) (x1 : Vec F S1024x1024 .bf16) (xs0 : Vec F S1024x1024 .f32) : Vec F S1024x1024 .f32 :=
  VS1_0.read (Elt F) (VS1_0.writes (Elt F) VS1_0.junk (kernelRun1_B c i arg2 harg2 arg3 harg3 arg4 harg4 arg5 harg5 hc0 hc1 x0 x1 xs0).2.1)

/-- The output tile's pieces at a last reduction step cover it. -/
theorem cover1_C_2 (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole) (hc0 : ¬cond1_0 i) (hc1 : cond1_1 i) (x0 : Vec F S1024x1024 .f32) (x1 : Vec F S1024x1024 .bf16) (xs0 : Vec F S1024x1024 .f32) (y : S1024x1024.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S1024x1024.size (by sl_kernel_rfl) y

/-- What a last reduction step leaves in the output tile. -/
def out1_C_2 (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole) (hc0 : ¬cond1_0 i) (hc1 : cond1_1 i) (x0 : Vec F S1024x1024 .f32) (x1 : Vec F S1024x1024 .bf16) (xs0 : Vec F S1024x1024 .f32) : Vec F S1024x1024 .f32 :=
  VO1_2.read (Elt F) (VO1_2.writes (Elt F) VO1_2.junk (kernelRun1_C c i arg2 harg2 arg3 harg3 arg4 harg4 arg5 harg5 hc0 hc1 x0 x1 xs0).1)

/-- The accumulator's pieces at a last reduction step cover it. -/
theorem scover1_C_0 (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole) (hc0 : ¬cond1_0 i) (hc1 : cond1_1 i) (x0 : Vec F S1024x1024 .f32) (x1 : Vec F S1024x1024 .bf16) (xs0 : Vec F S1024x1024 .f32) (y : S1024x1024.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S1024x1024.size (by sl_kernel_rfl) y

/-- What a last reduction step leaves in the accumulator. -/
def sout1_C_0 (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole) (hc0 : ¬cond1_0 i) (hc1 : cond1_1 i) (x0 : Vec F S1024x1024 .f32) (x1 : Vec F S1024x1024 .bf16) (xs0 : Vec F S1024x1024 .f32) : Vec F S1024x1024 .f32 :=
  VS1_0.read (Elt F) (VS1_0.writes (Elt F) VS1_0.junk (kernelRun1_C c i arg2 harg2 arg3 harg3 arg4 harg4 arg5 harg5 hc0 hc1 x0 x1 xs0).2.1)

/-! ## What they hold after each point -/

/-- The output tile's staging buffer and the accumulator after the body at position `n`: the case the position's
    reduction step selects, run on the point's blocks, the accumulator entered at what position `n - 1` left. -/
def outsAt1 (c : Dev nD) : (n : ℕ) → n < cfg1.N → Vec F S1024x1024 .f32 × Vec F S1024x1024 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 16 = 0 then
      if h1 : (n + 1) % 16 = 15 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 16 = 15 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- At a first reduction step. -/
theorem outsAt1_A (c : Dev nD) (t : Fin cfg1.N) (h0 : t.val % 16 = 0) (h1 : ¬t.val % 16 = 15) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- At a middle reduction step, over what the point before left. -/
theorem outsAt1_B (c : Dev nD) (t : Fin cfg1.N) (h0 : ¬t.val % 16 = 0) (h1 : ¬t.val % 16 = 15) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last reduction step, over what the point before left. -/
theorem outsAt1_C (c : Dev nD) (t : Fin cfg1.N) (h0 : ¬t.val % 16 = 0) (h1 : t.val % 16 = 15) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: before the first point every unstaged scoped buffer is at anything; afterwards the accumulator
    holds what the point before left, the other scoped buffers anything, the generator register some state. -/
def PhiS1 (c : Dev nD) : (n : ℕ) → n ≤ cfg1.N → sProp 𝕄
  | 0, _ => Pipeline.ΦA spec1 c
  | n + 1, hn => iprop(owns (c : Thread nD τ) scM1_0 fullShare ((outsAt1 V c n hn).2) ∗ others1 (F := F) c ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1_0 fullShare ((outsAt1 V c n hn).2) ∗ others1 (F := F) c ∗ (∃ r, prngReg c r)) := rfl

theorem PhiS1_pos (c : Dev nD) (n : ℕ) (h : n ≤ cfg1.N) (hz : n ≠ 0) :
    PhiS1 V c n h = iprop(owns (c : Thread nD τ) scM1_0 fullShare ((outsAt1 V c (n - 1) (by omega)).2) ∗ others1 (F := F) c ∗ (∃ r, prngReg c r)) := by
  cases n with
  | zero => exact absurd rfl hz
  | succ n => rfl

/-! ## The proof data -/

/-- The kernel's proof data on core `c`: the arrays as the kernel finds them; after the body each input's buffer at
    its block and the output tile's at `outsAt1`; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' buffers hold their blocks; the point's reduction step selects the case; the
    invariant hands the body the accumulator at what the point before left (at anything at the very first point)
    and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 16 = 0
  · by_cases h1 : t.val % 16 = 15
    · exfalso; omega
    · rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz]; unfold Pipeline.ΦA
        iintro ⟨⟨Hsr, Hg⟩, Ho, ⟨%d0, H0⟩, ⟨%d1, H1⟩, ⟨%d2, H2⟩⟩
        ihave Hs := split1 (F := F) c $$ Hsr
        icases Hs with ⟨HS0, Hoth⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0]
          · unfold owns; iexists _; isplitr
            swap; · iexact HS0
            ipureintro; exact View.read_writes_of_cover _ _ _ _ _ (scover1_A_0 _ _ _ _ _ _ _ _ _ _ _ _ _ _)
          isplitl [Hoth]; · iexact Hoth
          iexact Hg
        isplitl [Ho]; · iexact Ho
        isplitl [H0]; · iexact H0
        isplitl [H1]; · iexact H1
        iexists _; iexact H2
      · rw [PhiS1_castSucc V c t, PhiS1_pos V c _ _ hz]
        iintro ⟨⟨HS0, Hoth, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hoth Hg]
        · isplitl [HS0]
          · unfold owns; iexists _; isplitr
            swap; · iexact HS0
            ipureintro; exact View.read_writes_of_cover _ _ _ _ _ (scover1_A_0 _ _ _ _ _ _ _ _ _ _ _ _ _ _)
          isplitl [Hoth]; · iexact Hoth
          iexact Hg
        isplitl [Ho]; · iexact Ho
        isplitl [H0]; · iexact H0
        isplitl [H1]; · iexact H1
        iexists _; iexact H2
  · by_cases h1 : t.val % 16 = 15
    · rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      have hz : t.val ≠ 0 := by omega
      rw [PhiS1_castSucc V c t, PhiS1_pos V c _ _ hz]
      iintro ⟨⟨HS0, Hoth, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0]
        · unfold owns; iexists _; isplitr
          swap; · iexact HS0
          ipureintro; exact View.read_writes_of_cover _ _ _ _ _ (scover1_C_0 _ _ _ _ _ _ _ _ _ _ _ _ _ _ _)
        isplitl [Hoth]; · iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 _ _ _ _ _ _ _ _ _ _ _ _ _ _ _)
    · rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      have hz : t.val ≠ 0 := by omega
      rw [PhiS1_castSucc V c t, PhiS1_pos V c _ _ hz]
      iintro ⟨⟨HS0, Hoth, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0]
        · unfold owns; iexists _; isplitr
          swap; · iexact HS0
          ipureintro; exact View.read_writes_of_cover _ _ _ _ _ (scover1_B_0 _ _ _ _ _ _ _ _ _ _ _ _ _ _ _)
        isplitl [Hoth]; · iexact Hoth
        iexact Hg
      isplitl [Ho]; · iexact Ho
      isplitl [H0]; · iexact H0
      isplitl [H1]; · iexact H1
      iexists _; iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

/-- The invariant before the first point is every unstaged scoped buffer at anything, beside the generator register. -/
theorem Phi_first1 (c : Dev nD) : (dat1 V c).Φ 0 = Pipeline.ΦA spec1 c := rfl

/-- After the last point the invariant gives the unstaged scoped buffers back, the accumulator's contents forgotten. -/
theorem Phi_last1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega)]
  unfold Pipeline.ΦA
  iintro ⟨HS0, Hoth, Hg⟩
  isplitl [HS0 Hoth]
  · iapply (join1 (F := F) c)
    isplitl [HS0]; · iexists _; iexact HS0
    iexact Hoth
  iexact Hg

end Cert.Kernel.Hand

end
-- ==== Proof.Word.Run.lean ====
/-
  The whole program, run from the launch to the return: the first kernel, the reshape of the combine weights, the
  second kernel, the reshape of the result. The buffers' contents at each boundary are a fold from the launch
  memory; at the end every unscoped buffer holds the last boundary's contents.
-/
import proofs.«118624_j71571335020920_2_alg».proof.Proof.Word.R0Frame
import proofs.«118624_j71571335020920_2_alg».proof.Proof.Word.R1Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch: the first kernel's entry. -/
abbrev W0 : Dev nD → Valuation τ sig (Elt F) := fun c b => (s₀ m ρ).mem ((c : Dev nD), b)
abbrev VE0 : (c : Dev nD) → (b : Ref sig .tc) → Buf (Elt F) ((c : Thread nD τ).loc b) := fun c b => W0 m ρ c b
/-- At the first kernel's exit: its arrays at what the pipeline leaves, every other buffer as entered. -/
def W1 (c : Dev nD) : Valuation τ sig (Elt F) :=
  Pipeline.withArrays spec0 c (W0 m ρ c) fun w => (dat0 (VE0 m ρ) c).arrAt w cfg0.N
theorem W1_arr (c : Dev nD) (w : Fin cfg0.W) :
    W1 m ρ c (Proc.devRef .tc (Pipeline.arrRef spec0 w)) = (dat0 (VE0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev VX0 : (c : Dev nD) → (b : Ref sig .tc) → Buf (Elt F) ((c : Thread nD τ).loc b) := fun c b => W1 m ρ c b
theorem hF0 (c : Dev nD) (w : Fin cfg0.W) : (dat0 (VE0 m ρ) c).arrAt w cfg0.N = VX0 m ρ c (Pipeline.arrRef spec0 w) :=
  (W1_arr m ρ c w).symm
theorem hrest0 (c : Dev nD) : ∀ b, b ∉ Finset.univ.image (Pipeline.arrRef spec0) → VX0 m ρ c b = VE0 m ρ c b :=
  fun b hb => W1_of_ne m ρ c b fun w e => hb (Finset.mem_image.mpr ⟨w, Finset.mem_univ _, e⟩)

/-- After the reshape of the combine weights: the second kernel's entry. -/
abbrev W2 : Dev nD → Valuation τ sig (Elt F) := fun c => StableHlo.after hostOps1 (W1 m ρ c)
abbrev VE1 : (c : Dev nD) → (b : Ref sig .tc) → Buf (Elt F) ((c : Thread nD τ).loc b) := fun c b => W2 m ρ c b
/-- At the second kernel's exit. -/
def W3 (c : Dev nD) : Valuation τ sig (Elt F) :=
  Pipeline.withArrays spec1 c (W2 m ρ c) fun w => (dat1 (VE1 m ρ) c).arrAt w cfg1.N
theorem W3_arr (c : Dev nD) (w : Fin cfg1.W) :
    W3 m ρ c (Proc.devRef .tc (Pipeline.arrRef spec1 w)) = (dat1 (VE1 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev VX1 : (c : Dev nD) → (b : Ref sig .tc) → Buf (Elt F) ((c : Thread nD τ).loc b) := fun c b => W3 m ρ c b
theorem hF1 (c : Dev nD) (w : Fin cfg1.W) : (dat1 (VE1 m ρ) c).arrAt w cfg1.N = VX1 m ρ c (Pipeline.arrRef spec1 w) :=
  (W3_arr m ρ c w).symm
theorem hrest1 (c : Dev nD) : ∀ b, b ∉ Finset.univ.image (Pipeline.arrRef spec1) → VX1 m ρ c b = VE1 m ρ c b :=
  fun b hb => W3_of_ne m ρ c b fun w e => hb (Finset.mem_image.mpr ⟨w, Finset.mem_univ _, e⟩)

/-- After the reshape of the result: the return. -/
abbrev W4 : Dev nD → Valuation τ sig (Elt F) := fun c => StableHlo.after hostOps2 (W3 m ρ c)

/-! ## The arguments end as launched -/

/-- `main_arg0` ends as launched: no host operation writes it and each kernel only reads it or does not touch it. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W2 m ρ c (Proc.devRef .tc main_arg0) := W3_of_ne m ρ c main_arg0 (by decide)
    _ = W1 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W0 m ρ c (Proc.devRef .tc main_arg0) := (W1_arr m ρ c 0).trans (((dat0 (VE0 m ρ) c).arrAt_in 0 rfl _).trans (A_eq0 (VE0 m ρ) c 0))
    _ = m ((c : Thread nD τ).loc main_arg0) := rfl

/-- `main_arg1` ends as launched: no host operation writes it and each kernel only reads it or does not touch it. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W2 m ρ c (Proc.devRef .tc main_arg1) := W3_of_ne m ρ c main_arg1 (by decide)
    _ = W1 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W0 m ρ c (Proc.devRef .tc main_arg1) := W1_of_ne m ρ c main_arg1 (by decide)
    _ = m ((c : Thread nD τ).loc main_arg1) := rfl

/-- `main_arg2` ends as launched: no host operation writes it and each kernel only reads it or does not touch it. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_forall_not_mem (b := Proc.devRef .tc main_arg2) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W2 m ρ c (Proc.devRef .tc main_arg2) := W3_of_ne m ρ c main_arg2 (by decide)
    _ = W1 m ρ c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W0 m ρ c (Proc.devRef .tc main_arg2) := (W1_arr m ρ c 1).trans (((dat0 (VE0 m ρ) c).arrAt_in 1 rfl _).trans (A_eq0 (VE0 m ρ) c 1))
    _ = m ((c : Thread nD τ).loc main_arg2) := rfl

/-- `main_arg3` ends as launched: no host operation writes it and each kernel only reads it or does not touch it. -/
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_forall_not_mem (b := Proc.devRef .tc main_arg3) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W2 m ρ c (Proc.devRef .tc main_arg3) := W3_of_ne m ρ c main_arg3 (by decide)
    _ = W1 m ρ c (Proc.devRef .tc main_arg3) := StableHlo.after_of_forall_not_mem (b := Proc.devRef .tc main_arg3) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W0 m ρ c (Proc.devRef .tc main_arg3) := (W1_arr m ρ c 2).trans (((dat0 (VE0 m ρ) c).arrAt_in 2 rfl _).trans (A_eq0 (VE0 m ρ) c 2))
    _ = m ((c : Thread nD τ).loc main_arg3) := rfl

/-! ## The proof data family and the thread state -/

abbrev adm : (p : Fin 2) → (pcfgs (F := F) p).Adm := fun p => (cfgs p).toPCfg_adm
/-- Each kernel's proof data at its entry contents. -/
def pdats : (p : Fin 2) → (c : Dev nD) → Dat τ (Elt F) Unit ℕ (UR sig nD τ) ℕ (Pipeline.pin (pcfgs (F := F)) adm p) c
  | ⟨0, _⟩ => fun c => dat0 (VE0 m ρ) c
  | ⟨1, _⟩ => fun c => dat1 (VE1 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The kernels as segments -/

set_option backward.isDefEq.respectTransparency.types false in
/-- Kernel 0 as a segment of the run: entered with every unscoped buffer at the contents before it and left with its
    output array at what its write-backs leave and every other buffer as entered; its accumulator and the other
    scoped buffers enter the invariant at anything and are given back at anything; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VE0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (VE0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (VE0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from Phi_last0 (VE0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (VE0 m ρ c) (VX0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel 1 as a segment of the run: entered with every unscoped buffer at the contents before it and left with its
    output array at what its write-backs leave and every other buffer as entered; its accumulator and the other
    scoped buffers enter the invariant at anything and are given back at anything; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VE1 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (VE1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (VE1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from Phi_last1 (VE1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (VE1 m ρ c) (VX1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]

theorem main_run (c : Dev nD) : main (F := F) c = Pipeline.Seg.run (segs m ρ) := (main_chain c).trans (by chain_rfl)

set_option backward.isDefEq.respectTransparency.types false in
/-- From any memory with zero counters every weakly fair execution of the program terminates, faulting nowhere, and in
    every final state each unscoped buffer holds the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => StableHlo.held (c : Thread nD τ) (Pipeline.ucRefs τ sig) (W4 m ρ c))
    (hch := ⟨fun _ => .rfl, fun _ => .rfl, fun _ => .rfl, fun _ => .rfl, fun c => sep_mono .rfl (by
      iintro ⟨-, HO⟩
      iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨Hh, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.Kernel.Hand

end
-- ==== Proof.Word.Frame.lean ====
/-
  The frame of the program: it runs to the end, faults nowhere, and its four argument arrays end as launched —
  read off the run's post, at any float instance.
-/
import proofs.«118624_j71571335020920_2_alg».proof.Proof.Word.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_main m ρ)

end Cert.Kernel.Hand

end
-- ==== Proof.R0Base.lean ====
/-
  The first kernel (each expert's slot rows times the expert's matrix, plus its bias), on one core: what its body
  is handed and where it branches.

  Its grid is 8 experts by 1 row tile by 8 reduction steps; point `t` is expert `t / 8`, step `t % 8`. The body
  clears its accumulator at step 0, adds one 2048 x 512 by 512 x 1024 product at every step, and at step 7 adds the
  bias row to the accumulator and stores the sum into the output tile; at the other steps the output tile is left
  alone and not written back.
-/
import proofs.«118624_j71571335020920_2_alg».proof.Proof.Gen.KernelIdeal.Launch
import proofs.«118624_j71571335020920_2_alg».proof.Proof.Gen.KernelIdeal.Skeleton
import proofs.«118624_j71571335020920_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- core `c`'s buffer contents when the kernel is entered: the parameter everything here is stated at
variable (V : (c : Dev nD) → (b : Ref sig .tc) → Buf (Elt F) ((c : Thread nD τ).loc b))

/-! ## The windows' blocks -/

/-- Window `w`'s block at point `t`, read off its array as the kernel finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The slot rows' staging buffer holds their block at every point, for any proof data over `V` whose body leaves it in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for the matrix block's staging buffer. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same for the bias row's staging buffer (fetched once per expert; its block does not move in between). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branches, decided over the grid -/

/-- "This is reduction step 0", as the body computes it. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "This is reduction step 7", as the body computes it. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the output tile is idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
theorem idleAt0_3_B : ∀ t : Fin cfg0.N, ¬cond0_0 (grid0.coords t) → ¬cond0_1 (grid0.coords t) → cfg0.idle 3 (grid0.coords t) = true := by decide +kernel
theorem noFlush0_3_B : ∀ t : Fin cfg0.N, ¬cond0_0 (grid0.coords t) → ¬cond0_1 (grid0.coords t) → (cfg0.win 3).flush t = false := by decide +kernel
theorem liveAt0_3_C : ∀ t : Fin cfg0.N, ¬cond0_0 (grid0.coords t) → cond0_1 (grid0.coords t) → cfg0.idle 3 (grid0.coords t) = false := by decide +kernel

/-! ## The memrefs the body is called with -/

/-- One staging buffer of the output tile, through which its contents are stated. -/
abbrev VO0_3 : View sig .tc .vmem S2048x1024 .bf16 := (Memref.whole cc0_stg3_0 : Memref sig .tc .vmem S2048x1024 .bf16).view
abbrev ms0_0 (t : Fin cfg0.N) : Memref sig .tc .vmem S2048x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x1024 .bf16 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0_0 : Memref sig .tc .vmem S2048x1024 .f32 := Memref.whole cc0_scratch0
abbrev VS0_0 : View sig .tc .vmem S2048x1024 .f32 := scM0_0.view

/-! ## The scoped buffers the kernel does not stage: the accumulator and the rest -/

/-- Every scoped buffer that is neither a staging buffer of this kernel nor its accumulator, each at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The unstaged scoped buffers are the accumulator, at some contents, beside the others. -/
theorem split0 (c : Dev nD) :
    (Pipeline.scopedRest (Ix := Unit) (Name := ℕ) (U := UR sig nD τ) (Lvl := ℕ) (Val := Elt F) spec0 c : sProp 𝕄)
      ⊢ iprop((∃ d, owns (c : Thread nD τ) scM0_0 fullShare d) ∗ others0 (F := F) c) := by
  rw [scopedRest0_eq]; unfold others0; simp only [scM0_0, owns_whole]
  exact BI.Entails.refl _

/-- And back. -/
theorem join0 (c : Dev nD) :
    iprop((∃ d, owns (c : Thread nD τ) scM0_0 fullShare d) ∗ others0 (F := F) c)
      ⊢ (Pipeline.scopedRest (Ix := Unit) (Name := ℕ) (U := UR sig nD τ) (Lvl := ℕ) (Val := Elt F) spec0 c : sProp 𝕄) := by
  rw [scopedRest0_eq]; unfold others0; simp only [scM0_0, owns_whole]
  exact BI.Entails.refl _

end Cert.KernelIdeal.Hand

end
-- ==== Proof.R0RunA.lean ====
/-
  The first kernel's body at a point of reduction step 0 (and not step 7): the accumulator is cleared and the
  first product added; the output tile is handed back untouched.
-/
import proofs.«118624_j71571335020920_2_alg».proof.Proof.R0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the accumulator at such a point, with the proof that the body runs: the inputs
    at their contents and handed back as they were, the output tile at any contents and handed back at the same,
    the accumulator entered at anything. -/
noncomputable def kernelRun0_A (c : Dev nD) (i : grid0.Coords) (arg3 : Memref sig .tc .vmem S2048x512 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S2048x1024 .bf16) (harg6 : arg6.IsWhole) (arg7 : Memref sig .tc .vmem S2048x1024 .f32) (harg7 : arg7.IsWhole) (hc0 : cond0_0 i) (hc1 : ¬cond0_1 i)
    (x0 : Vec F S2048x512 .f32) (x1 : Vec F S1x512x1024 .f32) (x2 : Vec F S1x1x1024 .f32) :
    Σ' (L3 : List (View.Piece (Elt F) S2048x1024 .bf16)), { LS0 : List (View.Piece (Elt F) S2048x1024 .f32) //
      ∀ (xi3 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__expert_gemm_kernel i arg3 harg3 arg4 harg4 arg5 harg5 arg6 harg6 arg7 harg7) K } := by
  refine ⟨[], ?_, fun xi3 E K => ?run⟩
  case run =>
    simp only [cc0__expert_gemm_kernel_eq_skeleton]; unfold cc0__expert_gemm_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.R0RunB.lean ====
/-
  The first kernel's body at a point that is neither reduction step 0 nor step 7: one product is added to the
  accumulator; the output tile is handed back untouched.
-/
import proofs.«118624_j71571335020920_2_alg».proof.Proof.R0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the accumulator at such a point, with the proof that the body runs: the
    accumulator entered at the contents `xs0` the point before left. -/
noncomputable def kernelRun0_B (c : Dev nD) (i : grid0.Coords) (arg3 : Memref sig .tc .vmem S2048x512 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond0_0 i) (hc1 : ¬cond0_1 i)
    (x0 : Vec F S2048x512 .f32) (x1 : Vec F S1x512x1024 .f32) (x2 : Vec F S1x1x1024 .f32) (xs0 : Vec F S2048x1024 .f32) :
    Σ' (L3 : List (View.Piece (Elt F) S2048x1024 .bf16)), { LS0 : List (View.Piece (Elt F) S2048x1024 .f32) //
      ∀ (xi3 : Vec F S2048x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc0__expert_gemm_kernel i arg3 harg3 arg4 harg4 arg5 harg5 arg6 harg6 arg7 harg7) K } := by
  refine ⟨[], ?_, fun xi3 E K => ?run⟩
  case run =>
    simp only [cc0__expert_gemm_kernel_eq_skeleton]; unfold cc0__expert_gemm_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.R0RunC.lean ====
/-
  The first kernel's body at a point of reduction step 7 (and not step 0): the last product is added to the
  accumulator, and the accumulator plus the bias row is stored into the output tile.
-/
import proofs.«118624_j71571335020920_2_alg».proof.Proof.R0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the output tile and in the accumulator at such a point, with the proof that the
    body runs: the output tile entered at anything, the accumulator at the contents `xs0` the point before left. -/
noncomputable def kernelRun0_C (c : Dev nD) (i : grid0.Coords) (arg3 : Memref sig .tc .vmem S2048x512 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond0_0 i) (hc1 : cond0_1 i)
    (x0 : Vec F S2048x512 .f32) (x1 : Vec F S1x512x1024 .f32) (x2 : Vec F S1x1x1024 .f32) (xs0 : Vec F S2048x1024 .f32) :
    Σ' (L3 : List (View.Piece (Elt F) S2048x1024 .bf16)), { LS0 : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc0__expert_gemm_kernel i arg3 harg3 arg4 harg4 arg5 harg5 arg6 harg6 arg7 harg7) K } := by
  refine ⟨?_, ?_, fun E K => ?run⟩
  case run =>
    simp only [cc0__expert_gemm_kernel_eq_skeleton]; unfold cc0__expert_gemm_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Hand

end
-- ==== Proof.R0Frame.lean ====
/-
  The first kernel (each expert's slot rows times its matrix, plus its bias): what its output tile and its accumulator hold after each grid point, the invariant
  that carries the accumulator from one point to the next, and the proof that the body, called at any point with its
  blocks in place, adds one product of a block of slot rows and a block of the expert's matrix and, at the last reduction step, stores the accumulator plus the bias row into the output tile.
-/
import proofs.«118624_j71571335020920_2_alg».proof.Proof.R0RunA
import proofs.«118624_j71571335020920_2_alg».proof.Proof.R0RunB
import proofs.«118624_j71571335020920_2_alg».proof.Proof.R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- core `c`'s buffer contents when the kernel is entered
variable (V : (c : Dev nD) → (b : Ref sig .tc) → Buf (Elt F) ((c : Thread nD τ).loc b))

/-! ## What each case leaves in the output tile and in the accumulator -/

/-- At a first reduction step the body stores nothing into the output tile: a placeholder nothing consults. -/
def out0_A_3 (c : Dev nD) (i : grid0.Coords) (arg3 : Memref sig .tc .vmem S2048x512 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S2048x1024 .bf16) (harg6 : arg6.IsWhole) (arg7 : Memref sig .tc .vmem S2048x1024 .f32) (harg7 : arg7.IsWhole) (hc0 : cond0_0 i) (hc1 : ¬cond0_1 i) (x0 : Vec F S2048x512 .f32) (x1 : Vec F S1x512x1024 .f32) (x2 : Vec F S1x1x1024 .f32) : Vec F S2048x1024 .bf16 :=
  VO0_3.read (Elt F) (VO0_3.writes (Elt F) VO0_3.junk (kernelRun0_A c i arg3 harg3 arg4 harg4 arg5 harg5 arg6 harg6 arg7 harg7 hc0 hc1 x0 x1 x2).1)

/-- The accumulator's pieces at a first reduction step cover it. -/
theorem scover0_A_0 (c : Dev nD) (i : grid0.Coords) (arg3 : Memref sig .tc .vmem S2048x512 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S2048x1024 .bf16) (harg6 : arg6.IsWhole) (arg7 : Memref sig .tc .vmem S2048x1024 .f32) (harg7 : arg7.IsWhole) (hc0 : cond0_0 i) (hc1 : ¬cond0_1 i) (x0 : Vec F S2048x512 .f32) (x1 : Vec F S1x512x1024 .f32) (x2 : Vec F S1x1x1024 .f32) (y : S2048x1024.Idx) :
    ∃ pc ∈ (kernelRun0_A c i arg3 harg3 arg4 harg4 arg5 harg5 arg6 harg6 arg7 harg7 hc0 hc1 x0 x1 x2).2.1, y ∈ pc.1.set :=
  View.cover_of_tiledL (kernelRun0_A c i arg3 harg3 arg4 harg4 arg5 harg5 arg6 harg6 arg7 harg7 hc0 hc1 x0 x1 x2).2.1 S2048x1024.size (by sl_kernel_rfl) y

/-- What a first reduction step leaves in the accumulator. -/
def sout0_A_0 (c : Dev nD) (i : grid0.Coords) (arg3 : Memref sig .tc .vmem S2048x512 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S2048x1024 .bf16) (harg6 : arg6.IsWhole) (arg7 : Memref sig .tc .vmem S2048x1024 .f32) (harg7 : arg7.IsWhole) (hc0 : cond0_0 i) (hc1 : ¬cond0_1 i) (x0 : Vec F S2048x512 .f32) (x1 : Vec F S1x512x1024 .f32) (x2 : Vec F S1x1x1024 .f32) : Vec F S2048x1024 .f32 :=
  VS0_0.read (Elt F) (VS0_0.writes (Elt F) VS0_0.junk (kernelRun0_A c i arg3 harg3 arg4 harg4 arg5 harg5 arg6 harg6 arg7 harg7 hc0 hc1 x0 x1 x2).2.1)

/-- At a middle reduction step the body stores nothing into the output tile: a placeholder nothing consults. -/
def out0_B_3 (c : Dev nD) (i : grid0.Coords) (arg3 : Memref sig .tc .vmem S2048x512 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond0_0 i) (hc1 : ¬cond0_1 i) (x0 : Vec F S2048x512 .f32) (x1 : Vec F S1x512x1024 .f32) (x2 : Vec F S1x1x1024 .f32) (xs0 : Vec F S2048x1024 .f32) : Vec F S2048x1024 .bf16 :=
  VO0_3.read (Elt F) (VO0_3.writes (Elt F) VO0_3.junk (kernelRun0_B c i arg3 harg3 arg4 harg4 arg5 harg5 arg6 harg6 arg7 harg7 hc0 hc1 x0 x1 x2 xs0).1)

/-- The accumulator's pieces at a middle reduction step cover it. -/
theorem scover0_B_0 (c : Dev nD) (i : grid0.Coords) (arg3 : Memref sig .tc .vmem S2048x512 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond0_0 i) (hc1 : ¬cond0_1 i) (x0 : Vec F S2048x512 .f32) (x1 : Vec F S1x512x1024 .f32) (x2 : Vec F S1x1x1024 .f32) (xs0 : Vec F S2048x1024 .f32) (y : S2048x1024.Idx) :
    ∃ pc ∈ (kernelRun0_B c i arg3 harg3 arg4 harg4 arg5 harg5 arg6 harg6 arg7 harg7 hc0 hc1 x0 x1 x2 xs0).2.1, y ∈ pc.1.set :=
  View.cover_of_tiledL (kernelRun0_B c i arg3 harg3 arg4 harg4 arg5 harg5 arg6 harg6 arg7 harg7 hc0 hc1 x0 x1 x2 xs0).2.1 S2048x1024.size (by sl_kernel_rfl) y

/-- What a middle reduction step leaves in the accumulator. -/
def sout0_B_0 (c : Dev nD) (i : grid0.Coords) (arg3 : Memref sig .tc .vmem S2048x512 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond0_0 i) (hc1 : ¬cond0_1 i) (x0 : Vec F S2048x512 .f32) (x1 : Vec F S1x512x1024 .f32) (x2 : Vec F S1x1x1024 .f32) (xs0 : Vec F S2048x1024 .f32) : Vec F S2048x1024 .f32 :=
  VS0_0.read (Elt F) (VS0_0.writes (Elt F) VS0_0.junk (kernelRun0_B c i arg3 harg3 arg4 harg4 arg5 harg5 arg6 harg6 arg7 harg7 hc0 hc1 x0 x1 x2 xs0).2.1)

/-- The output tile's pieces at a last reduction step cover it. -/
theorem cover0_C_3 (c : Dev nD) (i : grid0.Coords) (arg3 : Memref sig .tc .vmem S2048x512 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond0_0 i) (hc1 : cond0_1 i) (x0 : Vec F S2048x512 .f32) (x1 : Vec F S1x512x1024 .f32) (x2 : Vec F S1x1x1024 .f32) (xs0 : Vec F S2048x1024 .f32) (y : S2048x1024.Idx) :
    ∃ pc ∈ (kernelRun0_C c i arg3 harg3 arg4 harg4 arg5 harg5 arg6 harg6 arg7 harg7 hc0 hc1 x0 x1 x2 xs0).1, y ∈ pc.1.set :=
  View.cover_of_tiledL (kernelRun0_C c i arg3 harg3 arg4 harg4 arg5 harg5 arg6 harg6 arg7 harg7 hc0 hc1 x0 x1 x2 xs0).1 S2048x1024.size (by sl_kernel_rfl) y

/-- What a last reduction step leaves in the output tile. -/
def out0_C_3 (c : Dev nD) (i : grid0.Coords) (arg3 : Memref sig .tc .vmem S2048x512 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond0_0 i) (hc1 : cond0_1 i) (x0 : Vec F S2048x512 .f32) (x1 : Vec F S1x512x1024 .f32) (x2 : Vec F S1x1x1024 .f32) (xs0 : Vec F S2048x1024 .f32) : Vec F S2048x1024 .bf16 :=
  VO0_3.read (Elt F) (VO0_3.writes (Elt F) VO0_3.junk (kernelRun0_C c i arg3 harg3 arg4 harg4 arg5 harg5 arg6 harg6 arg7 harg7 hc0 hc1 x0 x1 x2 xs0).1)

/-- The accumulator's pieces at a last reduction step cover it. -/
theorem scover0_C_0 (c : Dev nD) (i : grid0.Coords) (arg3 : Memref sig .tc .vmem S2048x512 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond0_0 i) (hc1 : cond0_1 i) (x0 : Vec F S2048x512 .f32) (x1 : Vec F S1x512x1024 .f32) (x2 : Vec F S1x1x1024 .f32) (xs0 : Vec F S2048x1024 .f32) (y : S2048x1024.Idx) :
    ∃ pc ∈ (kernelRun0_C c i arg3 harg3 arg4 harg4 arg5 harg5 arg6 harg6 arg7 harg7 hc0 hc1 x0 x1 x2 xs0).2.1, y ∈ pc.1.set :=
  View.cover_of_tiledL (kernelRun0_C c i arg3 harg3 arg4 harg4 arg5 harg5 arg6 harg6 arg7 harg7 hc0 hc1 x0 x1 x2 xs0).2.1 S2048x1024.size (by sl_kernel_rfl) y

/-- What a last reduction step leaves in the accumulator. -/
def sout0_C_0 (c : Dev nD) (i : grid0.Coords) (arg3 : Memref sig .tc .vmem S2048x512 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond0_0 i) (hc1 : cond0_1 i) (x0 : Vec F S2048x512 .f32) (x1 : Vec F S1x512x1024 .f32) (x2 : Vec F S1x1x1024 .f32) (xs0 : Vec F S2048x1024 .f32) : Vec F S2048x1024 .f32 :=
  VS0_0.read (Elt F) (VS0_0.writes (Elt F) VS0_0.junk (kernelRun0_C c i arg3 harg3 arg4 harg4 arg5 harg5 arg6 harg6 arg7 harg7 hc0 hc1 x0 x1 x2 xs0).2.1)

/-! ## What they hold after each point -/

/-- The output tile's staging buffer and the accumulator after the body at position `n`: the case the position's
    reduction step selects, run on the point's blocks, the accumulator entered at what position `n - 1` left. -/
def outsAt0 (c : Dev nD) : (n : ℕ) → n < cfg0.N → Vec F S2048x1024 .bf16 × Vec F S2048x1024 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 8 = 0 then
      if h1 : (n + 1) % 8 = 7 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 8 = 7 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

/-- At a first reduction step. -/
theorem outsAt0_A (c : Dev nD) (t : Fin cfg0.N) (h0 : t.val % 8 = 0) (h1 : ¬t.val % 8 = 7) :
    outsAt0 V c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

/-- At a middle reduction step, over what the point before left. -/
theorem outsAt0_B (c : Dev nD) (t : Fin cfg0.N) (h0 : ¬t.val % 8 = 0) (h1 : ¬t.val % 8 = 7) :
    outsAt0 V c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last reduction step, over what the point before left. -/
theorem outsAt0_C (c : Dev nD) (t : Fin cfg0.N) (h0 : ¬t.val % 8 = 0) (h1 : t.val % 8 = 7) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: before the first point every unstaged scoped buffer is at anything; afterwards the accumulator
    holds what the point before left, the other scoped buffers anything, the generator register some state. -/
def PhiS0 (c : Dev nD) : (n : ℕ) → n ≤ cfg0.N → sProp 𝕄
  | 0, _ => Pipeline.ΦA spec0 c
  | n + 1, hn => iprop(owns (c : Thread nD τ) scM0_0 fullShare ((outsAt0 V c n hn).2) ∗ others0 (F := F) c ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0_0 fullShare ((outsAt0 V c n hn).2) ∗ others0 (F := F) c ∗ (∃ r, prngReg c r)) := rfl

theorem PhiS0_pos (c : Dev nD) (n : ℕ) (h : n ≤ cfg0.N) (hz : n ≠ 0) :
    PhiS0 V c n h = iprop(owns (c : Thread nD τ) scM0_0 fullShare ((outsAt0 V c (n - 1) (by omega)).2) ∗ others0 (F := F) c ∗ (∃ r, prngReg c r)) := by
  cases n with
  | zero => exact absurd rfl hz
  | succ n => rfl

/-! ## The proof data -/

/-- The kernel's proof data on core `c`: the arrays as the kernel finds them; after the body each input's buffer at
    its block and the output tile's at `outsAt0`; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' buffers hold their blocks; the point's reduction step selects the case; the
    invariant hands the body the accumulator at what the point before left (at anything at the very first point)
    and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h0 : t.val % 8 = 0
  · by_cases h1 : t.val % 8 = 7
    · exfalso; omega
    · rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz]; unfold Pipeline.ΦA
        iintro ⟨⟨Hsr, Hg⟩, Ho, ⟨%d0, H0⟩, ⟨%d1, H1⟩, ⟨%d2, H2⟩, ⟨%d3, H3⟩⟩
        ihave Hs := split0 (F := F) c $$ Hsr
        icases Hs with ⟨HS0, Hoth⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0]
          · unfold owns; iexists _; isplitr
            swap; · iexact HS0
            ipureintro; exact View.read_writes_of_cover _ _ _ _ _ (scover0_A_0 _ _ _ _ _ _ _ _ _ _ _ _ _ _ _ _ _)
          isplitl [Hoth]; · iexact Hoth
          iexact Hg
        isplitl [Ho]; · iexact Ho
        isplitl [H0]; · iexact H0
        isplitl [H1]; · iexact H1
        isplitl [H2]; · iexact H2
        iexists _; iexact H3
      · rw [PhiS0_castSucc V c t, PhiS0_pos V c _ _ hz]
        iintro ⟨⟨HS0, Hoth, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hoth Hg]
        · isplitl [HS0]
          · unfold owns; iexists _; isplitr
            swap; · iexact HS0
            ipureintro; exact View.read_writes_of_cover _ _ _ _ _ (scover0_A_0 _ _ _ _ _ _ _ _ _ _ _ _ _ _ _ _ _)
          isplitl [Hoth]; · iexact Hoth
          iexact Hg
        isplitl [Ho]; · iexact Ho
        isplitl [H0]; · iexact H0
        isplitl [H1]; · iexact H1
        isplitl [H2]; · iexact H2
        iexists _; iexact H3
  · by_cases h1 : t.val % 8 = 7
    · rw [show (dat0 V c).leavesExact 3 t = owns (c : Thread nD τ) (ms0_3 t) fullShare ((dat0 V c).after 3 t) from by
        unfold Dat.leavesExact; rw [liveAt0_3_C t (fun h => h0 ((hcond0_0 t).mp h)) ((hcond0_1 t).mpr h1)], after0_3]
      rw [outsAt0_C V c t h0 h1]
      unfold out0_C_3 sout0_C_0; (try dsimp only)
      have hz : t.val ≠ 0 := by omega
      rw [PhiS0_castSucc V c t, PhiS0_pos V c _ _ hz]
      iintro ⟨⟨HS0, Hoth, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hoth Hg]
      · isplitl [HS0]
        · unfold owns; iexists _; isplitr
          swap; · iexact HS0
          ipureintro; exact View.read_writes_of_cover _ _ _ _ _ (scover0_C_0 _ _ _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 _ _ _ _ _ _ _ _ _ _ _ _ _ _ _ _ _ _)
    · rw [Dat.leavesExact_idle (dat0 V c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [outsAt0_B V c t h0 h1]
      unfold sout0_B_0; (try dsimp only)
      have hz : t.val ≠ 0 := by omega
      rw [PhiS0_castSucc V c t, PhiS0_pos V c _ _ hz]
      iintro ⟨⟨HS0, Hoth, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0]
        · unfold owns; iexists _; isplitr
          swap; · iexact HS0
          ipureintro; exact View.read_writes_of_cover _ _ _ _ _ (scover0_B_0 _ _ _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      iexists _; iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

/-- The invariant before the first point is every unstaged scoped buffer at anything, beside the generator register. -/
theorem Phi_first0 (c : Dev nD) : (dat0 V c).Φ 0 = Pipeline.ΦA spec0 c := rfl

/-- After the last point the invariant gives the unstaged scoped buffers back, the accumulator's contents forgotten. -/
theorem Phi_last0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 64 := N_0; omega)]
  unfold Pipeline.ΦA
  iintro ⟨HS0, Hoth, Hg⟩
  isplitl [HS0 Hoth]
  · iapply (join0 (F := F) c)
    isplitl [HS0]; · iexists _; iexact HS0
    iexact Hoth
  iexact Hg

end Cert.KernelIdeal.Hand

end
-- ==== Proof.R1Base.lean ====
/-
  The second kernel (the weighted combination of the slot rows), on one core: what its body is handed and where
  it branches.

  Its grid is 8 row tiles by 16 reduction steps; point `t` is row tile `t / 16`, step `t % 16`. The body clears
  its accumulator at step 0, adds one 1024 x 1024 product at every step, and copies the accumulator into the
  output tile at step 15; at the other steps the output tile is left alone and not written back.
-/
import proofs.«118624_j71571335020920_2_alg».proof.Proof.Gen.KernelIdeal.Launch
import proofs.«118624_j71571335020920_2_alg».proof.Proof.Gen.KernelIdeal.Skeleton
import proofs.«118624_j71571335020920_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- core `c`'s buffer contents when the kernel is entered: the parameter everything here is stated at
variable (V : (c : Dev nD) → (b : Ref sig .tc) → Buf (Elt F) ((c : Thread nD τ).loc b))

/-! ## The windows' blocks -/

/-- Window `w`'s block at point `t`, read off its array as the kernel finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The weights' staging buffer holds the weights' block at every point, for any proof data over `V` whose body leaves it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the slot rows' staging buffer. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branches, decided over the grid -/

/-- "This is reduction step 0", as the body computes it. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)

/-- "This is reduction step 15", as the body computes it. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the output tile is idle -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
theorem liveAt1_2_C : ∀ t : Fin cfg1.N, ¬cond1_0 (grid1.coords t) → cond1_1 (grid1.coords t) → cfg1.idle 2 (grid1.coords t) = false := by decide +kernel

/-! ## The memrefs the body is called with -/

/-- One staging buffer of the output tile, through which its contents are stated. -/
abbrev VO1_2 : View sig .tc .vmem S1024x1024 .f32 := (Memref.whole cc1_stg2_0 : Memref sig .tc .vmem S1024x1024 .f32).view
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1_0 : Memref sig .tc .vmem S1024x1024 .f32 := Memref.whole cc1_scratch0
abbrev VS1_0 : View sig .tc .vmem S1024x1024 .f32 := scM1_0.view

/-! ## The scoped buffers the kernel does not stage: the accumulator and the rest -/

/-- Every scoped buffer that is neither a staging buffer of this kernel nor its accumulator, each at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- The unstaged scoped buffers are the accumulator, at some contents, beside the others. -/
theorem split1 (c : Dev nD) :
    (Pipeline.scopedRest (Ix := Unit) (Name := ℕ) (U := UR sig nD τ) (Lvl := ℕ) (Val := Elt F) spec1 c : sProp 𝕄)
      ⊢ iprop((∃ d, owns (c : Thread nD τ) scM1_0 fullShare d) ∗ others1 (F := F) c) := by
  rw [scopedRest1_eq]; unfold others1; simp only [scM1_0, owns_whole]
  iintro ⟨H0, H1, H2, H3, H4, H5, H6, H7, H8, H9⟩
  isplitl [H9]; · iexact H9
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- And back. -/
theorem join1 (c : Dev nD) :
    iprop((∃ d, owns (c : Thread nD τ) scM1_0 fullShare d) ∗ others1 (F := F) c)
      ⊢ (Pipeline.scopedRest (Ix := Unit) (Name := ℕ) (U := UR sig nD τ) (Lvl := ℕ) (Val := Elt F) spec1 c : sProp 𝕄) := by
  rw [scopedRest1_eq]; unfold others1; simp only [scM1_0, owns_whole]
  iintro ⟨H9, H0, H1, H2, H3, H4, H5, H6, H7, H8⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end Cert.KernelIdeal.Hand

end
-- ==== Proof.R1RunA.lean ====
/-
  The second kernel's body at a point of reduction step 0 (and not step 15): the accumulator is cleared and the
  first product added; the output tile is handed back untouched.
-/
import proofs.«118624_j71571335020920_2_alg».proof.Proof.R1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the accumulator at such a point, with the proof that the body runs: the inputs
    at their contents and handed back as they were, the output tile at any contents and handed back at the same,
    the accumulator entered at anything. -/
noncomputable def kernelRun1_A (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole) (hc0 : cond1_0 i) (hc1 : ¬cond1_1 i)
    (x0 : Vec F S1024x1024 .f32) (x1 : Vec F S1024x1024 .bf16) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__combine_kernel i arg2 harg2 arg3 harg3 arg4 harg4 arg5 harg5) K } := by
  refine ⟨[], ?_, fun xi2 E K => ?run⟩
  case run =>
    simp only [cc1__combine_kernel_eq_skeleton]; unfold cc1__combine_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.R1RunB.lean ====
/-
  The second kernel's body at a point that is neither reduction step 0 nor step 15: one product is added to the
  accumulator; the output tile is handed back untouched.
-/
import proofs.«118624_j71571335020920_2_alg».proof.Proof.R1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the accumulator at such a point, with the proof that the body runs: the
    accumulator entered at the contents `xs0` the point before left. -/
noncomputable def kernelRun1_B (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole) (hc0 : ¬cond1_0 i) (hc1 : ¬cond1_1 i)
    (x0 : Vec F S1024x1024 .f32) (x1 : Vec F S1024x1024 .bf16) (xs0 : Vec F S1024x1024 .f32) :
    Σ' (L2 : List (View.Piece (Elt F) S1024x1024 .f32)), { LS0 : List (View.Piece (Elt F) S1024x1024 .f32) //
      ∀ (xi2 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__combine_kernel i arg2 harg2 arg3 harg3 arg4 harg4 arg5 harg5) K } := by
  refine ⟨[], ?_, fun xi2 E K => ?run⟩
  case run =>
    simp only [cc1__combine_kernel_eq_skeleton]; unfold cc1__combine_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.R1RunC.lean ====
/-
  The second kernel's body at a point of reduction step 15 (and not step 0): the last product is added to the
  accumulator and the accumulator is copied into the output tile.
-/
import proofs.«118624_j71571335020920_2_alg».proof.Proof.R1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the output tile and in the accumulator at such a point, with the proof that the
    body runs: the output tile entered at anything, the accumulator at the contents `xs0` the point before left. -/
noncomputable def kernelRun1_C (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole) (hc0 : ¬cond1_0 i) (hc1 : cond1_1 i)
    (x0 : Vec F S1024x1024 .f32) (x1 : Vec F S1024x1024 .bf16) (xs0 : Vec F S1024x1024 .f32) :
    Σ' (L2 : List (View.Piece (Elt F) S1024x1024 .f32)), { LS0 : List (View.Piece (Elt F) S1024x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__combine_kernel i arg2 harg2 arg3 harg3 arg4 harg4 arg5 harg5) K } := by
  refine ⟨?_, ?_, fun E K => ?run⟩
  case run =>
    simp only [cc1__combine_kernel_eq_skeleton]; unfold cc1__combine_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.R1Frame.lean ====
/-
  The second kernel (the weighted combination of the slot rows): what its output tile and its accumulator hold after each grid point, the invariant
  that carries the accumulator from one point to the next, and the proof that the body, called at any point with its
  blocks in place, adds one product of a weights block and a block of slot rows and, at the last reduction step, copies the accumulator into the output tile.
-/
import proofs.«118624_j71571335020920_2_alg».proof.Proof.R1RunA
import proofs.«118624_j71571335020920_2_alg».proof.Proof.R1RunB
import proofs.«118624_j71571335020920_2_alg».proof.Proof.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- core `c`'s buffer contents when the kernel is entered
variable (V : (c : Dev nD) → (b : Ref sig .tc) → Buf (Elt F) ((c : Thread nD τ).loc b))

/-! ## What each case leaves in the output tile and in the accumulator -/

/-- At a first reduction step the body stores nothing into the output tile: a placeholder nothing consults. -/
def out1_A_2 (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole) (hc0 : cond1_0 i) (hc1 : ¬cond1_1 i) (x0 : Vec F S1024x1024 .f32) (x1 : Vec F S1024x1024 .bf16) : Vec F S1024x1024 .f32 :=
  VO1_2.read (Elt F) (VO1_2.writes (Elt F) VO1_2.junk (kernelRun1_A c i arg2 harg2 arg3 harg3 arg4 harg4 arg5 harg5 hc0 hc1 x0 x1).1)

/-- The accumulator's pieces at a first reduction step cover it. -/
theorem scover1_A_0 (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole) (hc0 : cond1_0 i) (hc1 : ¬cond1_1 i) (x0 : Vec F S1024x1024 .f32) (x1 : Vec F S1024x1024 .bf16) (y : S1024x1024.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S1024x1024.size (by sl_kernel_rfl) y

/-- What a first reduction step leaves in the accumulator. -/
def sout1_A_0 (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole) (hc0 : cond1_0 i) (hc1 : ¬cond1_1 i) (x0 : Vec F S1024x1024 .f32) (x1 : Vec F S1024x1024 .bf16) : Vec F S1024x1024 .f32 :=
  VS1_0.read (Elt F) (VS1_0.writes (Elt F) VS1_0.junk (kernelRun1_A c i arg2 harg2 arg3 harg3 arg4 harg4 arg5 harg5 hc0 hc1 x0 x1).2.1)

/-- At a middle reduction step the body stores nothing into the output tile: a placeholder nothing consults. -/
def out1_B_2 (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole) (hc0 : ¬cond1_0 i) (hc1 : ¬cond1_1 i) (x0 : Vec F S1024x1024 .f32) (x1 : Vec F S1024x1024 .bf16) (xs0 : Vec F S1024x1024 .f32) : Vec F S1024x1024 .f32 :=
  VO1_2.read (Elt F) (VO1_2.writes (Elt F) VO1_2.junk (kernelRun1_B c i arg2 harg2 arg3 harg3 arg4 harg4 arg5 harg5 hc0 hc1 x0 x1 xs0).1)

/-- The accumulator's pieces at a middle reduction step cover it. -/
theorem scover1_B_0 (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole) (hc0 : ¬cond1_0 i) (hc1 : ¬cond1_1 i) (x0 : Vec F S1024x1024 .f32) (x1 : Vec F S1024x1024 .bf16) (xs0 : Vec F S1024x1024 .f32) (y : S1024x1024.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S1024x1024.size (by sl_kernel_rfl) y

/-- What a middle reduction step leaves in the accumulator. -/
def sout1_B_0 (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole) (hc0 : ¬cond1_0 i) (hc1 : ¬cond1_1 i) (x0 : Vec F S1024x1024 .f32) (x1 : Vec F S1024x1024 .bf16) (xs0 : Vec F S1024x1024 .f32) : Vec F S1024x1024 .f32 :=
  VS1_0.read (Elt F) (VS1_0.writes (Elt F) VS1_0.junk (kernelRun1_B c i arg2 harg2 arg3 harg3 arg4 harg4 arg5 harg5 hc0 hc1 x0 x1 xs0).2.1)

/-- The output tile's pieces at a last reduction step cover it. -/
theorem cover1_C_2 (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole) (hc0 : ¬cond1_0 i) (hc1 : cond1_1 i) (x0 : Vec F S1024x1024 .f32) (x1 : Vec F S1024x1024 .bf16) (xs0 : Vec F S1024x1024 .f32) (y : S1024x1024.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S1024x1024.size (by sl_kernel_rfl) y

/-- What a last reduction step leaves in the output tile. -/
def out1_C_2 (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole) (hc0 : ¬cond1_0 i) (hc1 : cond1_1 i) (x0 : Vec F S1024x1024 .f32) (x1 : Vec F S1024x1024 .bf16) (xs0 : Vec F S1024x1024 .f32) : Vec F S1024x1024 .f32 :=
  VO1_2.read (Elt F) (VO1_2.writes (Elt F) VO1_2.junk (kernelRun1_C c i arg2 harg2 arg3 harg3 arg4 harg4 arg5 harg5 hc0 hc1 x0 x1 xs0).1)

/-- The accumulator's pieces at a last reduction step cover it. -/
theorem scover1_C_0 (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole) (hc0 : ¬cond1_0 i) (hc1 : cond1_1 i) (x0 : Vec F S1024x1024 .f32) (x1 : Vec F S1024x1024 .bf16) (xs0 : Vec F S1024x1024 .f32) (y : S1024x1024.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S1024x1024.size (by sl_kernel_rfl) y

/-- What a last reduction step leaves in the accumulator. -/
def sout1_C_0 (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole) (hc0 : ¬cond1_0 i) (hc1 : cond1_1 i) (x0 : Vec F S1024x1024 .f32) (x1 : Vec F S1024x1024 .bf16) (xs0 : Vec F S1024x1024 .f32) : Vec F S1024x1024 .f32 :=
  VS1_0.read (Elt F) (VS1_0.writes (Elt F) VS1_0.junk (kernelRun1_C c i arg2 harg2 arg3 harg3 arg4 harg4 arg5 harg5 hc0 hc1 x0 x1 xs0).2.1)

/-! ## What they hold after each point -/

/-- The output tile's staging buffer and the accumulator after the body at position `n`: the case the position's
    reduction step selects, run on the point's blocks, the accumulator entered at what position `n - 1` left. -/
def outsAt1 (c : Dev nD) : (n : ℕ) → n < cfg1.N → Vec F S1024x1024 .f32 × Vec F S1024x1024 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 16 = 0 then
      if h1 : (n + 1) % 16 = 15 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 16 = 15 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- At a first reduction step. -/
theorem outsAt1_A (c : Dev nD) (t : Fin cfg1.N) (h0 : t.val % 16 = 0) (h1 : ¬t.val % 16 = 15) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- At a middle reduction step, over what the point before left. -/
theorem outsAt1_B (c : Dev nD) (t : Fin cfg1.N) (h0 : ¬t.val % 16 = 0) (h1 : ¬t.val % 16 = 15) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last reduction step, over what the point before left. -/
theorem outsAt1_C (c : Dev nD) (t : Fin cfg1.N) (h0 : ¬t.val % 16 = 0) (h1 : t.val % 16 = 15) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: before the first point every unstaged scoped buffer is at anything; afterwards the accumulator
    holds what the point before left, the other scoped buffers anything, the generator register some state. -/
def PhiS1 (c : Dev nD) : (n : ℕ) → n ≤ cfg1.N → sProp 𝕄
  | 0, _ => Pipeline.ΦA spec1 c
  | n + 1, hn => iprop(owns (c : Thread nD τ) scM1_0 fullShare ((outsAt1 V c n hn).2) ∗ others1 (F := F) c ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1_0 fullShare ((outsAt1 V c n hn).2) ∗ others1 (F := F) c ∗ (∃ r, prngReg c r)) := rfl

theorem PhiS1_pos (c : Dev nD) (n : ℕ) (h : n ≤ cfg1.N) (hz : n ≠ 0) :
    PhiS1 V c n h = iprop(owns (c : Thread nD τ) scM1_0 fullShare ((outsAt1 V c (n - 1) (by omega)).2) ∗ others1 (F := F) c ∗ (∃ r, prngReg c r)) := by
  cases n with
  | zero => exact absurd rfl hz
  | succ n => rfl

/-! ## The proof data -/

/-- The kernel's proof data on core `c`: the arrays as the kernel finds them; after the body each input's buffer at
    its block and the output tile's at `outsAt1`; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' buffers hold their blocks; the point's reduction step selects the case; the
    invariant hands the body the accumulator at what the point before left (at anything at the very first point)
    and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 16 = 0
  · by_cases h1 : t.val % 16 = 15
    · exfalso; omega
    · rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz]; unfold Pipeline.ΦA
        iintro ⟨⟨Hsr, Hg⟩, Ho, ⟨%d0, H0⟩, ⟨%d1, H1⟩, ⟨%d2, H2⟩⟩
        ihave Hs := split1 (F := F) c $$ Hsr
        icases Hs with ⟨HS0, Hoth⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0]
          · unfold owns; iexists _; isplitr
            swap; · iexact HS0
            ipureintro; exact View.read_writes_of_cover _ _ _ _ _ (scover1_A_0 _ _ _ _ _ _ _ _ _ _ _ _ _ _)
          isplitl [Hoth]; · iexact Hoth
          iexact Hg
        isplitl [Ho]; · iexact Ho
        isplitl [H0]; · iexact H0
        isplitl [H1]; · iexact H1
        iexists _; iexact H2
      · rw [PhiS1_castSucc V c t, PhiS1_pos V c _ _ hz]
        iintro ⟨⟨HS0, Hoth, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hoth Hg]
        · isplitl [HS0]
          · unfold owns; iexists _; isplitr
            swap; · iexact HS0
            ipureintro; exact View.read_writes_of_cover _ _ _ _ _ (scover1_A_0 _ _ _ _ _ _ _ _ _ _ _ _ _ _)
          isplitl [Hoth]; · iexact Hoth
          iexact Hg
        isplitl [Ho]; · iexact Ho
        isplitl [H0]; · iexact H0
        isplitl [H1]; · iexact H1
        iexists _; iexact H2
  · by_cases h1 : t.val % 16 = 15
    · rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      have hz : t.val ≠ 0 := by omega
      rw [PhiS1_castSucc V c t, PhiS1_pos V c _ _ hz]
      iintro ⟨⟨HS0, Hoth, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0]
        · unfold owns; iexists _; isplitr
          swap; · iexact HS0
          ipureintro; exact View.read_writes_of_cover _ _ _ _ _ (scover1_C_0 _ _ _ _ _ _ _ _ _ _ _ _ _ _ _)
        isplitl [Hoth]; · iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 _ _ _ _ _ _ _ _ _ _ _ _ _ _ _)
    · rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      have hz : t.val ≠ 0 := by omega
      rw [PhiS1_castSucc V c t, PhiS1_pos V c _ _ hz]
      iintro ⟨⟨HS0, Hoth, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0]
        · unfold owns; iexists _; isplitr
          swap; · iexact HS0
          ipureintro; exact View.read_writes_of_cover _ _ _ _ _ (scover1_B_0 _ _ _ _ _ _ _ _ _ _ _ _ _ _ _)
        isplitl [Hoth]; · iexact Hoth
        iexact Hg
      isplitl [Ho]; · iexact Ho
      isplitl [H0]; · iexact H0
      isplitl [H1]; · iexact H1
      iexists _; iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

/-- The invariant before the first point is every unstaged scoped buffer at anything, beside the generator register. -/
theorem Phi_first1 (c : Dev nD) : (dat1 V c).Φ 0 = Pipeline.ΦA spec1 c := rfl

/-- After the last point the invariant gives the unstaged scoped buffers back, the accumulator's contents forgotten. -/
theorem Phi_last1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega)]
  unfold Pipeline.ΦA
  iintro ⟨HS0, Hoth, Hg⟩
  isplitl [HS0 Hoth]
  · iapply (join1 (F := F) c)
    isplitl [HS0]; · iexists _; iexact HS0
    iexact Hoth
  iexact Hg

end Cert.KernelIdeal.Hand

end
-- ==== Proof.Run.lean ====
/-
  The whole program, run from the launch to the return: the first kernel, the reshape of the combine weights, the
  second kernel, the reshape of the result. The buffers' contents at each boundary are a fold from the launch
  memory; at the end every unscoped buffer holds the last boundary's contents.
-/
import proofs.«118624_j71571335020920_2_alg».proof.Proof.R0Frame
import proofs.«118624_j71571335020920_2_alg».proof.Proof.R1Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch: the first kernel's entry. -/
abbrev W0 : Dev nD → Valuation τ sig (Elt F) := fun c b => (s₀ m ρ).mem ((c : Dev nD), b)
abbrev VE0 : (c : Dev nD) → (b : Ref sig .tc) → Buf (Elt F) ((c : Thread nD τ).loc b) := fun c b => W0 m ρ c b
/-- At the first kernel's exit: its arrays at what the pipeline leaves, every other buffer as entered. -/
def W1 (c : Dev nD) : Valuation τ sig (Elt F) :=
  Pipeline.withArrays spec0 c (W0 m ρ c) fun w => (dat0 (VE0 m ρ) c).arrAt w cfg0.N
theorem W1_arr (c : Dev nD) (w : Fin cfg0.W) :
    W1 m ρ c (Proc.devRef .tc (Pipeline.arrRef spec0 w)) = (dat0 (VE0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev VX0 : (c : Dev nD) → (b : Ref sig .tc) → Buf (Elt F) ((c : Thread nD τ).loc b) := fun c b => W1 m ρ c b
theorem hF0 (c : Dev nD) (w : Fin cfg0.W) : (dat0 (VE0 m ρ) c).arrAt w cfg0.N = VX0 m ρ c (Pipeline.arrRef spec0 w) :=
  (W1_arr m ρ c w).symm
theorem hrest0 (c : Dev nD) : ∀ b, b ∉ Finset.univ.image (Pipeline.arrRef spec0) → VX0 m ρ c b = VE0 m ρ c b :=
  fun b hb => W1_of_ne m ρ c b fun w e => hb (Finset.mem_image.mpr ⟨w, Finset.mem_univ _, e⟩)

/-- After the reshape of the combine weights: the second kernel's entry. -/
abbrev W2 : Dev nD → Valuation τ sig (Elt F) := fun c => StableHlo.after hostOps1 (W1 m ρ c)
abbrev VE1 : (c : Dev nD) → (b : Ref sig .tc) → Buf (Elt F) ((c : Thread nD τ).loc b) := fun c b => W2 m ρ c b
/-- At the second kernel's exit. -/
def W3 (c : Dev nD) : Valuation τ sig (Elt F) :=
  Pipeline.withArrays spec1 c (W2 m ρ c) fun w => (dat1 (VE1 m ρ) c).arrAt w cfg1.N
theorem W3_arr (c : Dev nD) (w : Fin cfg1.W) :
    W3 m ρ c (Proc.devRef .tc (Pipeline.arrRef spec1 w)) = (dat1 (VE1 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev VX1 : (c : Dev nD) → (b : Ref sig .tc) → Buf (Elt F) ((c : Thread nD τ).loc b) := fun c b => W3 m ρ c b
theorem hF1 (c : Dev nD) (w : Fin cfg1.W) : (dat1 (VE1 m ρ) c).arrAt w cfg1.N = VX1 m ρ c (Pipeline.arrRef spec1 w) :=
  (W3_arr m ρ c w).symm
theorem hrest1 (c : Dev nD) : ∀ b, b ∉ Finset.univ.image (Pipeline.arrRef spec1) → VX1 m ρ c b = VE1 m ρ c b :=
  fun b hb => W3_of_ne m ρ c b fun w e => hb (Finset.mem_image.mpr ⟨w, Finset.mem_univ _, e⟩)

/-- After the reshape of the result: the return. -/
abbrev W4 : Dev nD → Valuation τ sig (Elt F) := fun c => StableHlo.after hostOps2 (W3 m ρ c)

/-! ## The arguments end as launched -/

/-- `main_arg0` ends as launched: no host operation writes it and each kernel only reads it or does not touch it. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W2 m ρ c (Proc.devRef .tc main_arg0) := W3_of_ne m ρ c main_arg0 (by decide)
    _ = W1 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W0 m ρ c (Proc.devRef .tc main_arg0) := (W1_arr m ρ c 0).trans (((dat0 (VE0 m ρ) c).arrAt_in 0 rfl _).trans (A_eq0 (VE0 m ρ) c 0))
    _ = m ((c : Thread nD τ).loc main_arg0) := rfl

/-- `main_arg1` ends as launched: no host operation writes it and each kernel only reads it or does not touch it. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W2 m ρ c (Proc.devRef .tc main_arg1) := W3_of_ne m ρ c main_arg1 (by decide)
    _ = W1 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W0 m ρ c (Proc.devRef .tc main_arg1) := W1_of_ne m ρ c main_arg1 (by decide)
    _ = m ((c : Thread nD τ).loc main_arg1) := rfl

/-- `main_arg2` ends as launched: no host operation writes it and each kernel only reads it or does not touch it. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_forall_not_mem (b := Proc.devRef .tc main_arg2) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W2 m ρ c (Proc.devRef .tc main_arg2) := W3_of_ne m ρ c main_arg2 (by decide)
    _ = W1 m ρ c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W0 m ρ c (Proc.devRef .tc main_arg2) := (W1_arr m ρ c 1).trans (((dat0 (VE0 m ρ) c).arrAt_in 1 rfl _).trans (A_eq0 (VE0 m ρ) c 1))
    _ = m ((c : Thread nD τ).loc main_arg2) := rfl

/-- `main_arg3` ends as launched: no host operation writes it and each kernel only reads it or does not touch it. -/
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_forall_not_mem (b := Proc.devRef .tc main_arg3) _ _ (List.forall_iff_forall_mem.mp (by
          simp only [hostOps2, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W2 m ρ c (Proc.devRef .tc main_arg3) := W3_of_ne m ρ c main_arg3 (by decide)
    _ = W1 m ρ c (Proc.devRef .tc main_arg3) := StableHlo.after_of_forall_not_mem (b := Proc.devRef .tc main_arg3) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W0 m ρ c (Proc.devRef .tc main_arg3) := (W1_arr m ρ c 2).trans (((dat0 (VE0 m ρ) c).arrAt_in 2 rfl _).trans (A_eq0 (VE0 m ρ) c 2))
    _ = m ((c : Thread nD τ).loc main_arg3) := rfl

/-! ## The proof data family and the thread state -/

abbrev adm : (p : Fin 2) → (pcfgs (F := F) p).Adm := fun p => (cfgs p).toPCfg_adm
/-- Each kernel's proof data at its entry contents. -/
def pdats : (p : Fin 2) → (c : Dev nD) → Dat τ (Elt F) Unit ℕ (UR sig nD τ) ℕ (Pipeline.pin (pcfgs (F := F)) adm p) c
  | ⟨0, _⟩ => fun c => dat0 (VE0 m ρ) c
  | ⟨1, _⟩ => fun c => dat1 (VE1 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The kernels as segments -/

set_option backward.isDefEq.respectTransparency.types false in
/-- Kernel 0 as a segment of the run: entered with every unscoped buffer at the contents before it and left with its
    output array at what its write-backs leave and every other buffer as entered; its accumulator and the other
    scoped buffers enter the invariant at anything and are given back at anything; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VE0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (VE0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (VE0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from Phi_last0 (VE0 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (VE0 m ρ c) (VX0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel 1 as a segment of the run: entered with every unscoped buffer at the contents before it and left with its
    output array at what its write-backs leave and every other buffer as entered; its accumulator and the other
    scoped buffers enter the invariant at anything and are given back at anything; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VE1 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (VE1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (VE1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from Phi_last1 (VE1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (VE1 m ρ c) (VX1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]

theorem main_run (c : Dev nD) : main (F := F) c = Pipeline.Seg.run (segs m ρ) := (main_chain c).trans (by chain_rfl)

set_option backward.isDefEq.respectTransparency.types false in
/-- From any memory with zero counters every weakly fair execution of the program terminates, faulting nowhere, and in
    every final state each unscoped buffer holds the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => StableHlo.held (c : Thread nD τ) (Pipeline.ucRefs τ sig) (W4 m ρ c))
    (hch := ⟨fun _ => .rfl, fun _ => .rfl, fun _ => .rfl, fun _ => .rfl, fun c => sep_mono .rfl (by
      iintro ⟨-, HO⟩
      iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨Hh, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.KernelIdeal.Hand

end
-- ==== Proof.Frame.lean ====
/-
  The frame of the program: it runs to the end, faults nowhere, and its four argument arrays end as launched —
  read off the run's post, at any float instance.
-/
import proofs.«118624_j71571335020920_2_alg».proof.Proof.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_main m ρ)

end Cert.KernelIdeal.Hand

end
-- ==== Proof.R1Pieces.lean ====
/-
  What each case of the second kernel's body leaves behind, as values: the accumulator after a first reduction step
  holds the step's product added to the zero fill, after any later step the step's product added to what it held;
  at the last step the output tile receives the accumulator.
-/
import proofs.«118624_j71571335020920_2_alg».proof.Proof.R1Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2_1 : (![0, 0] : Fin 2 → Nat) = fun _ => 0 := funext fun a => by fin_cases a <;> rfl
theorem hz3_1 : (![0, 0, 0] : Fin 3 → Nat) = fun _ => 0 := funext fun a => by fin_cases a <;> rfl

/-- A middle step leaves in the accumulator the step's product added to what it held. -/
theorem sout1_B_eq (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole) (hc0 : ¬cond1_0 i) (hc1 : ¬cond1_1 i) (x0 : Vec F S1024x1024 .f32) (x1 : Vec F S1024x1024 .bf16) (xs0 : Vec F S1024x1024 .f32) :
    sout1_B_0 c i arg2 harg2 arg3 harg3 arg4 harg4 arg5 harg5 hc0 hc1 x0 x1 xs0 = k1_pay2 x0 x1 xs0 := by
  have hz2 := hz2_1; have hz3 := hz3_1
  unfold sout1_B_0
  rw [View.read_writes_eq_canon _ _ _ (scover1_B_0 c i arg2 harg2 arg3 harg3 arg4 harg4 arg5 harg5 hc0 hc1 x0 x1 xs0)]
  unfold kernelRun1_B
  dsimp only
  rw [View.canon_unit_zero hz2]
  simp only [View.readAt_eq_ld, harg2.read_unread, harg3.read_unread, harg4.read_unread, harg5.read_unread, View.ld_unit_zero (S := S1024x1024) hz2]

/-- A first step leaves in the accumulator the step's product added to the zero fill. -/
theorem sout1_A_eq (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole) (hc0 : cond1_0 i) (hc1 : ¬cond1_1 i) (x0 : Vec F S1024x1024 .f32) (x1 : Vec F S1024x1024 .bf16) :
    sout1_A_0 c i arg2 harg2 arg3 harg3 arg4 harg4 arg5 harg5 hc0 hc1 x0 x1 = k1_pay2 x0 x1 (k1_pay1 (F := F)) := by
  have hz2 := hz2_1; have hz3 := hz3_1
  unfold sout1_A_0
  rw [View.read_writes_eq_canon _ _ _ (scover1_A_0 c i arg2 harg2 arg3 harg3 arg4 harg4 arg5 harg5 hc0 hc1 x0 x1)]
  unfold kernelRun1_A
  dsimp only
  sl_unfold_words
  rw [View.canon_cons_unit_zero (S := S1024x1024) hz2, View.readCov_unit_zero (S := S1024x1024) _ hz2]
  simp only [View.readAt_eq_ld, harg2.read_unread, harg3.read_unread, harg4.read_unread, harg5.read_unread, View.ld_unit_zero (S := S1024x1024) hz2]

/-- A last step leaves in the accumulator the step's product added to what it held, -/
theorem sout1_C_eq (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole) (hc0 : ¬cond1_0 i) (hc1 : cond1_1 i) (x0 : Vec F S1024x1024 .f32) (x1 : Vec F S1024x1024 .bf16) (xs0 : Vec F S1024x1024 .f32) :
    sout1_C_0 c i arg2 harg2 arg3 harg3 arg4 harg4 arg5 harg5 hc0 hc1 x0 x1 xs0 = k1_pay2 x0 x1 xs0 := by
  have hz2 := hz2_1; have hz3 := hz3_1
  unfold sout1_C_0
  rw [View.read_writes_eq_canon _ _ _ (scover1_C_0 c i arg2 harg2 arg3 harg3 arg4 harg4 arg5 harg5 hc0 hc1 x0 x1 xs0)]
  unfold kernelRun1_C
  dsimp only
  sl_unfold_words
  rw [View.canon_unit_zero hz2]
  simp only [View.readAt_eq_ld, harg2.read_unread, harg3.read_unread, harg4.read_unread, harg5.read_unread, View.ld_unit_zero (S := S1024x1024) hz2]

/-- and in the output tile that same sum. -/
theorem out1_C_eq (c : Dev nD) (i : grid1.Coords) (arg2 : Memref sig .tc .vmem S1024x1024 .f32) (harg2 : arg2.IsWhole) (arg3 : Memref sig .tc .vmem S1024x1024 .bf16) (harg3 : arg3.IsWhole) (arg4 : Memref sig .tc .vmem S1024x1024 .f32) (harg4 : arg4.IsWhole) (arg5 : Memref sig .tc .vmem S1024x1024 .f32) (harg5 : arg5.IsWhole) (hc0 : ¬cond1_0 i) (hc1 : cond1_1 i) (x0 : Vec F S1024x1024 .f32) (x1 : Vec F S1024x1024 .bf16) (xs0 : Vec F S1024x1024 .f32) :
    out1_C_2 c i arg2 harg2 arg3 harg3 arg4 harg4 arg5 harg5 hc0 hc1 x0 x1 xs0 = k1_pay2 x0 x1 xs0 := by
  have hz2 := hz2_1; have hz3 := hz3_1
  unfold out1_C_2
  rw [View.read_writes_eq_canon _ _ _ (cover1_C_2 c i arg2 harg2 arg3 harg3 arg4 harg4 arg5 harg5 hc0 hc1 x0 x1 xs0)]
  unfold kernelRun1_C
  dsimp only
  sl_unfold_words
  rw [View.canon_unit_zero hz2, View.readCov_unit_zero (S := S1024x1024) _ hz2]
  simp only [View.readAt_eq_ld, harg2.read_unread, harg3.read_unread, harg4.read_unread, harg5.read_unread, View.ld_unit_zero (S := S1024x1024) hz2]

end Cert.KernelIdeal.Hand

end
-- ==== Proof.Payloads.lean ====
/-
  The values the two kernel bodies store, read at one index over the extended reals. At the ideal values a
  narrowing of the float format and a reshape to the same shape change nothing, the zero splat is 0, and a matrix
  product into the zero accumulator is the sum over the contracted axis of the products. So: the first store
  of each body writes 0; the accumulation step adds to the accumulator's entry the partial dot product over the
  block's contracted positions; the closing step of the first body adds the bias row's entry.
-/
import proofs.«118624_j71571335020920_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayValue

open Cert.KernelIdeal Cert.KernelIdeal.Gen Idealize.ShloMosaic Idealize.ShloMosaic.ValueIdx

/-! ## The two matrix products at an index -/

/-- On the rows axis the left operand's index is the output's row. -/
theorem lhsA_0 (i : S2048x1024.Idx) (q : dot_S2048x512_S512x1024_S2048x1024_1_0_0_1_n_n.contr.Idx) :
    (dot_S2048x512_S512x1024_S2048x1024_1_0_0_1_n_n.lhsIdx i q 0).val = (i 0).val := by
  unfold DotDims.lhsIdx
  rw [dif_neg (show ¬(0 : Fin S2048x512.rank) ∈ dot_S2048x512_S512x1024_S2048x1024_1_0_0_1_n_n.lhsBatch by decide), dif_pos (show (0 : Fin S2048x512.rank) ∈ dot_S2048x512_S512x1024_S2048x1024_1_0_0_1_n_n.lhsNonContracting by decide)]
  rfl
/-- On the contracted axis the left operand's index is the contraction's coordinate. -/
theorem lhsA_1 (i : S2048x1024.Idx) (q : dot_S2048x512_S512x1024_S2048x1024_1_0_0_1_n_n.contr.Idx) :
    (dot_S2048x512_S512x1024_S2048x1024_1_0_0_1_n_n.lhsIdx i q 1).val = (q ⟨0, by decide⟩).val :=
  dot_S2048x512_S512x1024_S2048x1024_1_0_0_1_n_n.lhsIdx_val_of_single rfl i q
/-- On the contracted axis the right operand's index is the contraction's coordinate. -/
theorem rhsA_0 (i : S2048x1024.Idx) (q : dot_S2048x512_S512x1024_S2048x1024_1_0_0_1_n_n.contr.Idx) :
    (dot_S2048x512_S512x1024_S2048x1024_1_0_0_1_n_n.rhsIdx i q 0).val = (q ⟨0, by decide⟩).val :=
  dot_S2048x512_S512x1024_S2048x1024_1_0_0_1_n_n.rhsIdx_val_of_single rfl i q
/-- On the columns axis the right operand's index is the output's column. -/
theorem rhsA_1 (i : S2048x1024.Idx) (q : dot_S2048x512_S512x1024_S2048x1024_1_0_0_1_n_n.contr.Idx) :
    (dot_S2048x512_S512x1024_S2048x1024_1_0_0_1_n_n.rhsIdx i q 1).val = (i 1).val := by
  unfold DotDims.rhsIdx
  rw [dif_neg (show ¬(1 : Fin S512x1024.rank) ∈ dot_S2048x512_S512x1024_S2048x1024_1_0_0_1_n_n.rhsBatch by decide), dif_pos (show (1 : Fin S512x1024.rank) ∈ dot_S2048x512_S512x1024_S2048x1024_1_0_0_1_n_n.rhsNonContracting by decide)]
  rfl

/-- The matrix product into the zero accumulator, at (row, column): the sum over the 512 contracted positions of
    the left operand at (row, position) times the right operand at (position, column). -/
theorem mmA {φ₁ φ₂ : FTy} (a : FVec Ideal S2048x512 φ₁) (b : FVec Ideal S512x1024 φ₂) (r : Fin 2048) (o : Fin 1024) :
    matmul dot_S2048x512_S512x1024_S2048x1024_1_0_0_1_n_n none a b (constant (F := Ideal) S2048x1024 .f32 0x00000000#32) (ix2 r o)
      = ∑ j : Fin 512, a (ix2 r j) * b (ix2 j o) := by
  refine (Ideal.matmul_constant_zero_apply dot_S2048x512_S512x1024_S2048x1024_1_0_0_1_n_n none a b (ix2 r o)).trans ?_
  rw [← Equiv.sum_comp (contrEquiv1 dot_S2048x512_S512x1024_S2048x1024_1_0_0_1_n_n 512 rfl rfl).symm]
  refine Finset.sum_congr rfl fun j _ => ?_
  have hj := contrEquiv1_symm_val dot_S2048x512_S512x1024_S2048x1024_1_0_0_1_n_n 512 rfl rfl j
  have el : dot_S2048x512_S512x1024_S2048x1024_1_0_0_1_n_n.lhsIdx (ix2 r o) ((contrEquiv1 dot_S2048x512_S512x1024_S2048x1024_1_0_0_1_n_n 512 rfl rfl).symm j) = ix2 r j := funext fun c => Fin.ext (by
    match c with
    | ⟨0, _⟩ => exact lhsA_0 _ _
    | ⟨1, _⟩ => exact (lhsA_1 _ _).trans hj)
  have er : dot_S2048x512_S512x1024_S2048x1024_1_0_0_1_n_n.rhsIdx (ix2 r o) ((contrEquiv1 dot_S2048x512_S512x1024_S2048x1024_1_0_0_1_n_n 512 rfl rfl).symm j) = ix2 j o := funext fun c => Fin.ext (by
    match c with
    | ⟨0, _⟩ => exact (rhsA_0 _ _).trans hj
    | ⟨1, _⟩ => exact rhsA_1 _ _)
  rw [el, er]

/-- On the rows axis the left operand's index is the output's row. -/
theorem lhsB_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
/-- On the contracted axis the left operand's index is the contraction's coordinate. -/
theorem lhsB_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
/-- On the contracted axis the right operand's index is the contraction's coordinate. -/
theorem rhsB_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
/-- On the columns axis the right operand's index is the output's column. -/
theorem rhsB_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The matrix product into the zero accumulator, at (row, column): the sum over the 1024 contracted positions of
    the left operand at (row, position) times the right operand at (position, column). -/
theorem mmB {φ₁ φ₂ : FTy} (a : FVec Ideal S1024x1024 φ₁) (b : FVec Ideal S1024x1024 φ₂) (r : Fin 1024) (o : Fin 1024) :
    matmul dot_S1024x1024_S1024x1024_S1024x1024_1_0_0_1_n_n none a b (constant (F := Ideal) S1024x1024 .f32 0x00000000#32) (ix2 r o)
      = ∑ j : Fin 1024, a (ix2 r j) * b (ix2 j o) := by
  refine (Ideal.matmul_constant_zero_apply dot_S1024x1024_S1024x1024_S1024x1024_1_0_0_1_n_n none a b (ix2 r o)).trans ?_
  rw [← Equiv.sum_comp (contrEquiv1 dot_S1024x1024_S1024x1024_S1024x1024_1_0_0_1_n_n 1024 rfl rfl).symm]
  refine Finset.sum_congr rfl fun j _ => ?_
  have hj := contrEquiv1_symm_val dot_S1024x1024_S1024x1024_S1024x1024_1_0_0_1_n_n 1024 rfl rfl j
  have el : dot_S1024x1024_S1024x1024_S1024x1024_1_0_0_1_n_n.lhsIdx (ix2 r o) ((contrEquiv1 dot_S1024x1024_S1024x1024_S1024x1024_1_0_0_1_n_n 1024 rfl rfl).symm j) = ix2 r j := funext fun c => Fin.ext (by
    match c with
    | ⟨0, _⟩ => exact lhsB_0 _ _
    | ⟨1, _⟩ => exact (lhsB_1 _ _).trans hj)
  have er : dot_S1024x1024_S1024x1024_S1024x1024_1_0_0_1_n_n.rhsIdx (ix2 r o) ((contrEquiv1 dot_S1024x1024_S1024x1024_S1024x1024_1_0_0_1_n_n 1024 rfl rfl).symm j) = ix2 j o := funext fun c => Fin.ext (by
    match c with
    | ⟨0, _⟩ => exact (rhsB_0 _ _).trans hj
    | ⟨1, _⟩ => exact rhsB_1 _ _)
  rw [el, er]

/-! ## The stored values -/

/-- The first body's opening store writes zero everywhere. -/
theorem pay1_0 : (k0_pay1 (F := Ideal)) = fun _ => (0 : EReal) := by
  funext i
  show shapeCast S2048x1024 (broadcast S2048x1024 (Scalar.ofBits (F := Ideal) .f32 0x00000000#32)) _ i = 0
  rw [shapeCast_self]
  exact Ideal.ofBits_zero_f32

/-- The second body's opening store writes zero everywhere. -/
theorem pay1_1 : (k1_pay1 (F := Ideal)) = fun _ => (0 : EReal) := by
  funext i
  show shapeCast S1024x1024 (broadcast S1024x1024 (Scalar.ofBits (F := Ideal) .f32 0x00000000#32)) _ i = 0
  rw [shapeCast_self]
  exact Ideal.ofBits_zero_f32

/-- Dropping the leading unit axis of the matrix block: (position, column) reads (0, position, column). -/
theorem dropUnit_w (v5 : Vec Ideal S1x512x1024 .f32) (h : S1x512x1024.ShapeCasts S512x1024) (j : Fin 512) (o : Fin 1024) :
    shapeCast S512x1024 v5 h (ix2 j o) = v5 (ix3 (0 : Fin 1) j o) :=
  shapeCast_apply v5 h (ix2 j o) (ix3 (0 : Fin 1) j o)
    (by rewrite [Shape.rowMajor_val_three, Shape.rowMajor_val_two]
        show (0 * 512 + j.val) * 1024 + o.val = j.val * 1024 + o.val
        omega)

/-- The first body's accumulation step: the accumulator's entry plus the partial dot product over the block's
    512 contracted positions. -/
theorem pay2_0 (v3 : Vec Ideal S2048x512 .f32) (v5 : Vec Ideal S1x512x1024 .f32) (v8 : Vec Ideal S2048x1024 .f32) (r : Fin 2048) (o : Fin 1024) :
    k0_pay2 (F := Ideal) v3 v5 v8 (ix2 r o) = v8 (ix2 r o) + ∑ j : Fin 512, v3 (ix2 r j) * v5 (ix3 (0 : Fin 1) j o) := by
  show shapeCast S2048x1024 (addf v8 (matmul dot_S2048x512_S512x1024_S2048x1024_1_0_0_1_n_n none (truncf .bf16 v3 bitsLt_bf16_f32)
      (truncf .bf16 (shapeCast S512x1024 v5 shapeCasts_S1x512x1024_S512x1024) bitsLt_bf16_f32)
      (constant (F := Ideal) S2048x1024 .f32 0x00000000#32))) shapeCasts_S2048x1024_S2048x1024 (ix2 r o) = _
  rw [shapeCast_self, addf_apply, mmA]
  refine congrArg (v8 (ix2 r o) + ·) (Finset.sum_congr rfl fun j _ => ?_)
  rw [truncf_apply, truncf_apply, dropUnit_w]

/-- The bias block read as a row: (0, column) of the row reads (0, 0, column) of the block. -/
theorem bias_row (v17 : Vec Ideal S1x1x1024 .f32) (h1 : S1x1x1024.ShapeCasts S1024) (h2 : S1024.ShapeCasts S1x1024) (o : Fin 1024) :
    shapeCast S1x1024 (shapeCast S1024 v17 h1) h2 (ix2 (0 : Fin 1) o) = v17 (ix3 (0 : Fin 1) (0 : Fin 1) o) := by
  refine (shapeCast_apply (shapeCast S1024 v17 h1) h2 (ix2 (0 : Fin 1) o) (ix1 o)
    (by rewrite [Shape.rowMajor_val_one, Shape.rowMajor_val_two]
        show o.val = 0 * 1024 + o.val
        omega)).trans ?_
  exact shapeCast_apply v17 h1 (ix1 o) (ix3 (0 : Fin 1) (0 : Fin 1) o)
    (by rewrite [Shape.rowMajor_val_three, Shape.rowMajor_val_one]
        show (0 * 1 + 0) * 1024 + o.val = o.val
        omega)

/-- The first body's closing step: the accumulator's entry plus the bias row's entry of that column. -/
theorem pay3_0 (v17 : Vec Ideal S1x1x1024 .f32) (v19 : Vec Ideal S2048x1024 .f32) (r : Fin 2048) (o : Fin 1024) :
    k0_pay3 (F := Ideal) v17 v19 (ix2 r o) = v19 (ix2 r o) + v17 (ix3 (0 : Fin 1) (0 : Fin 1) o) := by
  show truncf (F := Ideal) .bf16 (addf (F := Ideal) v19 (broadcastTo S2048x1024 (shapeCast S1x1024 (shapeCast S1024 (v17 : FVec Ideal S1x1x1024 .f32) shapeCasts_S1x1x1024_S1024)
      shapeCasts_S1024_S1x1024) broadcasts_S1x1024_S2048x1024)) bitsLt_bf16_f32 (ix2 r o) = _
  rw [truncf_apply, addf_apply]
  refine congrArg (v19 (ix2 r o) + ·) ?_
  refine (broadcastTo_apply _ broadcasts_S1x1024_S2048x1024 (ix2 r o) (ix2 (0 : Fin 1) o) (fun a => match a with
    | ⟨0, _⟩ => by show 0 = if (1 : Nat) = 1 then 0 else r.val; rw [if_pos rfl]
    | ⟨1, _⟩ => by show o.val = if (1024 : Nat) = 1 then 0 else o.val; rw [if_neg (by decide)])).trans ?_
  exact bias_row v17 _ _ o

/-- The second body's accumulation step: the accumulator's entry plus the partial dot product over the block's
    1024 contracted positions. -/
theorem pay2_1 (v3 : Vec Ideal S1024x1024 .f32) (v6 : Vec Ideal S1024x1024 .bf16) (v8 : Vec Ideal S1024x1024 .f32) (r : Fin 1024) (o : Fin 1024) :
    k1_pay2 (F := Ideal) v3 v6 v8 (ix2 r o) = v8 (ix2 r o) + ∑ j : Fin 1024, v3 (ix2 r j) * v6 (ix2 j o) := by
  show shapeCast S1024x1024 (addf v8 (matmul dot_S1024x1024_S1024x1024_S1024x1024_1_0_0_1_n_n none
      (truncf .bf16 (shapeCast S1024x1024 v3 shapeCasts_S1024x1024_S1024x1024) bitsLt_bf16_f32)
      (shapeCast S1024x1024 v6 shapeCasts_S1024x1024_S1024x1024)
      (constant (F := Ideal) S1024x1024 .f32 0x00000000#32))) shapeCasts_S1024x1024_S1024x1024 (ix2 r o) = _
  rw [shapeCast_self, addf_apply, mmB, shapeCast_self, shapeCast_self]
  refine congrArg (v8 (ix2 r o) + ·) (Finset.sum_congr rfl fun j _ => ?_)
  rw [truncf_apply]

end Cert.KernelIdeal.PayValue

end
-- ==== Proof.Blocks.lean ====
/-
  The input windows' blocks, read at one index, are entries of the arrays they are cut from.

  The first kernel's grid is 8 experts by 1 row tile by 8 reduction steps: point `t` is expert `t / 8`, step
  `t % 8`. Its slot-row block is rows `2048 (t / 8) ..` and columns `512 (t % 8) ..`; its matrix block is expert
  `t / 8`, rows `512 (t % 8) ..`; its bias block is expert `t / 8`. The second kernel's grid is 8 row tiles by 16
  reduction steps: point `t` is row tile `t / 16`, step `t % 16`. Its weight block is rows `1024 (t / 16) ..` and
  columns `1024 (t % 16) ..`; its slot-row block is rows `1024 (t % 16) ..`. A block's coordinate in its array is
  always the block index times the block size plus the coordinate inside the block; the block indices are decided
  once over each grid.
-/
import proofs.«118624_j71571335020920_2_alg».proof.Proof.R0Base
import proofs.«118624_j71571335020920_2_alg».proof.Proof.R1Base
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

-- core `c`'s buffer contents when the kernel is entered: the parameter everything here is stated at
variable (V : (c : Dev nD) → (b : Ref sig .tc) → Buf (Elt F) ((c : Thread nD τ).loc b))

/-! ## The grids' sizes as numbers -/

/-- The first grid has 64 points. -/
theorem t0_lt (t : Fin cfg0.N) : t.val < 64 := lt_of_lt_of_eq t.isLt N_0
/-- The second grid has 128 points. -/
theorem t1_lt (t : Fin cfg1.N) : t.val < 128 := lt_of_lt_of_eq t.isLt N_1

/-! ## The block indices, decided over the grids -/

/-- The slot rows' block of the first kernel: (expert, step). -/
theorem idx0_0 : ∀ t : Fin cfg0.N, win0_0.index t 0 = t.val / 8 ∧ win0_0.index t 1 = t.val % 8 :=
  (by decide +kernel : ∀ t : Fin grid0.N, win0_0.index t 0 = t.val / 8 ∧ win0_0.index t 1 = t.val % 8)
/-- The matrix block: (expert, step, 0). -/
theorem idx0_1 : ∀ t : Fin cfg0.N, win0_1.index t 0 = t.val / 8 ∧ win0_1.index t 1 = t.val % 8 ∧ win0_1.index t 2 = 0 :=
  (by decide +kernel : ∀ t : Fin grid0.N, win0_1.index t 0 = t.val / 8 ∧ win0_1.index t 1 = t.val % 8 ∧ win0_1.index t 2 = 0)
/-- The bias block: (expert, 0, 0). -/
theorem idx0_2 : ∀ t : Fin cfg0.N, win0_2.index t 0 = t.val / 8 ∧ win0_2.index t 1 = 0 ∧ win0_2.index t 2 = 0 :=
  (by decide +kernel : ∀ t : Fin grid0.N, win0_2.index t 0 = t.val / 8 ∧ win0_2.index t 1 = 0 ∧ win0_2.index t 2 = 0)
/-- The first kernel's output tile: (expert, 0). -/
theorem oidx0_3 : ∀ t : Fin cfg0.N, win0_3.index t 0 = t.val / 8 ∧ win0_3.index t 1 = 0 :=
  (by decide +kernel : ∀ t : Fin grid0.N, win0_3.index t 0 = t.val / 8 ∧ win0_3.index t 1 = 0)
/-- The weights' block of the second kernel: (row tile, step). -/
theorem idx1_0 : ∀ t : Fin cfg1.N, win1_0.index t 0 = t.val / 16 ∧ win1_0.index t 1 = t.val % 16 :=
  (by decide +kernel : ∀ t : Fin grid1.N, win1_0.index t 0 = t.val / 16 ∧ win1_0.index t 1 = t.val % 16)
/-- The slot rows' block of the second kernel: (step, 0). -/
theorem idx1_1 : ∀ t : Fin cfg1.N, win1_1.index t 0 = t.val % 16 ∧ win1_1.index t 1 = 0 :=
  (by decide +kernel : ∀ t : Fin grid1.N, win1_1.index t 0 = t.val % 16 ∧ win1_1.index t 1 = 0)
/-- The second kernel's output tile: (row tile, 0). -/
theorem oidx1_2 : ∀ t : Fin cfg1.N, win1_2.index t 0 = t.val / 16 ∧ win1_2.index t 1 = 0 :=
  (by decide +kernel : ∀ t : Fin grid1.N, win1_2.index t 0 = t.val / 16 ∧ win1_2.index t 1 = 0)

/-! ## The blocks at an index -/

/-- The weights' block at (row, position) is the weight of token `1024 (t / 16) + row` on slot `1024 (t % 16) + position`. -/
theorem blk1_0 (c : Dev nD) (t : Fin cfg1.N) (r j : Fin 1024) :
    (iblk1 V c 0 t : Vec F S1024x1024 .f32) (ix2 r j)
      = V c main_v1 (ix2 (⟨t.val / 16 * 1024 + r.val, by have := t1_lt t; have := r.isLt; omega⟩ : Fin 8192)
          (⟨t.val % 16 * 1024 + j.val, by have := j.isLt; omega⟩ : Fin 16384)) := by
  unfold iblk1
  rw [View.read_apply]
  show V c main_v1 _ = V c main_v1 _
  refine congrArg _ ?_
  funext a
  apply Fin.ext
  match a with
  | ⟨0, _⟩ => show win1_0.index t 0 * 1024 + 1 * r.val = t.val / 16 * 1024 + r.val; rw [(idx1_0 t).1]; omega
  | ⟨1, _⟩ => show win1_0.index t 1 * 1024 + 1 * j.val = t.val % 16 * 1024 + j.val; rw [(idx1_0 t).2]; omega

/-- The slot rows' block of the second kernel at (position, feature) is slot `1024 (t % 16) + position`'s row at that feature. -/
theorem blk1_1 (c : Dev nD) (t : Fin cfg1.N) (j o : Fin 1024) :
    (iblk1 V c 1 t : Vec F S1024x1024 .bf16) (ix2 j o)
      = V c main_v0 (ix2 (⟨t.val % 16 * 1024 + j.val, by have := j.isLt; omega⟩ : Fin 16384) o) := by
  unfold iblk1
  rw [View.read_apply]
  show V c main_v0 _ = V c main_v0 _
  refine congrArg _ ?_
  funext a
  apply Fin.ext
  match a with
  | ⟨0, _⟩ => show win1_1.index t 0 * 1024 + 1 * j.val = t.val % 16 * 1024 + j.val; rw [(idx1_1 t).1]; omega
  | ⟨1, _⟩ => show win1_1.index t 1 * 1024 + 1 * o.val = o.val; rw [(idx1_1 t).2]; omega

/-- The slot rows' block of the first kernel at (row, position) is slot `2048 (t / 8) + row` at input feature `512 (t % 8) + position`. -/
theorem blk0_0 (c : Dev nD) (t : Fin cfg0.N) (r : Fin 2048) (j : Fin 512) :
    (iblk0 V c 0 t : Vec F S2048x512 .f32) (ix2 r j)
      = V c main_arg0 (ix2 (⟨t.val / 8 * 2048 + r.val, by have := t0_lt t; have := r.isLt; omega⟩ : Fin 16384)
          (⟨t.val % 8 * 512 + j.val, by have := j.isLt; omega⟩ : Fin 4096)) := by
  unfold iblk0
  rw [View.read_apply]
  show V c main_arg0 _ = V c main_arg0 _
  refine congrArg _ ?_
  funext a
  apply Fin.ext
  match a with
  | ⟨0, _⟩ => show win0_0.index t 0 * 2048 + 1 * r.val = t.val / 8 * 2048 + r.val; rw [(idx0_0 t).1]; omega
  | ⟨1, _⟩ => show win0_0.index t 1 * 512 + 1 * j.val = t.val % 8 * 512 + j.val; rw [(idx0_0 t).2]; omega

/-- The matrix block at (0, position, feature) is expert `t / 8`'s matrix at (`512 (t % 8) + position`, feature). -/
theorem blk0_1 (c : Dev nD) (t : Fin cfg0.N) (j : Fin 512) (o : Fin 1024) :
    (iblk0 V c 1 t : Vec F S1x512x1024 .f32) (ix3 (0 : Fin 1) j o)
      = V c main_arg2 (ix3 (⟨t.val / 8, by have := t0_lt t; omega⟩ : Fin 8)
          (⟨t.val % 8 * 512 + j.val, by have := j.isLt; omega⟩ : Fin 4096) o) := by
  unfold iblk0
  rw [View.read_apply]
  show V c main_arg2 _ = V c main_arg2 _
  refine congrArg _ ?_
  funext a
  apply Fin.ext
  match a with
  | ⟨0, _⟩ => show win0_1.index t 0 * 1 + 1 * 0 = t.val / 8; rw [(idx0_1 t).1]; omega
  | ⟨1, _⟩ => show win0_1.index t 1 * 512 + 1 * j.val = t.val % 8 * 512 + j.val; rw [(idx0_1 t).2.1]; omega
  | ⟨2, _⟩ => show win0_1.index t 2 * 1024 + 1 * o.val = o.val; rw [(idx0_1 t).2.2]; omega

/-- The bias block at (0, 0, feature) is expert `t / 8`'s bias at that feature. -/
theorem blk0_2 (c : Dev nD) (t : Fin cfg0.N) (o : Fin 1024) :
    (iblk0 V c 2 t : Vec F S1x1x1024 .f32) (ix3 (0 : Fin 1) (0 : Fin 1) o)
      = V c main_arg3 (ix3 (⟨t.val / 8, by have := t0_lt t; omega⟩ : Fin 8) (0 : Fin 1) o) := by
  unfold iblk0
  rw [View.read_apply]
  show V c main_arg3 _ = V c main_arg3 _
  refine congrArg _ ?_
  funext a
  apply Fin.ext
  match a with
  | ⟨0, _⟩ => show win0_2.index t 0 * 1 + 1 * 0 = t.val / 8; rw [(idx0_2 t).1]; omega
  | ⟨1, _⟩ => show win0_2.index t 1 * 1 + 1 * 0 = 0; rw [(idx0_2 t).2.1]
  | ⟨2, _⟩ => show win0_2.index t 2 * 1024 + 1 * o.val = o.val; rw [(idx0_2 t).2.2]; omega

end Cert.KernelIdeal.Hand

end
-- ==== Proof.LibAccTile.lean ====
/-
  One law of an accumulator that is cleared tile by tile, in an additive commutative monoid. Points are numbered
  tile by tile, `S` consecutive points per tile. At the first point of a tile the accumulator is cleared and
  receives the point's term; at every other point it adds the point's term to what the point before left. Then at
  the last point of tile `m` it holds the sum of the tile's `S` terms.
-/
import Idealize.ShloMosaic.PureOps.Ideal
import Mathlib.Algebra.BigOperators.Fin

open scoped BigOperators

namespace Cert.BlockSums

/-- Within tile `m`, after the point at position `k` the accumulator holds the tile's first `k + 1` terms. -/
theorem acc_tile_partial {M : Type*} [AddCommMonoid M] (S : ℕ) (N : ℕ) (p acc : ℕ → M)
    (h : ∀ n, n < N → acc n = (if n % S = 0 then 0 else acc (n - 1)) + p n) (m : ℕ) :
    ∀ k, k < S → m * S + k < N → acc (m * S + k) = ∑ j ∈ Finset.range (k + 1), p (m * S + j) := by
  have hmod : ∀ k, k < S → (m * S + k) % S = k := fun k hk => by
    rw [Nat.add_comm, Nat.add_mul_mod_self_right, Nat.mod_eq_of_lt hk]
  intro k
  induction k with
  | zero =>
    intro hk hN
    rw [h _ hN, if_pos (hmod 0 hk), zero_add, Finset.sum_range_one]
  | succ k ih =>
    intro hk hN
    have hne : ¬(m * S + (k + 1)) % S = 0 := by rw [hmod (k + 1) hk]; exact Nat.succ_ne_zero k
    have hprev : m * S + (k + 1) - 1 = m * S + k := rfl
    rw [h _ hN, if_neg hne, hprev, Finset.sum_range_succ _ (k + 1),
      ih (Nat.lt_of_succ_lt hk) (lt_trans (Nat.add_lt_add_left (Nat.lt_succ_self k) (m * S)) hN)]

/-- at the last point of tile `m` the accumulator holds the sum of the tile's `S` terms -/
theorem acc_tile {M : Type*} [AddCommMonoid M] (S : ℕ) (hS : 0 < S) (N : ℕ) (p acc : ℕ → M)
    (h : ∀ n, n < N → acc n = (if n % S = 0 then 0 else acc (n - 1)) + p n)
    (m : ℕ) (hm : m * S + (S - 1) < N) :
    acc (m * S + (S - 1)) = ∑ k : Fin S, p (m * S + k.val) := by
  rw [acc_tile_partial S N p acc h m (S - 1) (Nat.sub_lt hS Nat.one_pos) hm, Nat.sub_add_cancel hS, Finset.sum_range]

/-- tiles of 8 points -/
theorem acc_tile_8 {M : Type*} [AddCommMonoid M] (N : ℕ) (p acc : ℕ → M)
    (h : ∀ n, n < N → acc n = (if n % 8 = 0 then 0 else acc (n - 1)) + p n)
    (m : ℕ) (hm : m * 8 + 7 < N) :
    acc (m * 8 + 7) = ∑ k : Fin 8, p (m * 8 + k.val) :=
  acc_tile 8 (by decide) N p acc h m hm

/-- tiles of 16 points -/
theorem acc_tile_16 {M : Type*} [AddCommMonoid M] (N : ℕ) (p acc : ℕ → M)
    (h : ∀ n, n < N → acc n = (if n % 16 = 0 then 0 else acc (n - 1)) + p n)
    (m : ℕ) (hm : m * 16 + 15 < N) :
    acc (m * 16 + 15) = ∑ k : Fin 16, p (m * 16 + k.val) :=
  acc_tile 16 (by decide) N p acc h m hm

end Cert.BlockSums
-- ==== Proof.LibBlockSums.lean ====
/-
  Two laws of finite sums in an additive commutative monoid (no finiteness of the values is needed, so they
  hold in the extended reals as they stand): a sum over n·b indices is the sum over the n blocks of the sums
  within each block, and an accumulator that adds one term per step holds the partial sum.
-/
import Idealize.ShloMosaic.PureOps.Ideal
import Mathlib.Algebra.BigOperators.Fin
import Mathlib.Logic.Equiv.Fin.Basic

open scoped BigOperators

namespace Cert.BlockSums

/-- The `j`-th index of block `t`, among `n` blocks of `b` indices each, is below `n * b`. -/
theorem blk_lt {n b : ℕ} (t : Fin n) (j : Fin b) : t.val * b + j.val < n * b :=
  calc t.val * b + j.val < t.val * b + b := Nat.add_lt_add_left j.isLt _
    _ = (t.val + 1) * b := (Nat.succ_mul _ _).symm
    _ ≤ n * b := Nat.mul_le_mul_right b t.isLt

/-- a sum over n·b indices is the sum over n blocks of the sums over each block's b indices -/
theorem sum_blocks {M : Type*} [AddCommMonoid M] (n b : ℕ) (f : Fin (n * b) → M) :
    ∑ i : Fin (n * b), f i = ∑ t : Fin n, ∑ j : Fin b, f ⟨t.val * b + j.val, blk_lt t j⟩ := by
  rw [← Equiv.sum_comp (finProdFinEquiv (m := n) (n := b)) f, Fintype.sum_prod_type]
  refine Finset.sum_congr rfl fun t _ => Finset.sum_congr rfl fun j _ => ?_
  refine congrArg f (Fin.ext ?_)
  show j.val + b * t.val = t.val * b + j.val
  rw [Nat.mul_comm, Nat.add_comm]

/-- 4096 indices are 8 blocks of 512. -/
theorem sum_blocks_4096 {M : Type*} [AddCommMonoid M] (f : Fin 4096 → M) :
    ∑ i : Fin 4096, f i = ∑ t : Fin 8, ∑ j : Fin 512, f ⟨t.val * 512 + j.val, by
      have := t.isLt; have := j.isLt; omega⟩ :=
  sum_blocks 8 512 f

/-- 16384 indices are 16 blocks of 1024. -/
theorem sum_blocks_16384 {M : Type*} [AddCommMonoid M] (f : Fin 16384 → M) :
    ∑ k : Fin 16384, f k = ∑ t : Fin 16, ∑ j : Fin 1024, f ⟨t.val * 1024 + j.val, by
      have := t.isLt; have := j.isLt; omega⟩ :=
  sum_blocks 16 1024 f

/-- an accumulator that starts at zero-plus-first-block and adds one block per step holds the sum of the blocks so far -/
theorem acc_eq_sum {M : Type*} [AddCommMonoid M] (p : ℕ → M) (acc : ℕ → M) (h0 : acc 0 = 0 + p 0)
    (hs : ∀ n, acc (n + 1) = acc n + p (n + 1)) (n : ℕ) :
    acc n = ∑ k ∈ Finset.range (n + 1), p k := by
  induction n with
  | zero => rw [h0, zero_add, Finset.sum_range_one]
  | succ n ih => rw [Finset.sum_range_succ _ (n + 1), hs, ih]

/-- after the last step the accumulator holds the sum of all the blocks -/
theorem acc_last {M : Type*} [AddCommMonoid M] (N : ℕ) (p : ℕ → M) (acc : ℕ → M) (h0 : acc 0 = 0 + p 0)
    (hs : ∀ n, acc (n + 1) = acc n + p (n + 1)) :
    acc N = ∑ t : Fin (N + 1), p t.val := by
  rw [acc_eq_sum p acc h0 hs N, Finset.sum_range]

end Cert.BlockSums
-- ==== Proof.R1ValueA.lean ====
/-
  The second kernel's accumulator and output tile, entry by entry over the extended reals: at every point the
  accumulator's entry grows by the point's partial dot product (a weights block's row against a slot-rows block's
  column), starting from zero at the first reduction step of each row tile; so at a row tile's last step it holds the
  sum of the tile's sixteen partial products, which is the whole dot product over the 16384 slots.
-/
import proofs.«118624_j71571335020920_2_alg».proof.Proof.R1Frame
import proofs.«118624_j71571335020920_2_alg».proof.Proof.R1Pieces
import proofs.«118624_j71571335020920_2_alg».proof.Proof.Payloads
import proofs.«118624_j71571335020920_2_alg».proof.Proof.Blocks
import proofs.«118624_j71571335020920_2_alg».proof.Proof.LibAccTile
import proofs.«118624_j71571335020920_2_alg».proof.Proof.LibBlockSums
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.BlockSums Cert.KernelIdeal.PayValue
open scoped BigOperators

variable (V : (c : Dev nD) → (b : Ref sig .tc) → Buf (Elt Ideal) ((c : Thread nD τ).loc b))

/-- The weights block and the slot-rows block at point `t`, and the two arrays they are blocks of. -/
abbrev lblk1 (c : Dev nD) (t : Fin cfg1.N) : Vec Ideal S1024x1024 .f32 := iblk1 V c 0 t
abbrev rblk1 (c : Dev nD) (t : Fin cfg1.N) : Vec Ideal S1024x1024 .bf16 := iblk1 V c 1 t
abbrev arrCW (c : Dev nD) : FVec Ideal S8192x16384 .f32 := V c main_v1
abbrev arrFL (c : Dev nD) : FVec Ideal S16384x1024 .bf16 := V c main_v0

/-- The partial dot product point `t` adds at entry (r, o). -/
def part1 (c : Dev nD) (t : Fin cfg1.N) (r o : Fin 1024) : EReal :=
  ∑ j : Fin 1024, lblk1 V c t (ix2 r j) * rblk1 V c t (ix2 j o)

/-- At a first reduction step the accumulator's entry is zero plus the point's partial product. -/
theorem acc1_A (c : Dev nD) (t : Fin cfg1.N) (h0 : t.val % 16 = 0) (h1 : ¬t.val % 16 = 15) (r o : Fin 1024) :
    (outsAt1 V c t.val t.isLt).2 (ix2 r o) = 0 + part1 V c t r o := by
  rw [outsAt1_A V c t h0 h1]
  dsimp only
  rw [sout1_A_eq]
  refine (pay2_1 (iblk1 V c 0 t) (iblk1 V c 1 t) (k1_pay1 (F := Ideal)) r o).trans ?_
  rw [pay1_1]
  rfl

/-- At any later step it is the entry the point before left plus the point's partial product. -/
theorem acc1_BC (c : Dev nD) (t : Fin cfg1.N) (h0 : ¬t.val % 16 = 0) (r o : Fin 1024) :
    (outsAt1 V c t.val t.isLt).2 (ix2 r o)
      = (outsAt1 V c (t.val - 1) (Nat.lt_of_le_of_lt (Nat.sub_le _ _) t.isLt)).2 (ix2 r o) + part1 V c t r o := by
  by_cases h1 : t.val % 16 = 15
  · rw [outsAt1_C V c t h0 h1]
    dsimp only
    rw [sout1_C_eq]
    exact pay2_1 (iblk1 V c 0 t) (iblk1 V c 1 t) _ r o
  · rw [outsAt1_B V c t h0 h1]
    dsimp only
    rw [sout1_B_eq]
    exact pay2_1 (iblk1 V c 0 t) (iblk1 V c 1 t) _ r o

/-- At a last reduction step the output tile receives the accumulator. -/
theorem out1_last (c : Dev nD) (t : Fin cfg1.N) (h0 : ¬t.val % 16 = 0) (h1 : t.val % 16 = 15) :
    (outsAt1 V c t.val t.isLt).1 = (outsAt1 V c t.val t.isLt).2 := by
  rw [outsAt1_C V c t h0 h1]
  dsimp only
  rw [out1_C_eq, sout1_C_eq]

/-- The accumulator's entry after position `n`, as a function of every natural number (zero past the grid). -/
def accAt1 (c : Dev nD) (r o : Fin 1024) (n : ℕ) : EReal :=
  if h : n < cfg1.N then (outsAt1 V c n h).2 (ix2 r o) else 0
/-- The partial product position `n` adds, likewise. -/
def partAt1 (c : Dev nD) (r o : Fin 1024) (n : ℕ) : EReal :=
  if h : n < cfg1.N then part1 V c ⟨n, h⟩ r o else 0

/-- The accumulation, position by position. -/
theorem acc1_step (c : Dev nD) (r o : Fin 1024) (n : ℕ) (hn : n < cfg1.N) :
    accAt1 V c r o n = (if n % 16 = 0 then 0 else accAt1 V c r o (n - 1)) + partAt1 V c r o n := by
  unfold accAt1 partAt1
  rw [dif_pos hn, dif_pos hn]
  by_cases h0 : n % 16 = 0
  · rw [if_pos h0]
    exact acc1_A V c ⟨n, hn⟩ h0 (by dsimp only; omega) r o
  · rw [if_neg h0, dif_pos (show n - 1 < cfg1.N by omega)]
    exact acc1_BC V c ⟨n, hn⟩ h0 r o

/-- After a row tile's last step the accumulator's entry is the sum of the tile's sixteen partial products. -/
theorem acc1_tile (c : Dev nD) (r o : Fin 1024) (mi : ℕ) (hm : mi * 16 + 15 < cfg1.N) :
    accAt1 V c r o (mi * 16 + 15) = ∑ k : Fin 16, partAt1 V c r o (mi * 16 + k.val) :=
  acc_tile_16 cfg1.N (partAt1 V c r o) (accAt1 V c r o) (acc1_step V c r o) mi hm

/-- The partial product of step `k` of row tile `mi`, as entries of the two arrays. -/
theorem part1_arrays (c : Dev nD) (r o : Fin 1024) (mi : Fin 8) (k : Fin 16) :
    partAt1 V c r o (mi.val * 16 + k.val)
      = ∑ j : Fin 1024, arrCW V c (ix2 (⟨mi.val * 1024 + r.val, by have := mi.isLt; have := r.isLt; omega⟩ : Fin 8192) (⟨k.val * 1024 + j.val, by have := k.isLt; have := j.isLt; omega⟩ : Fin 16384))
          * arrFL V c (ix2 (⟨k.val * 1024 + j.val, by have := k.isLt; have := j.isLt; omega⟩ : Fin 16384) o) := by
  have hN : cfg1.N = 128 := N_1
  have hmi := mi.isLt; have hk := k.isLt
  have hlt : mi.val * 16 + k.val < cfg1.N := by omega
  unfold partAt1
  rw [dif_pos hlt]
  unfold part1
  refine Finset.sum_congr rfl fun j _ => ?_
  dsimp only [lblk1, rblk1, arrCW, arrFL]
  rw [blk1_0 V c ⟨mi.val * 16 + k.val, hlt⟩ r j, blk1_1 V c ⟨mi.val * 16 + k.val, hlt⟩ j o]
  have e1 : (mi.val * 16 + k.val) / 16 = mi.val := by omega
  have e2 : (mi.val * 16 + k.val) % 16 = k.val := by omega
  congr 2
  · exact congrArg₂ ix2 (Fin.ext (by show (mi.val * 16 + k.val) / 16 * 1024 + r.val = mi.val * 1024 + r.val; rw [e1]))
      (Fin.ext (by show (mi.val * 16 + k.val) % 16 * 1024 + j.val = k.val * 1024 + j.val; rw [e2]))
  · exact congrArg₂ ix2 (Fin.ext (by show (mi.val * 16 + k.val) % 16 * 1024 + j.val = k.val * 1024 + j.val; rw [e2])) rfl

end Cert.KernelIdeal.Hand

end
-- ==== Proof.R1Value.lean ====
/-
  The second kernel's output array after its run, as one function of its two input arrays: entry (s, o) is the sum
  over the 16384 slots of the weight at (s, slot) times the slot row's entry at (slot, o). A row tile's block is
  written back once, after the tile's last reduction step, and the eight tiles' blocks fill the array.
-/
import proofs.«118624_j71571335020920_2_alg».proof.Proof.R1ValueA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.BlockSums Cert.KernelIdeal.PayValue
open scoped BigOperators

variable (V : (c : Dev nD) → (b : Ref sig .tc) → Buf (Elt Ideal) ((c : Thread nD τ).loc b))

/-- The output array as a function of the weights array and the slot-rows array. -/
def combK (cw2 : FVec Ideal S8192x16384 .f32) (fl : FVec Ideal S16384x1024 .bf16) : FVec Ideal S8192x1024 .f32 :=
  fun i => ∑ K : Fin 16384, cw2 (ix2 (⟨(i 0).val, (i 0).isLt⟩ : Fin 8192) K) * fl (ix2 K (⟨(i 1).val, (i 1).isLt⟩ : Fin 1024))

/-- What a row tile's last step leaves in the output tile, entry by entry. -/
theorem tile1_entry (c : Dev nD) (t : Fin cfg1.N) (ht : t.val % 16 = 15) (r o : Fin 1024) :
    (outsAt1 V c t.val t.isLt).1 (ix2 r o)
      = ∑ K : Fin 16384, arrCW V c (ix2 (⟨t.val / 16 * 1024 + r.val, by have := t1_lt t; have := r.isLt; omega⟩ : Fin 8192) K) * arrFL V c (ix2 K o) := by
  have hN : cfg1.N = 128 := N_1
  have htl := t1_lt t
  have h0 : ¬t.val % 16 = 0 := by omega
  rw [out1_last V c t h0 ht]
  have hm : t.val / 16 * 16 + 15 < cfg1.N := by omega
  have a := acc1_tile V c r o (t.val / 16) hm
  have et : t.val / 16 * 16 + 15 = t.val := by omega
  rw [et] at a
  unfold accAt1 at a
  rw [dif_pos t.isLt] at a
  rw [a, sum_blocks_16384 (fun K => arrCW V c (ix2 (⟨t.val / 16 * 1024 + r.val, by omega⟩ : Fin 8192) K) * arrFL V c (ix2 K o))]
  refine Finset.sum_congr rfl fun k _ => ?_
  exact part1_arrays V c r o ⟨t.val / 16, by omega⟩ k

/-- The same, as a function of the index inside the tile. -/
theorem tile1_fun (c : Dev nD) (t : Fin cfg1.N) (ht : t.val % 16 = 15) :
    (outsAt1 V c t.val t.isLt).1 = fun y : S1024x1024.Idx =>
      combK (V c main_v1) (V c main_v0) (ix2 (⟨t.val / 16 * 1024 + (y 0).val, by have := t1_lt t; have : (y 0).val < 1024 := (y 0).isLt; omega⟩ : Fin 8192) (⟨(y 1).val, (y 1).isLt⟩ : Fin 1024)) := by
  funext y
  obtain ⟨r, o, rfl⟩ : ∃ (r o : Fin 1024), y = ix2 r o := ⟨y 0, y 1, eq_ix2 y⟩
  exact tile1_entry V c t ht r o

set_option maxRecDepth 200000 in
/-- What a flushing point writes back is its block of `combK` of the arrays as the kernel finds them. -/
theorem flushed1_eq (c : Dev nD) (t : Fin cfg1.N) (hf : (cfg1.win 2).flush t = true) :
    (dat1 V c).flushed 2 t = ((cfg1.win 2).blk t).view.read (Elt Ideal) (combK (V c main_v1) (V c main_v0)) := by
  have ht : t.val % 16 = 15 := (flush1_2 t).mp hf
  obtain ⟨e0, e1⟩ := oidx1_2 t
  show (cfg1.win 2).cut (grid1.coords t) ((dat1 V c).after 2 t) = _
  rw [after1_2, tile1_fun V c t ht]
  funext y
  have E : ((cfg1.win 2).blk t).view.emb y
      = ix2 (⟨t.val / 16 * 1024 + (y 0).val, by have := t1_lt t; have : (y 0).val < 1024 := (y 0).isLt; omega⟩ : Fin 8192) (⟨(y 1).val, (y 1).isLt⟩ : Fin 1024) := by
    funext a; apply Fin.ext
    match a with
    | ⟨0, _⟩ => show win1_2.index t 0 * 1024 + 1 * (y 0).val = t.val / 16 * 1024 + (y 0).val; rw [e0]; omega
    | ⟨1, _⟩ => show win1_2.index t 1 * 1024 + 1 * (y 1).val = (y 1).val; rw [e1]; omega
  show combK (V c main_v1) (V c main_v0) (ix2 (⟨t.val / 16 * 1024 + (y 0).val, by have := t1_lt t; have : (y 0).val < 1024 := (y 0).isLt; omega⟩ : Fin 8192) (⟨(y 1).val, (y 1).isLt⟩ : Fin 1024))
    = combK (V c main_v1) (V c main_v0) (((cfg1.win 2).blk t).view.emb y)
  rw [E]

set_option maxRecDepth 200000 in
/-- An index of the output array is in point `t`'s block iff each coordinate is in the block's range on its axis. -/
theorem mem_blk1 (t : Fin cfg1.N) (i : S8192x1024.Idx) :
    i ∈ ((cfg1.win 2).blk t).view.set ↔ ∀ a : Fin 2, win1_2.index t a * S1024x1024.size a ≤ (i a).val ∧ (i a).val < win1_2.index t a * S1024x1024.size a + S1024x1024.size a := by
  show i ∈ ((View.whole main_v2).slice (win1_2.rect t)).set ↔ _
  rw [View.set_slice_whole, Rect.mem_set_unit]
  exact Iff.rfl

/-- Every index of the output array is in the block of its row tile's last point. -/
theorem cover1 (i : S8192x1024.Idx) :
    ∃ t : Fin cfg1.N, (cfg1.win 2).flush t = true ∧ i ∈ ((cfg1.win 2).blk t).view.set := by
  have hN : cfg1.N = 128 := N_1
  have hi0 : (i 0).val < 8192 := (i 0).isLt
  have hi1 : (i 1).val < 1024 := (i 1).isLt
  refine ⟨⟨(i 0).val / 1024 * 16 + 15, by omega⟩, (flush1_2 _).mpr (by show ((i 0).val / 1024 * 16 + 15) % 16 = 15; omega), ?_⟩
  rw [mem_blk1]
  obtain ⟨e0, e1⟩ := oidx1_2 ⟨(i 0).val / 1024 * 16 + 15, by omega⟩
  intro a
  match a with
  | ⟨0, _⟩ =>
    show win1_2.index _ 0 * 1024 ≤ (i 0).val ∧ (i 0).val < win1_2.index _ 0 * 1024 + 1024
    rw [e0]; show ((i 0).val / 1024 * 16 + 15) / 16 * 1024 ≤ (i 0).val ∧ (i 0).val < ((i 0).val / 1024 * 16 + 15) / 16 * 1024 + 1024; omega
  | ⟨1, _⟩ =>
    show win1_2.index _ 1 * 1024 ≤ (i 1).val ∧ (i 1).val < win1_2.index _ 1 * 1024 + 1024
    rw [e1]; omega

/-- The output array after the kernel's run. -/
theorem final1 (c : Dev nD) : (dat1 V c).arrAt 2 cfg1.N = combK (V c main_v1) (V c main_v0) :=
  (dat1 V c).arrAt_eq_of_cover 2 (combK (V c main_v1) (V c main_v0)) (fun t hf => flushed1_eq V c t hf) cover1

end Cert.KernelIdeal.Hand

end
-- ==== Proof.R0Pieces.lean ====
/-
  What each case of the first kernel's body leaves behind, as values: the accumulator after a first reduction step
  holds the step's product added to the zero fill, after any later step the step's product added to what it held;
  at the last step the output tile receives the accumulator plus the bias row.
-/
import proofs.«118624_j71571335020920_2_alg».proof.Proof.R0Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2_0 : (![0, 0] : Fin 2 → Nat) = fun _ => 0 := funext fun a => by fin_cases a <;> rfl
theorem hz3_0 : (![0, 0, 0] : Fin 3 → Nat) = fun _ => 0 := funext fun a => by fin_cases a <;> rfl

/-- A middle step leaves in the accumulator the step's product added to what it held. -/
theorem sout0_B_eq (c : Dev nD) (i : grid0.Coords) (arg3 : Memref sig .tc .vmem S2048x512 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond0_0 i) (hc1 : ¬cond0_1 i) (x0 : Vec F S2048x512 .f32) (x1 : Vec F S1x512x1024 .f32) (x2 : Vec F S1x1x1024 .f32) (xs0 : Vec F S2048x1024 .f32) :
    sout0_B_0 c i arg3 harg3 arg4 harg4 arg5 harg5 arg6 harg6 arg7 harg7 hc0 hc1 x0 x1 x2 xs0 = k0_pay2 x0 x1 xs0 := by
  have hz2 := hz2_0; have hz3 := hz3_0
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  rw [View.canon_unit_zero hz2]
  simp only [View.readAt_eq_ld, harg3.read_unread, harg4.read_unread, harg5.read_unread, harg6.read_unread, harg7.read_unread, View.ld_unit_zero (S := S2048x1024) hz2, View.ld_unit_zero (S := S2048x512) hz2, View.ld_unit_zero (S := S1x512x1024) hz3, View.ld_unit_zero (S := S1x1x1024) hz3]

/-- A first step leaves in the accumulator the step's product added to the zero fill. -/
theorem sout0_A_eq (c : Dev nD) (i : grid0.Coords) (arg3 : Memref sig .tc .vmem S2048x512 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S2048x1024 .bf16) (harg6 : arg6.IsWhole) (arg7 : Memref sig .tc .vmem S2048x1024 .f32) (harg7 : arg7.IsWhole) (hc0 : cond0_0 i) (hc1 : ¬cond0_1 i) (x0 : Vec F S2048x512 .f32) (x1 : Vec F S1x512x1024 .f32) (x2 : Vec F S1x1x1024 .f32) :
    sout0_A_0 c i arg3 harg3 arg4 harg4 arg5 harg5 arg6 harg6 arg7 harg7 hc0 hc1 x0 x1 x2 = k0_pay2 x0 x1 (k0_pay1 (F := F)) := by
  have hz2 := hz2_0; have hz3 := hz3_0
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S2048x1024) hz2, View.readCov_unit_zero (S := S2048x1024) _ hz2]
  simp only [View.readAt_eq_ld, harg3.read_unread, harg4.read_unread, harg5.read_unread, harg6.read_unread, harg7.read_unread, View.ld_unit_zero (S := S2048x1024) hz2, View.ld_unit_zero (S := S2048x512) hz2, View.ld_unit_zero (S := S1x512x1024) hz3, View.ld_unit_zero (S := S1x1x1024) hz3]

/-- A last step leaves in the accumulator the step's product added to what it held, -/
theorem sout0_C_eq (c : Dev nD) (i : grid0.Coords) (arg3 : Memref sig .tc .vmem S2048x512 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond0_0 i) (hc1 : cond0_1 i) (x0 : Vec F S2048x512 .f32) (x1 : Vec F S1x512x1024 .f32) (x2 : Vec F S1x1x1024 .f32) (xs0 : Vec F S2048x1024 .f32) :
    sout0_C_0 c i arg3 harg3 arg4 harg4 arg5 harg5 arg6 harg6 arg7 harg7 hc0 hc1 x0 x1 x2 xs0 = k0_pay2 x0 x1 xs0 := by
  have hz2 := hz2_0; have hz3 := hz3_0
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz2]
  simp only [View.readAt_eq_ld, harg3.read_unread, harg4.read_unread, harg5.read_unread, harg6.read_unread, harg7.read_unread, View.ld_unit_zero (S := S2048x1024) hz2, View.ld_unit_zero (S := S2048x512) hz2, View.ld_unit_zero (S := S1x512x1024) hz3, View.ld_unit_zero (S := S1x1x1024) hz3]

/-- and in the output tile that sum plus the bias row. -/
theorem out0_C_eq (c : Dev nD) (i : grid0.Coords) (arg3 : Memref sig .tc .vmem S2048x512 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S2048x1024 .bf16) (harg6 : arg6.IsWhole) (arg7 : Memref sig .tc .vmem S2048x1024 .f32) (harg7 : arg7.IsWhole) (hc0 : ¬cond0_0 i) (hc1 : cond0_1 i) (x0 : Vec F S2048x512 .f32) (x1 : Vec F S1x512x1024 .f32) (x2 : Vec F S1x1x1024 .f32) (xs0 : Vec F S2048x1024 .f32) :
    out0_C_3 c i arg3 harg3 arg4 harg4 arg5 harg5 arg6 harg6 arg7 harg7 hc0 hc1 x0 x1 x2 xs0 = k0_pay3 x2 (k0_pay2 x0 x1 xs0) := by
  have hz2 := hz2_0; have hz3 := hz3_0
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz2, View.readCov_unit_zero (S := S2048x1024) _ hz2]
  simp only [View.readAt_eq_ld, harg3.read_unread, harg4.read_unread, harg5.read_unread, harg6.read_unread, harg7.read_unread, View.ld_unit_zero (S := S2048x1024) hz2, View.ld_unit_zero (S := S2048x512) hz2, View.ld_unit_zero (S := S1x512x1024) hz3, View.ld_unit_zero (S := S1x1x1024) hz3]

end Cert.KernelIdeal.Hand

end
-- ==== Proof.Spec.lean ====
/-
  The function both programs compute, over the extended reals.

  Sixteen thousand token slots are grouped by expert: slot `r` belongs to expert `r / 2048`. Each slot's row of
  4096 features is multiplied by its expert's 4096 x 1024 matrix and the expert's bias row is added (`flat`).
  Each of the 8192 output tokens is then a weighted sum of all 16384 slot rows, the weight of slot `k` read from
  the combine tensor at (token, expert of k, position of k within the expert) (`combined`). The result is the
  8192 x 1024 matrix cut into 4 batches of 2048 tokens (`result`).
-/
import Idealize.ShloMosaic.PureOps.Ideal
import Idealize.ShloMosaic.Lib.ValueIdx

noncomputable section

open scoped BigOperators

namespace Cert.ExpertCombine

open Idealize.ShloMosaic Idealize.ShloMosaic.ValueIdx

/-- The expert a slot belongs to. -/
def expertOf (r : Fin 16384) : Fin 8 := ⟨r.val / 2048, by have := r.isLt; omega⟩
/-- A slot's position within its expert. -/
def posOf (r : Fin 16384) : Fin 2048 := ⟨r.val % 2048, by omega⟩

/-- Slot `r`'s row times its expert's matrix, plus the expert's bias, at output feature `o`. -/
def flat (x : FVec Ideal ⟨2, ![16384, 4096]⟩ .f32) (w : FVec Ideal ⟨3, ![8, 4096, 1024]⟩ .f32)
    (b : FVec Ideal ⟨3, ![8, 1, 1024]⟩ .f32) (r : Fin 16384) (o : Fin 1024) : EReal :=
  (∑ i : Fin 4096, x (ix2 r i) * w (ix3 (expertOf r) i o)) + b (ix3 (expertOf r) (0 : Fin 1) o)

/-- Token `s`'s weighted sum of the slot rows `fl`, at output feature `o`. -/
def combined (cw : FVec Ideal ⟨3, ![8192, 8, 2048]⟩ .f32) (fl : Fin 16384 → Fin 1024 → EReal)
    (s : Fin 8192) (o : Fin 1024) : EReal :=
  ∑ k : Fin 16384, cw (ix3 s (expertOf k) (posOf k)) * fl k o

/-- The token a (batch, position) pair names. -/
def tokenOf (bt : Fin 4) (l : Fin 2048) : Fin 8192 := ⟨bt.val * 2048 + l.val, by have := bt.isLt; have := l.isLt; omega⟩

/-- The whole result, batch by batch. -/
def result (x : FVec Ideal ⟨2, ![16384, 4096]⟩ .f32) (cw : FVec Ideal ⟨3, ![8192, 8, 2048]⟩ .f32)
    (w : FVec Ideal ⟨3, ![8, 4096, 1024]⟩ .f32) (b : FVec Ideal ⟨3, ![8, 1, 1024]⟩ .f32) :
    FVec Ideal ⟨3, ![4, 2048, 1024]⟩ .f32 :=
  fun j => combined cw (flat x w b) (tokenOf (j 0) (j 1)) (j 2)

end Cert.ExpertCombine

end
-- ==== Proof.R0ValueA.lean ====
/-
  The first kernel's accumulator and output tile as values, entry by entry.

  At every grid point the accumulator's entry (row, feature) receives the partial dot product of the point's block
  of the slot row with the point's block of the expert's matrix column: added to zero at an expert's first
  reduction step, to what the point before left at the others. Over an expert's 8 reduction steps the 8 partial
  dot products over 512 input features each make up the dot product over all 4096 input features, and at the last
  step the output tile's entry is that dot product plus the expert's bias: the specification's slot row.
-/
import proofs.«118624_j71571335020920_2_alg».proof.Proof.R0Frame
import proofs.«118624_j71571335020920_2_alg».proof.Proof.R0Pieces
import proofs.«118624_j71571335020920_2_alg».proof.Proof.Payloads
import proofs.«118624_j71571335020920_2_alg».proof.Proof.Blocks
import proofs.«118624_j71571335020920_2_alg».proof.Proof.LibAccTile
import proofs.«118624_j71571335020920_2_alg».proof.Proof.LibBlockSums
import proofs.«118624_j71571335020920_2_alg».proof.Proof.Spec
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.ExpertCombine Cert.BlockSums Cert.KernelIdeal.PayValue

-- core `c`'s buffer contents when the kernel is entered, over the extended reals
variable (V : (c : Dev nD) → (b : Ref sig .tc) → Buf (Elt Ideal) ((c : Thread nD τ).loc b))

/-! ## The blocks and the arrays under their literal types -/

/-- The slot rows' block at point `t`. -/
abbrev xblk0 (c : Dev nD) (t : Fin cfg0.N) : Vec Ideal S2048x512 .f32 := iblk0 V c 0 t
/-- The matrix block at point `t`. -/
abbrev wblk0 (c : Dev nD) (t : Fin cfg0.N) : Vec Ideal S1x512x1024 .f32 := iblk0 V c 1 t
/-- The bias block at point `t`. -/
abbrev bblk0 (c : Dev nD) (t : Fin cfg0.N) : Vec Ideal S1x1x1024 .f32 := iblk0 V c 2 t
/-- The slot rows' array. -/
abbrev arrX0 (c : Dev nD) : FVec Ideal S16384x4096 .f32 := V c main_arg0
/-- The experts' matrices. -/
abbrev arrW0 (c : Dev nD) : FVec Ideal S8x4096x1024 .f32 := V c main_arg2
/-- The experts' bias rows. -/
abbrev arrB0 (c : Dev nD) : FVec Ideal S8x1x1024 .f32 := V c main_arg3

/-- the first kernel's output array as one function of its three argument arrays -/
def flatK (x : FVec Ideal S16384x4096 .f32) (w : FVec Ideal S8x4096x1024 .f32) (b : FVec Ideal S8x1x1024 .f32) : FVec Ideal S16384x1024 .bf16 :=
  fun i => flat x w b ⟨(i 0).val, (i 0).isLt⟩ ⟨(i 1).val, (i 1).isLt⟩

/-- Read at an index whose coordinates are known. -/
theorem flatK_apply (x : FVec Ideal S16384x4096 .f32) (w : FVec Ideal S8x4096x1024 .f32) (b : FVec Ideal S8x1x1024 .f32)
    (i : S16384x1024.Idx) (R : Fin 16384) (o : Fin 1024) (h0 : (i 0).val = R.val) (h1 : (i 1).val = o.val) :
    flatK x w b i = flat x w b R o := by
  have eA : (⟨(i 0).val, (i 0).isLt⟩ : Fin 16384) = R := Fin.ext h0
  have eB : (⟨(i 1).val, (i 1).isLt⟩ : Fin 1024) = o := Fin.ext h1
  show flat x w b ⟨(i 0).val, (i 0).isLt⟩ ⟨(i 1).val, (i 1).isLt⟩ = _
  rw [eA, eB]

/-! ## One step -/

/-- The step's partial dot product at (row, feature): over the block's 512 input features. -/
def term0 (c : Dev nD) (t : Fin cfg0.N) (r : Fin 2048) (o : Fin 1024) : EReal :=
  ∑ j : Fin 512, xblk0 V c t (ix2 r j) * wblk0 V c t (ix3 (0 : Fin 1) j o)

/-- At an expert's first reduction step the accumulator's entry is zero plus the step's partial dot product. -/
theorem acc0_first (c : Dev nD) (t : Fin cfg0.N) (h0 : t.val % 8 = 0) (r : Fin 2048) (o : Fin 1024) :
    (outsAt0 V c t.val t.isLt).2 (ix2 r o) = 0 + term0 V c t r o := by
  have h1 : ¬t.val % 8 = 7 := by omega
  rw [outsAt0_A V c t h0 h1]
  dsimp only
  rw [sout0_A_eq]
  refine (pay2_0 (xblk0 V c t) (wblk0 V c t) _ r o).trans ?_
  rw [pay1_0]
  rfl

/-- At every other step it is what the point before left plus the step's partial dot product. -/
theorem acc0_next (c : Dev nD) (t : Fin cfg0.N) (h0 : ¬t.val % 8 = 0) (r : Fin 2048) (o : Fin 1024) :
    (outsAt0 V c t.val t.isLt).2 (ix2 r o)
      = (outsAt0 V c (t.val - 1) (Nat.lt_of_le_of_lt (Nat.sub_le _ _) t.isLt)).2 (ix2 r o) + term0 V c t r o := by
  by_cases h1 : t.val % 8 = 7
  · rw [outsAt0_C V c t h0 h1]
    dsimp only
    rw [sout0_C_eq]
    exact pay2_0 (xblk0 V c t) (wblk0 V c t) _ r o
  · rw [outsAt0_B V c t h0 h1]
    dsimp only
    rw [sout0_B_eq]
    exact pay2_0 (xblk0 V c t) (wblk0 V c t) _ r o

/-- At an expert's last reduction step the output tile's entry is the accumulator's plus the bias row's. -/
theorem out0_last (c : Dev nD) (t : Fin cfg0.N) (h7 : t.val % 8 = 7) (r : Fin 2048) (o : Fin 1024) :
    (outsAt0 V c t.val t.isLt).1 (ix2 r o)
      = (outsAt0 V c t.val t.isLt).2 (ix2 r o) + bblk0 V c t (ix3 (0 : Fin 1) (0 : Fin 1) o) := by
  have h0 : ¬t.val % 8 = 0 := by omega
  rw [outsAt0_C V c t h0 h7]
  dsimp only
  rw [out0_C_eq, sout0_C_eq]
  exact pay3_0 (bblk0 V c t) _ r o

/-! ## The recurrence over the points, and an expert's eight steps -/

/-- The accumulator's entry after point `n` (zero past the grid). -/
def accN0 (c : Dev nD) (r : Fin 2048) (o : Fin 1024) (n : ℕ) : EReal :=
  if h : n < cfg0.N then (outsAt0 V c n h).2 (ix2 r o) else 0

/-- Point `n`'s partial dot product (zero past the grid). -/
def termN0 (c : Dev nD) (r : Fin 2048) (o : Fin 1024) (n : ℕ) : EReal :=
  if h : n < cfg0.N then term0 V c ⟨n, h⟩ r o else 0

/-- The accumulator is cleared at each expert's first step and otherwise adds to what the point before left. -/
theorem accN0_rec (c : Dev nD) (r : Fin 2048) (o : Fin 1024) :
    ∀ n, n < cfg0.N → accN0 V c r o n = (if n % 8 = 0 then 0 else accN0 V c r o (n - 1)) + termN0 V c r o n := by
  intro n hn
  unfold accN0 termN0
  rw [dif_pos hn, dif_pos hn]
  by_cases h0 : n % 8 = 0
  · rw [if_pos h0]
    exact acc0_first V c ⟨n, hn⟩ h0 r o
  · rw [if_neg h0, dif_pos (Nat.lt_of_le_of_lt (Nat.sub_le _ _) hn)]
    exact acc0_next V c ⟨n, hn⟩ h0 r o

/-- After an expert's last step the accumulator's entry is the sum of the expert's eight partial dot products. -/
theorem acc0_tile (c : Dev nD) (r : Fin 2048) (o : Fin 1024) (m : ℕ) (hm : m * 8 + 7 < cfg0.N) :
    accN0 V c r o (m * 8 + 7) = ∑ k : Fin 8, termN0 V c r o (m * 8 + k.val) :=
  acc_tile_8 cfg0.N (termN0 V c r o) (accN0 V c r o) (accN0_rec V c r o) m hm

/-! ## The partial dot products as entries of the arrays -/

/-- The slot that row `r` of point `t`'s tile is: row `r` of expert `t / 8`. -/
abbrev slotOf (t : Fin cfg0.N) (r : Fin 2048) : Fin 16384 :=
  ⟨t.val / 8 * 2048 + r.val, by have := t0_lt t; have := r.isLt; omega⟩
/-- Point `t`'s expert. -/
abbrev expOf (t : Fin cfg0.N) : Fin 8 := ⟨t.val / 8, by have := t0_lt t; omega⟩

/-- The product under the dot product's sum, as a function of the input feature. -/
abbrev prod0 (c : Dev nD) (R : Fin 16384) (E : Fin 8) (o : Fin 1024) : Fin 4096 → EReal :=
  fun i => arrX0 V c (ix2 R i) * arrW0 V c (ix3 E i o)

/-- It depends on its indices' values only. -/
theorem prod0_congr (c : Dev nD) {R R' : Fin 16384} {E E' : Fin 8} (o : Fin 1024) {i i' : Fin 4096}
    (hR : R.val = R'.val) (hE : E.val = E'.val) (hi : i.val = i'.val) : prod0 V c R E o i = prod0 V c R' E' o i' := by
  obtain rfl := Fin.ext hR
  obtain rfl := Fin.ext hE
  obtain rfl := Fin.ext hi
  rfl

/-- A step's partial dot product runs over input features `512 (t % 8) ..` of slot `2048 (t / 8) + r` and of expert `t / 8`'s matrix. -/
theorem term0_entries (c : Dev nD) (t : Fin cfg0.N) (r : Fin 2048) (o : Fin 1024) :
    term0 V c t r o = ∑ j : Fin 512, prod0 V c (slotOf t r) (expOf t) o
      ⟨t.val % 8 * 512 + j.val, by have := j.isLt; omega⟩ := by
  unfold term0
  refine Finset.sum_congr rfl fun j _ => ?_
  exact congrArg₂ (fun a b : EReal => a * b) (blk0_0 V c t r j) (blk0_1 V c t j o)

/-- Step `k` of point `t`'s expert. -/
theorem termN0_tile (c : Dev nD) (t : Fin cfg0.N) (r : Fin 2048) (o : Fin 1024) (k : Fin 8) :
    termN0 V c r o (t.val / 8 * 8 + k.val) = ∑ j : Fin 512, prod0 V c (slotOf t r) (expOf t) o
      ⟨k.val * 512 + j.val, by have := k.isLt; have := j.isLt; omega⟩ := by
  have hk := k.isLt
  have hN := t0_lt t
  have hlt : t.val / 8 * 8 + k.val < cfg0.N := lt_of_lt_of_eq (by omega : t.val / 8 * 8 + k.val < 64) N_0.symm
  unfold termN0
  rw [dif_pos hlt, term0_entries]
  refine Finset.sum_congr rfl fun j _ => ?_
  exact prod0_congr V c o
    (by show (t.val / 8 * 8 + k.val) / 8 * 2048 + r.val = t.val / 8 * 2048 + r.val; omega)
    (by show (t.val / 8 * 8 + k.val) / 8 = t.val / 8; omega)
    (by show (t.val / 8 * 8 + k.val) % 8 * 512 + j.val = k.val * 512 + j.val; omega)

/-- After an expert's last step the accumulator's entry is the dot product over all 4096 input features. -/
theorem acc0_last (c : Dev nD) (t : Fin cfg0.N) (h7 : t.val % 8 = 7) (r : Fin 2048) (o : Fin 1024) :
    (outsAt0 V c t.val t.isLt).2 (ix2 r o) = ∑ i : Fin 4096, prod0 V c (slotOf t r) (expOf t) o i := by
  have ht : t.val / 8 * 8 + 7 = t.val := by omega
  have hlt : t.val / 8 * 8 + 7 < cfg0.N := lt_of_eq_of_lt ht t.isLt
  calc (outsAt0 V c t.val t.isLt).2 (ix2 r o)
      = accN0 V c r o t.val := by unfold accN0; rw [dif_pos t.isLt]
    _ = accN0 V c r o (t.val / 8 * 8 + 7) := by rw [ht]
    _ = ∑ k : Fin 8, termN0 V c r o (t.val / 8 * 8 + k.val) := acc0_tile V c r o (t.val / 8) hlt
    _ = ∑ k : Fin 8, ∑ j : Fin 512, prod0 V c (slotOf t r) (expOf t) o
          ⟨k.val * 512 + j.val, by have := k.isLt; have := j.isLt; omega⟩ :=
        Finset.sum_congr rfl fun k _ => termN0_tile V c t r o k
    _ = ∑ i : Fin 4096, prod0 V c (slotOf t r) (expOf t) o i :=
        (sum_blocks_4096 (prod0 V c (slotOf t r) (expOf t) o)).symm

/-- At an expert's last step the output tile's entry (row, feature) is the specification's slot row of slot
    `2048 (t / 8) + row` at that feature. -/
theorem out0_entry (c : Dev nD) (t : Fin cfg0.N) (h7 : t.val % 8 = 7) (r : Fin 2048) (o : Fin 1024) :
    (outsAt0 V c t.val t.isLt).1 (ix2 r o) = flat (arrX0 V c) (arrW0 V c) (arrB0 V c) (slotOf t r) o := by
  have hE : expertOf (slotOf t r) = expOf t :=
    Fin.ext (by show (t.val / 8 * 2048 + r.val) / 2048 = t.val / 8; have := r.isLt; omega)
  rw [out0_last V c t h7 r o, acc0_last V c t h7 r o]
  unfold flat
  rw [hE]
  exact congrArg (fun a : EReal => (∑ i : Fin 4096, prod0 V c (slotOf t r) (expOf t) o i) + a) (blk0_2 V c t o)

end Cert.KernelIdeal.Hand

end
-- ==== Proof.R0Value.lean ====
/-
  The first kernel's output array after its run. The output tile is written back at each expert's last reduction
  step only; what is written back there is the expert's block of the specification's slot rows, and the eight
  experts' blocks cover the array.
-/
import proofs.«118624_j71571335020920_2_alg».proof.Proof.R0ValueA
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.ExpertCombine Cert.KernelIdeal.PayValue

-- core `c`'s buffer contents when the kernel is entered, over the extended reals
variable (V : (c : Dev nD) → (b : Ref sig .tc) → Buf (Elt Ideal) ((c : Thread nD τ).loc b))

/-! ## What a write-back writes, and the array at the end -/

/-- What a flushing point writes back is its block of `flatK` of the three argument arrays. -/
theorem flushed0_eq (c : Dev nD) (t : Fin cfg0.N) (hf : (cfg0.win 3).flush t = true) :
    (dat0 V c).flushed 3 t
      = ((cfg0.win 3).blk t).view.read (Elt Ideal) (flatK (V c main_arg0) (V c main_arg2) (V c main_arg3)) := by
  have h7 : t.val % 8 = 7 := (flush0_3 t).mp hf
  show (cfg0.win 3).cut (grid0.coords t) ((dat0 V c).after 3 t) = _
  rw [after0_3]
  refine funext fun (y : S2048x1024.Idx) => ?_
  obtain ⟨r, o, rfl⟩ : ∃ (r : Fin 2048) (o : Fin 1024), y = ix2 r o := ⟨y 0, y 1, eq_ix2 y⟩
  rw [View.read_apply]
  show (outsAt0 V c t.val t.isLt).1 (ix2 r o)
    = flatK (V c main_arg0) (V c main_arg2) (V c main_arg3) (((cfg0.win 3).blk t).view.emb (ix2 r o))
  rw [out0_entry V c t h7 r o]
  refine (flatK_apply _ _ _ _ (slotOf t r) o ?_ ?_).symm
  · show win0_3.index t 0 * 2048 + 1 * r.val = t.val / 8 * 2048 + r.val
    rw [(oidx0_3 t).1]; omega
  · show win0_3.index t 1 * 1024 + 1 * o.val = o.val
    rw [(oidx0_3 t).2]; omega

/-- An index of the output array is in point `t`'s block iff each coordinate is in the block's range on its axis. -/
theorem mem_blk0_3 (t : Fin cfg0.N) (i : S16384x1024.Idx) :
    i ∈ ((cfg0.win 3).blk t).view.set ↔ ∀ a : Fin 2, win0_3.index t a * S2048x1024.size a ≤ (i a).val
      ∧ (i a).val < win0_3.index t a * S2048x1024.size a + S2048x1024.size a := by
  show i ∈ ((View.whole main_v0).slice (win0_3.rect t)).set ↔ _
  rw [View.set_slice_whole, Rect.mem_set_unit]
  exact Iff.rfl

/-- Every index of the output array is in the block of its expert's last reduction step. -/
theorem cover0_3 (i : S16384x1024.Idx) :
    ∃ t : Fin cfg0.N, (cfg0.win 3).flush t = true ∧ i ∈ ((cfg0.win 3).blk t).view.set := by
  have hi0 : (i 0).val < 16384 := (i 0).isLt
  have hi1 : (i 1).val < 1024 := (i 1).isLt
  obtain ⟨t, ht⟩ : ∃ t : Fin cfg0.N, t.val = (i 0).val / 2048 * 8 + 7 :=
    ⟨⟨(i 0).val / 2048 * 8 + 7, lt_of_lt_of_eq (by omega : (i 0).val / 2048 * 8 + 7 < 64) N_0.symm⟩, rfl⟩
  refine ⟨t, (flush0_3 t).mpr (by omega), ?_⟩
  rw [mem_blk0_3]
  obtain ⟨e0, e1⟩ := oidx0_3 t
  intro a
  match a with
  | ⟨0, _⟩ =>
    show win0_3.index t 0 * 2048 ≤ (i 0).val ∧ (i 0).val < win0_3.index t 0 * 2048 + 2048
    rw [e0]; omega
  | ⟨1, _⟩ =>
    show win0_3.index t 1 * 1024 ≤ (i 1).val ∧ (i 1).val < win0_3.index t 1 * 1024 + 1024
    rw [e1]; omega

/-- The first kernel's output array after its run: the specification's slot rows, `flatK` of the three argument arrays. -/
theorem final0 (c : Dev nD) : (dat0 V c).arrAt 3 cfg0.N = flatK (V c main_arg0) (V c main_arg2) (V c main_arg3) :=
  (dat0 V c).arrAt_eq_of_cover 3 _ (fun t hf => flushed0_eq V c t hf) cover0_3

end Cert.KernelIdeal.Hand

end
-- ==== Proof.Bridge.lean ====
/-
  From the second kernel's output array to the specification: reshaping the combine tensor to (token, slot) reads
  slot `k` at (expert of k, position of k), and reshaping the (token, feature) output to (batch, position, feature)
  reads token `2048 * batch + position`; so the reshaped output is the specification's weighted sum of the slot rows.
-/
import proofs.«118624_j71571335020920_2_alg».proof.Proof.R1Value
import proofs.«118624_j71571335020920_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.ExpertCombine
open scoped BigOperators

/-- The combine tensor flattened to (token, slot), at an index. -/
theorem cw_flat (x1 : FVec Ideal S8192x8x2048 .f32) (s : Fin 8192) (K : Fin 16384) :
    shapeCast S8192x16384 x1 shapeCasts_S8192x8x2048_S8192x16384 (ix2 s K) = x1 (ix3 s (expertOf K) (posOf K)) :=
  shapeCast_apply x1 shapeCasts_S8192x8x2048_S8192x16384 (ix2 s K) (ix3 s (expertOf K) (posOf K))
    (by rewrite [Shape.rowMajor_val_three, Shape.rowMajor_val_two]
        have := s.isLt; have := K.isLt
        show (s.val * 8 + K.val / 2048) * 2048 + K.val % 2048 = s.val * 16384 + K.val
        omega)

/-- The reshaped output of the second kernel, over a slot-rows array that agrees entrywise with `flv`, is the
    specification's weighted sum of `flv`, batch by batch. -/
theorem bridge (x1 : FVec Ideal S8192x8x2048 .f32) (fl : FVec Ideal S16384x1024 .bf16) (flv : Fin 16384 → Fin 1024 → EReal)
    (hfl : ∀ (K : Fin 16384) (o : Fin 1024), fl (ix2 K o) = flv K o) :
    shapeCast S4x2048x1024 (combK (shapeCast S8192x16384 x1 shapeCasts_S8192x8x2048_S8192x16384) fl) shapeCasts_S8192x1024_S4x2048x1024
      = fun j => combined x1 flv (tokenOf (j 0) (j 1)) (j 2) := by
  funext j
  obtain ⟨bt, l, o, rfl⟩ : ∃ (bt : Fin 4) (l : Fin 2048) (o : Fin 1024), j = ix3 bt l o := ⟨j 0, j 1, j 2, eq_ix3 j⟩
  refine (shapeCast_apply _ shapeCasts_S8192x1024_S4x2048x1024 (ix3 bt l o) (ix2 (tokenOf bt l) o)
    (by rewrite [Shape.rowMajor_val_two, Shape.rowMajor_val_three]
        show (bt.val * 2048 + l.val) * 1024 + o.val = (bt.val * 2048 + l.val) * 1024 + o.val
        rfl)).trans ?_
  show (∑ K : Fin 16384, shapeCast S8192x16384 x1 shapeCasts_S8192x8x2048_S8192x16384 (ix2 (tokenOf bt l) K) * fl (ix2 K o))
    = ∑ k : Fin 16384, x1 (ix3 (tokenOf bt l) (expertOf k) (posOf k)) * flv k o
  refine Finset.sum_congr rfl fun K _ => ?_
  rw [cw_flat, hfl]

end Cert.KernelIdeal.Hand

end
-- ==== Proof.KernelValue.lean ====
/-
  The program's result over the extended reals: the first kernel leaves the slot rows (each slot's feature row times
  its expert's matrix plus the expert's bias), the combine tensor is flattened to (token, slot), the second kernel
  leaves the weighted sums, and the final reshape cuts them into batches — the specification's `result` of the four
  argument arrays as launched.
-/
import proofs.«118624_j71571335020920_2_alg».proof.Proof.Run
import proofs.«118624_j71571335020920_2_alg».proof.Proof.R1Value
import proofs.«118624_j71571335020920_2_alg».proof.Proof.R0Value
import proofs.«118624_j71571335020920_2_alg».proof.Proof.Bridge
import proofs.«118624_j71571335020920_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.ExpertCombine
open scoped BigOperators

variable (m : (ℓ : Loc nD τ sig) → Buf (Elt Ideal) ℓ) (ρ : Dev nD → PrngReg)

/-- After the first kernel the slot-rows array holds `flatK` of the launch arguments. -/
theorem slotRows_eq (c : Dev nD) :
    W1 m ρ c (Proc.devRef .tc main_v0)
      = flatK (m ((c : Thread nD τ).loc main_arg0)) (m ((c : Thread nD τ).loc main_arg2)) (m ((c : Thread nD τ).loc main_arg3)) :=
  (W1_arr m ρ c 3).trans (final0 (VE0 m ρ) c)

/-- The second kernel finds the combine tensor flattened to (token, slot), -/
theorem entry1_cw (c : Dev nD) :
    VE1 m ρ c main_v1 = shapeCast S8192x16384 (m ((c : Thread nD τ).loc main_arg1)) shapeCasts_S8192x8x2048_S8192x16384 := by
  show StableHlo.after hostOps1 (W1 m ρ c) (Proc.devRef .tc main_v1) = _
  after_results
  rw [W1_of_ne m ρ c main_arg1 (by decide)]
  rfl

/-- and the slot rows as the first kernel left them. -/
theorem entry1_fl (c : Dev nD) :
    VE1 m ρ c main_v0
      = flatK (m ((c : Thread nD τ).loc main_arg0)) (m ((c : Thread nD τ).loc main_arg2)) (m ((c : Thread nD τ).loc main_arg3)) := by
  show StableHlo.after hostOps1 (W1 m ρ c) (Proc.devRef .tc main_v0) = _
  rw [StableHlo.after_of_forall_not_mem (b := Proc.devRef .tc main_v0) _ _ (List.forall_iff_forall_mem.mp (by
    simp only [hostOps1, List.Forall, StableHlo.reshape_writes, Finset.mem_singleton]
    exact StableHlo.devRef_ne_of_ne (by decide)))]
  exact slotRows_eq m ρ c

/-- The result array at the return is the specification's `result` of the launch arguments. -/
theorem result_eq (c : Dev nD) :
    W4 m ρ c (Proc.devRef .tc main_v3)
      = result (m ((c : Thread nD τ).loc main_arg0)) (m ((c : Thread nD τ).loc main_arg1)) (m ((c : Thread nD τ).loc main_arg2)) (m ((c : Thread nD τ).loc main_arg3)) := by
  have e : W4 m ρ c (Proc.devRef .tc main_v3)
      = shapeCast S4x2048x1024 (W3 m ρ c (Proc.devRef .tc main_v2)) shapeCasts_S8192x1024_S4x2048x1024 := by
    show StableHlo.after hostOps2 (W3 m ρ c) (Proc.devRef .tc main_v3) = _
    after_results
    rfl
  have h3 : W3 m ρ c (Proc.devRef .tc main_v2) = (dat1 (VE1 m ρ) c).arrAt 2 cfg1.N := W3_arr m ρ c 2
  rw [e, h3, final1 (VE1 m ρ) c, entry1_cw, entry1_fl]
  exact bridge _ _ _ (fun K o => rfl)

/-- The run, read: the result array at the specification's value, the arguments unchanged. -/
theorem kernel_run : θ_run defs (onTc (τ := τ) (main (F := Ideal))) ⟨m, fun _ => 0, ρ⟩ (fun r => ∀ c : Dev nD,
      r.2.mem ((c.tc : Thread nD τ).loc main_v3)
        = result (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v3 (by decide))).trans (result_eq m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_main m ρ)

end Cert.KernelIdeal.Hand

end
-- ==== Proof.RefIsSpec.lean ====
/-
  The reference program, read index by index, is the specification: entry (batch, position, feature) of its
  result is the weighted sum over the 16384 slots of the slot rows, each slot row being its feature row times
  its expert's matrix plus the expert's bias. The reference reaches this through reshapes and a transpose;
  each of them only renames indices, and the renamings are identified here one layout operation at a time.
-/
import proofs.«118624_j71571335020920_2_alg».proof.Proof.Gen.ReferenceIdeal.Read
import proofs.«118624_j71571335020920_2_alg».proof.Proof.Spec
import Idealize.ShloMosaic.Lib.ValueIdx

noncomputable section

open scoped BigOperators

namespace Cert.ReferenceIdeal.RefValue

open Cert.ReferenceIdeal Cert.ReferenceIdeal.Read Cert.ExpertCombine
open Idealize.ShloMosaic Idealize.ShloMosaic.ValueIdx

/-! ## The index renamings, one per layout operation -/

/-- Cutting the 8192 tokens into 4 batches of 2048: (batch, position, feature) is (token, feature). -/
theorem idx9 (bt : Fin 4) (l : Fin 2048) (o : Fin 1024) :
    idx_main_v9 (ix3 bt l o) = ix2 (tokenOf bt l) o := by
  have := bt.isLt; have := l.isLt; have := o.isLt
  funext a; refine Fin.ext ?_
  match a with
  | ⟨0, _⟩ => show ((bt.val * 2048 + l.val) * 1024 + o.val) / 1024 = bt.val * 2048 + l.val; omega
  | ⟨1, _⟩ => show ((bt.val * 2048 + l.val) * 1024 + o.val) % 1024 = o.val; omega

/-- The second product's left operand is read at (token, slot). -/
theorem lidx8 (s : Fin 8192) (o : Fin 1024) (k : Fin 16384) : lidx_main_v8 (ix2 s o) k = ix2 s k := by
  funext a; refine Fin.ext ?_
  match a with
  | ⟨0, _⟩ => rfl
  | ⟨1, _⟩ => rfl

/-- The second product's right operand is read at (slot, feature). -/
theorem ridx8 (s : Fin 8192) (o : Fin 1024) (k : Fin 16384) : ridx_main_v8 (ix2 s o) k = ix2 k o := by
  funext a; refine Fin.ext ?_
  match a with
  | ⟨0, _⟩ => rfl
  | ⟨1, _⟩ => rfl

/-- Flattening the combine tensor's (expert, position) axes: slot `k` is (expert of k, position of k). -/
theorem idx7 (s : Fin 8192) (k : Fin 16384) : idx_main_v7 (ix2 s k) = ix3 s (expertOf k) (posOf k) := by
  have := s.isLt; have := k.isLt
  funext a; refine Fin.ext ?_
  match a with
  | ⟨0, _⟩ => show (s.val * 16384 + k.val) / 16384 = s.val; omega
  | ⟨1, _⟩ => show (s.val * 16384 + k.val) / 2048 % 8 = k.val / 2048; omega
  | ⟨2, _⟩ => show (s.val * 16384 + k.val) % 2048 = k.val % 2048; omega

/-- Flattening (1, expert, position, feature) to (slot, feature). -/
theorem idx6 (k : Fin 16384) (o : Fin 1024) :
    idx_main_v6 (ix2 k o) = ix4 (0 : Fin 1) (expertOf k) (posOf k) o := by
  have := k.isLt; have := o.isLt
  funext a; refine Fin.ext ?_
  match a with
  | ⟨0, _⟩ => rfl
  | ⟨1, _⟩ => show (k.val * 1024 + o.val) / 2097152 % 8 = k.val / 2048; omega
  | ⟨2, _⟩ => show (k.val * 1024 + o.val) / 1024 % 2048 = k.val % 2048; omega
  | ⟨3, _⟩ => show (k.val * 1024 + o.val) % 1024 = o.val; omega

/-- The transpose exchanges the unit axis and the expert axis. -/
theorem idx5 (z : Fin 1) (e : Fin 8) (p : Fin 2048) (o : Fin 1024) :
    idx_main_v5 (ix4 z e p o) = ix4 e z p o := by
  funext a; refine Fin.ext ?_
  match a with
  | ⟨0, _⟩ => rfl
  | ⟨1, _⟩ => rfl
  | ⟨2, _⟩ => rfl
  | ⟨3, _⟩ => rfl

/-- Inserting the unit axis after the expert axis. -/
theorem idx4 (e : Fin 8) (z : Fin 1) (p : Fin 2048) (o : Fin 1024) :
    idx_main_v4 (ix4 e z p o) = ix3 e p o := by
  have := e.isLt; have := z.isLt; have := p.isLt; have := o.isLt
  funext a; refine Fin.ext ?_
  match a with
  | ⟨0, _⟩ => show (((e.val * 1 + z.val) * 2048 + p.val) * 1024 + o.val) / 2097152 = e.val; omega
  | ⟨1, _⟩ => show (((e.val * 1 + z.val) * 2048 + p.val) * 1024 + o.val) / 1024 % 2048 = p.val; omega
  | ⟨2, _⟩ => show (((e.val * 1 + z.val) * 2048 + p.val) * 1024 + o.val) % 1024 = o.val; omega

/-- The bias row is broadcast along the position axis. -/
theorem idx2 (e : Fin 8) (p : Fin 2048) (o : Fin 1024) : idx_main_v2 (ix3 e p o) = ix3 e (0 : Fin 1) o := by
  funext a; refine Fin.ext ?_
  match a with
  | ⟨0, _⟩ => rfl
  | ⟨1, _⟩ => rfl
  | ⟨2, _⟩ => rfl

/-- The first product's left operand is read at (expert, position, input feature). -/
theorem lidx1 (e : Fin 8) (p : Fin 2048) (o : Fin 1024) (i : Fin 4096) : lidx_main_v1 (ix3 e p o) i = ix3 e p i := by
  funext a; refine Fin.ext ?_
  match a with
  | ⟨0, _⟩ => rfl
  | ⟨1, _⟩ => rfl
  | ⟨2, _⟩ => rfl

/-- The first product's right operand is read at (expert, input feature, output feature). -/
theorem ridx1 (e : Fin 8) (p : Fin 2048) (o : Fin 1024) (i : Fin 4096) : ridx_main_v1 (ix3 e p o) i = ix3 e i o := by
  funext a; refine Fin.ext ?_
  match a with
  | ⟨0, _⟩ => rfl
  | ⟨1, _⟩ => rfl
  | ⟨2, _⟩ => rfl

/-- Cutting the 16384 slots into 8 experts of 2048: (expert of k, position of k, feature) is (k, feature). -/
theorem idx0 (k : Fin 16384) (i : Fin 4096) : idx_main_v0 (ix3 (expertOf k) (posOf k) i) = ix2 k i := by
  have := k.isLt; have := i.isLt
  funext a; refine Fin.ext ?_
  match a with
  | ⟨0, _⟩ => show ((k.val / 2048 * 2048 + k.val % 2048) * 4096 + i.val) / 4096 = k.val; omega
  | ⟨1, _⟩ => show ((k.val / 2048 * 2048 + k.val % 2048) * 4096 + i.val) % 4096 = i.val; omega

/-! ## The stages at an index -/

/-- The slot rows: the reference's flattened (slot, feature) array is `flat`. -/
theorem rows_eq (x0 : (⟨S16384x4096, .f32⟩ : BufTy).Contents (Elt Ideal)) (x2 : (⟨S8x4096x1024, .f32⟩ : BufTy).Contents (Elt Ideal))
    (x3 : (⟨S8x1x1024, .f32⟩ : BufTy).Contents (Elt Ideal)) (k : Fin 16384) (o : Fin 1024) :
    val_main_v6 (F := Ideal) x0 x2 x3 (ix2 k o) = flat x0 x2 x3 k o := by
  rw [val_main_v6_apply, idx6, val_main_v5_apply, idx5, val_main_v4_apply, idx4, val_main_v3_apply, val_main_v1_apply,
    val_main_v2_apply, idx2, Ideal.addf_def]
  unfold flat
  congr 1
  refine Finset.sum_congr rfl fun i _ => ?_
  rw [val_main_v0_apply, lidx1, ridx1, idx0]

/-- The reference's result is the specification's. -/
theorem ref_is_result (x0 : (⟨Cert.ReferenceIdeal.S16384x4096, .f32⟩ : BufTy).Contents (Elt Ideal)) (x1 : (⟨Cert.ReferenceIdeal.S8192x8x2048, .f32⟩ : BufTy).Contents (Elt Ideal)) (x2 : (⟨Cert.ReferenceIdeal.S8x4096x1024, .f32⟩ : BufTy).Contents (Elt Ideal)) (x3 : (⟨Cert.ReferenceIdeal.S8x1x1024, .f32⟩ : BufTy).Contents (Elt Ideal)) :
    Cert.ReferenceIdeal.Read.val_main_v9 (F := Ideal) x0 x1 x2 x3 = Cert.ExpertCombine.result x0 x1 x2 x3 := by
  funext j
  obtain ⟨bt, l, o, rfl⟩ : ∃ (bt : Fin 4) (l : Fin 2048) (o : Fin 1024), j = ix3 bt l o := ⟨j 0, j 1, j 2, eq_ix3 j⟩
  rw [val_main_v9_apply, idx9, val_main_v8_apply]
  show _ = ∑ k : Fin 16384, x1 (ix3 (tokenOf bt l) (expertOf k) (posOf k)) * flat x0 x2 x3 k o
  refine Finset.sum_congr rfl fun k _ => ?_
  rw [lidx8, ridx8, val_main_v7_apply, idx7, rows_eq]

end Cert.ReferenceIdeal.RefValue

end
-- ==== Proof.lean ====
/-
  A mixture-of-experts layer computed two ways, equal over the extended reals.

  The kernel program runs two tiled matrix products. The first multiplies each expert's 2048 slot rows (4096
  features each) by the expert's 4096 x 1024 matrix, 512 features at a time into an accumulator that starts at zero,
  and adds the expert's bias row after the eighth partial product. The second multiplies the combine weights,
  flattened to 8192 tokens by 16384 slots, by those slot rows, 1024 slots at a time into an accumulator that starts at
  zero, and stores the sum after the sixteenth partial product; the result is cut into 4 batches of 2048 tokens.
  The reference computes the same two products whole. Over the extended reals a change of float format is the
  identity, and addition is commutative and associative with 0 as its unit, so a sum over 4096 (or 16384) indices is
  the sum of its 8 (or 16) consecutive blocks' sums, accumulated in any order from zero: both programs' results are
  the one function `Cert.ExpertCombine.result` of the four argument arrays. No finiteness of the inputs is used.

  Each program also runs to the end from any memory, faults nowhere, and leaves its arguments unchanged: for the
  kernel program this is the run of its two pipelines point by point, the accumulator of each carried from one grid
  point to the next inside the pipeline's invariant; for the reference it is the run of its ten host operations.
-/
import proofs.«118624_j71571335020920_2_alg».proof.Defs
import proofs.«118624_j71571335020920_2_alg».proof.Proof.Gen.Kernel
import proofs.«118624_j71571335020920_2_alg».proof.Proof.Gen.KernelIdeal
import proofs.«118624_j71571335020920_2_alg».proof.Proof.Gen.ReferenceIdeal
import proofs.«118624_j71571335020920_2_alg».proof.Proof.Gen.ReferenceIdeal.Run
import proofs.«118624_j71571335020920_2_alg».proof.Proof.Gen.ReferenceIdeal.Read
import proofs.«118624_j71571335020920_2_alg».proof.Proof.Gen.Pre_finite_inputs
import proofs.«118624_j71571335020920_2_alg».proof.Proof.Word.Frame
import proofs.«118624_j71571335020920_2_alg».proof.Proof.Frame
import proofs.«118624_j71571335020920_2_alg».proof.Proof.KernelValue
import proofs.«118624_j71571335020920_2_alg».proof.Proof.RefIsSpec
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Hand.frame (F := Bits) m ρ

/-- So does the kernel program read over the extended reals. -/
theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing of the kernel program was rewritten for reading it over the extended reals. -/
theorem preserves : Cert.preserves_Kernel_KernelIdeal := trivial

/-- From memories that agree on the arguments both programs end with the result array at
    `Cert.ExpertCombine.result` of the arguments. -/
theorem algebraic : Cert.algebraic_KernelIdeal_ReferenceIdeal := by
  intro m ρ m' ρ' _ hagree
  refine ⟨fun c => Cert.ExpertCombine.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Hand.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.ref_is_result,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
